-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_v7) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x256 : Shape := ⟨2, ![20000, 256]⟩
abbrev S256x18 : Shape := ⟨2, ![256, 18]⟩
abbrev S18 : Shape := ⟨1, ![18]⟩
abbrev S256x42 : Shape := ⟨2, ![256, 42]⟩
abbrev S42 : Shape := ⟨1, ![42]⟩
abbrev S256x6 : Shape := ⟨2, ![256, 6]⟩
abbrev S6 : Shape := ⟨1, ![6]⟩
abbrev S_ : Shape := ⟨0, ![]⟩

class Facts : Prop where
  bcast_S_S20000x256 : S_.BroadcastsInDim S20000x256 (![] : Fin 0 → Fin S20000x256.rank)
  reducesTo_S20000x256_S_d0_1 : S20000x256.ReducesTo [0, 1] S_
  h_S_ : 0 < S_.numel
  bcast_S_S256x18 : S_.BroadcastsInDim S256x18 (![] : Fin 0 → Fin S256x18.rank)
  reducesTo_S256x18_S_d0_1 : S256x18.ReducesTo [0, 1] S_
  bcast_S_S18 : S_.BroadcastsInDim S18 (![] : Fin 0 → Fin S18.rank)
  reducesTo_S18_S_d0 : S18.ReducesTo [0] S_
  bcast_S_S256x42 : S_.BroadcastsInDim S256x42 (![] : Fin 0 → Fin S256x42.rank)
  reducesTo_S256x42_S_d0_1 : S256x42.ReducesTo [0, 1] S_
  bcast_S_S42 : S_.BroadcastsInDim S42 (![] : Fin 0 → Fin S42.rank)
  reducesTo_S42_S_d0 : S42.ReducesTo [0] S_
  bcast_S_S256x6 : S_.BroadcastsInDim S256x6 (![] : Fin 0 → Fin S256x6.rank)
  reducesTo_S256x6_S_d0_1 : S256x6.ReducesTo [0, 1] S_
  bcast_S_S6 : S_.BroadcastsInDim S6 (![] : Fin 0 → Fin S6.rank)
  reducesTo_S6_S_d0 : S6.ReducesTo [0] S_

variable [Facts]

def fn_part1 {F : FTy → Type} [FloatOps F] (main_arg4 : FVec F S42 .f32) (main_arg5 : FVec F S256x6 .f32) (main_arg6 : FVec F S6 .f32) (main_v13 : IVec S_ 1) (main_v16 : IVec S256x42 1) : IVec S_ 1 :=
  let main_c_5 : IVec S_ 1 := constantI S_ 1 1#1
  let main_v17 : IVec S_ 1 := (fun x v => Host.reduce IntOp.andi x v reducesTo_S256x42_S_d0_1 h_S_) main_v16 main_c_5
  let main_v18 : IVec S_ 1 := andi main_v13 main_v17
  let main_v19 : FVec F S42 .f32 := Host.absf main_arg4
  let main_cst_6 : FVec F S_ .f32 := constant S_ .f32 0x7F800000#32
  let main_v20 : FVec F S42 .f32 := broadcastInDim S42 ![] bcast_S_S42 main_cst_6
  let main_v21 : IVec S42 1 := cmpf .olt main_v19 main_v20
  let main_c_7 : IVec S_ 1 := constantI S_ 1 1#1
  let main_v22 : IVec S_ 1 := (fun x v => Host.reduce IntOp.andi x v reducesTo_S42_S_d0 h_S_) main_v21 main_c_7
  let main_v23 : IVec S_ 1 := andi main_v18 main_v22
  let main_v24 : FVec F S256x6 .f32 := Host.absf main_arg5
  let main_cst_8 : FVec F S_ .f32 := constant S_ .f32 0x7F800000#32
  let main_v25 : FVec F S256x6 .f32 := broadcastInDim S256x6 ![] bcast_S_S256x6 main_cst_8
  let main_v26 : IVec S256x6 1 := cmpf .olt main_v24 main_v25
  let main_c_9 : IVec S_ 1 := constantI S_ 1 1#1
  let main_v27 : IVec S_ 1 := (fun x v => Host.reduce IntOp.andi x v reducesTo_S256x6_S_d0_1 h_S_) main_v26 main_c_9
  let main_v28 : IVec S_ 1 := andi main_v23 main_v27
  let main_v29 : FVec F S6 .f32 := Host.absf main_arg6
  let main_cst_10 : FVec F S_ .f32 := constant S_ .f32 0x7F800000#32
  let main_v30 : FVec F S6 .f32 := broadcastInDim S6 ![] bcast_S_S6 main_cst_10
  let main_v31 : IVec S6 1 := cmpf .olt main_v29 main_v30
  let main_c_11 : IVec S_ 1 := constantI S_ 1 1#1
  let main_v32 : IVec S_ 1 := (fun x v => Host.reduce IntOp.andi x v reducesTo_S6_S_d0 h_S_) main_v31 main_c_11
  let main_v33 : IVec S_ 1 := andi main_v28 main_v32
  main_v33

def fn {F : FTy → Type} [FloatOps F] (main_arg0 : FVec F S20000x256 .f32) (main_arg1 : FVec F S256x18 .f32) (main_arg2 : FVec F S18 .f32) (main_arg3 : FVec F S256x42 .f32) (main_arg4 : FVec F S42 .f32) (main_arg5 : FVec F S256x6 .f32) (main_arg6 : FVec F S6 .f32) : IVec S_ 1 :=
  let main_v0 : FVec F S20000x256 .f32 := Host.absf main_arg0
  let main_cst : FVec F S_ .f32 := constant S_ .f32 0x7F800000#32
  let main_v1 : FVec F S20000x256 .f32 := broadcastInDim S20000x256 ![] bcast_S_S20000x256 main_cst
  let main_v2 : IVec S20000x256 1 := cmpf .olt main_v0 main_v1
  let main_c : IVec S_ 1 := constantI S_ 1 1#1
  let main_v3 : IVec S_ 1 := (fun x v => Host.reduce IntOp.andi x v reducesTo_S20000x256_S_d0_1 h_S_) main_v2 main_c
  let main_v4 : FVec F S256x18 .f32 := Host.absf main_arg1
  let main_cst_0 : FVec F S_ .f32 := constant S_ .f32 0x7F800000#32
  let main_v5 : FVec F S256x18 .f32 := broadcastInDim S256x18 ![] bcast_S_S256x18 main_cst_0
  let main_v6 : IVec S256x18 1 := cmpf .olt main_v4 main_v5
  let main_c_1 : IVec S_ 1 := constantI S_ 1 1#1
  let main_v7 : IVec S_ 1 := (fun x v => Host.reduce IntOp.andi x v reducesTo_S256x18_S_d0_1 h_S_) main_v6 main_c_1
  let main_v8 : IVec S_ 1 := andi main_v3 main_v7
  let main_v9 : FVec F S18 .f32 := Host.absf main_arg2
  let main_cst_2 : FVec F S_ .f32 := constant S_ .f32 0x7F800000#32
  let main_v10 : FVec F S18 .f32 := broadcastInDim S18 ![] bcast_S_S18 main_cst_2
  let main_v11 : IVec S18 1 := cmpf .olt main_v9 main_v10
  let main_c_3 : IVec S_ 1 := constantI S_ 1 1#1
  let main_v12 : IVec S_ 1 := (fun x v => Host.reduce IntOp.andi x v reducesTo_S18_S_d0 h_S_) main_v11 main_c_3
  let main_v13 : IVec S_ 1 := andi main_v8 main_v12
  let main_v14 : FVec F S256x42 .f32 := Host.absf main_arg3
  let main_cst_4 : FVec F S_ .f32 := constant S_ .f32 0x7F800000#32
  let main_v15 : FVec F S256x42 .f32 := broadcastInDim S256x42 ![] bcast_S_S256x42 main_cst_4
  let main_v16 : IVec S256x42 1 := cmpf .olt main_v14 main_v15
  fn_part1 (F := F) main_arg4 main_arg5 main_arg6 main_v13 main_v16
-- ==== Kernel.lean ====
abbrev S20000x256 : Shape := ⟨2, ![20000, 256]⟩
abbrev S256x18 : Shape := ⟨2, ![256, 18]⟩
abbrev S18 : Shape := ⟨1, ![18]⟩
abbrev S256x42 : Shape := ⟨2, ![256, 42]⟩
abbrev S42 : Shape := ⟨1, ![42]⟩
abbrev S256x6 : Shape := ⟨2, ![256, 6]⟩
abbrev S6 : Shape := ⟨1, ![6]⟩
abbrev S18x256 : Shape := ⟨2, ![18, 256]⟩
abbrev S42x256 : Shape := ⟨2, ![42, 256]⟩
abbrev S6x256 : Shape := ⟨2, ![6, 256]⟩
abbrev S18x20000 : Shape := ⟨2, ![18, 20000]⟩
abbrev S42x20000 : Shape := ⟨2, ![42, 20000]⟩
abbrev S6x20000 : Shape := ⟨2, ![6, 20000]⟩
abbrev S10112x256 : Shape := ⟨2, ![10112, 256]⟩
abbrev S18x10112 : Shape := ⟨2, ![18, 10112]⟩
abbrev S42x10112 : Shape := ⟨2, ![42, 10112]⟩
abbrev S6x10112 : Shape := ⟨2, ![6, 10112]⟩
abbrev S80x256 : Shape := ⟨2, ![80, 256]⟩
abbrev S1x80 : Shape := ⟨2, ![1, 80]⟩
abbrev S1x18 : Shape := ⟨2, ![1, 18]⟩
abbrev S1x42 : Shape := ⟨2, ![1, 42]⟩
abbrev S1x6 : Shape := ⟨2, ![1, 6]⟩
abbrev S80x10112 : Shape := ⟨2, ![80, 10112]⟩
abbrev S80x1 : Shape := ⟨2, ![80, 1]⟩
abbrev S20000x18 : Shape := ⟨2, ![20000, 18]⟩
abbrev S20000x42 : Shape := ⟨2, ![20000, 42]⟩
abbrev S20000x6 : Shape := ⟨2, ![20000, 6]⟩

abbrev nBuf : Space → Nat
  | .hbm => 16
  | .vmem => 16
  | .smem => 0
  | _ => 0

abbrev bufTy : (tb : Table) → Fin (tcTables nBuf tb) → BufTy
  | .hbm, ⟨0, _⟩ => ⟨S20000x256, .f32⟩
  | .hbm, ⟨1, _⟩ => ⟨S256x18, .f32⟩
  | .hbm, ⟨2, _⟩ => ⟨S18, .f32⟩
  | .hbm, ⟨3, _⟩ => ⟨S256x42, .f32⟩
  | .hbm, ⟨4, _⟩ => ⟨S42, .f32⟩
  | .hbm, ⟨5, _⟩ => ⟨S256x6, .f32⟩
  | .hbm, ⟨6, _⟩ => ⟨S6, .f32⟩
  | .hbm, ⟨7, _⟩ => ⟨S18x256, .f32⟩
  | .hbm, ⟨8, _⟩ => ⟨S42x256, .f32⟩
  | .hbm, ⟨9, _⟩ => ⟨S6x256, .f32⟩
  | .hbm, ⟨10, _⟩ => ⟨S18x20000, .f32⟩
  | .hbm, ⟨11, _⟩ => ⟨S42x20000, .f32⟩
  | .hbm, ⟨12, _⟩ => ⟨S6x20000, .f32⟩
  | .hbm, ⟨13, _⟩ => ⟨S20000x18, .f32⟩
  | .hbm, ⟨14, _⟩ => ⟨S20000x42, .f32⟩
  | .hbm, ⟨15, _⟩ => ⟨S20000x6, .f32⟩
  | .local _ .vmem, ⟨0, _⟩ => ⟨S10112x256, .f32⟩
  | .local _ .vmem, ⟨1, _⟩ => ⟨S10112x256, .f32⟩
  | .local _ .vmem, ⟨2, _⟩ => ⟨S18x256, .f32⟩
  | .local _ .vmem, ⟨3, _⟩ => ⟨S42x256, .f32⟩
  | .local _ .vmem, ⟨4, _⟩ => ⟨S6x256, .f32⟩
  | .local _ .vmem, ⟨5, _⟩ => ⟨S18, .f32⟩
  | .local _ .vmem, ⟨6, _⟩ => ⟨S42, .f32⟩
  | .local _ .vmem, ⟨7, _⟩ => ⟨S6, .f32⟩
  | .local _ .vmem, ⟨8, _⟩ => ⟨S18x10112, .f32⟩
  | .local _ .vmem, ⟨9, _⟩ => ⟨S18x10112, .f32⟩
  | .local _ .vmem, ⟨10, _⟩ => ⟨S42x10112, .f32⟩
  | .local _ .vmem, ⟨11, _⟩ => ⟨S42x10112, .f32⟩
  | .local _ .vmem, ⟨12, _⟩ => ⟨S6x10112, .f32⟩
  | .local _ .vmem, ⟨13, _⟩ => ⟨S6x10112, .f32⟩
  | .local _ .vmem, ⟨14, _⟩ => ⟨S80x256, .f32⟩
  | .local _ .vmem, ⟨15, _⟩ => ⟨S1x80, .f32⟩
  | _, _ => ⟨S20000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S10112x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S18x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S42x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S6x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S18 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S42 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S6 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S18x10112 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S42x10112 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S6x10112 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  transposes_S256x18_S18x256_1_0 : S256x18.Transposes [1, 0] S18x256
  transposes_S256x42_S42x256_1_0 : S256x42.Transposes [1, 0] S42x256
  transposes_S256x6_S6x256_1_0 : S256x6.Transposes [1, 0] S6x256
  inb_S80x256_S80x256_0_0 : ∀ a, (![0, 0] : Fin 2 → Nat) a + S80x256.size a ≤ S80x256.size a
  h_S80x256 : 0 < S80x256.numel
  shapeCasts_S80x256_S80x256 : S80x256.ShapeCasts S80x256
  inb_S18x256_S18x256_0_0 : ∀ a, (![0, 0] : Fin 2 → Nat) a + S18x256.size a ≤ S18x256.size a
  h_S18x256 : 0 < S18x256.numel
  shapeCasts_S18x256_S18x256 : S18x256.ShapeCasts S18x256
  inb_S80x256_S18x256_0_0 : ∀ a, (![0, 0] : Fin 2 → Nat) a + S18x256.size a ≤ S80x256.size a
  inb_S42x256_S42x256_0_0 : ∀ a, (![0, 0] : Fin 2 → Nat) a + S42x256.size a ≤ S42x256.size a
  h_S42x256 : 0 < S42x256.numel
  shapeCasts_S42x256_S42x256 : S42x256.ShapeCasts S42x256
  inb_S80x256_S42x256_24_0 : ∀ a, (![24, 0] : Fin 2 → Nat) a + S42x256.size a ≤ S80x256.size a
  inb_S6x256_S6x256_0_0 : ∀ a, (![0, 0] : Fin 2 → Nat) a + S6x256.size a ≤ S6x256.size a
  h_S6x256 : 0 < S6x256.numel
  shapeCasts_S6x256_S6x256 : S6x256.ShapeCasts S6x256
  inb_S80x256_S6x256_72_0 : ∀ a, (![72, 0] : Fin 2 → Nat) a + S6x256.size a ≤ S80x256.size a
  inb_S1x80_S1x80_0_0 : ∀ a, (![0, 0] : Fin 2 → Nat) a + S1x80.size a ≤ S1x80.size a
  h_S1x80 : 0 < S1x80.numel
  shapeCasts_S1x80_S1x80 : S1x80.ShapeCasts S1x80
  inb_S18_S18_0 : ∀ a, (![0] : Fin 1 → Nat) a + S18.size a ≤ S18.size a
  h_S18 : 0 < S18.numel
  shapeCasts_S18_S1x18 : S18.ShapeCasts S1x18
  inb_S1x80_S1x18_0_0 : ∀ a, (![0, 0] : Fin 2 → Nat) a + S1x18.size a ≤ S1x80.size a
  h_S1x18 : 0 < S1x18.numel
  shapeCasts_S1x18_S1x18 : S1x18.ShapeCasts S1x18
  inb_S42_S42_0 : ∀ a, (![0] : Fin 1 → Nat) a + S42.size a ≤ S42.size a
  h_S42 : 0 < S42.numel
  shapeCasts_S42_S1x42 : S42.ShapeCasts S1x42
  inb_S1x80_S1x42_0_24 : ∀ a, (![0, 24] : Fin 2 → Nat) a + S1x42.size a ≤ S1x80.size a
  h_S1x42 : 0 < S1x42.numel
  shapeCasts_S1x42_S1x42 : S1x42.ShapeCasts S1x42
  inb_S6_S6_0 : ∀ a, (![0] : Fin 1 → Nat) a + S6.size a ≤ S6.size a
  h_S6 : 0 < S6.numel
  shapeCasts_S6_S1x6 : S6.ShapeCasts S1x6
  inb_S1x80_S1x6_0_72 : ∀ a, (![0, 72] : Fin 2 → Nat) a + S1x6.size a ≤ S1x80.size a
  h_S1x6 : 0 < S1x6.numel
  shapeCasts_S1x6_S1x6 : S1x6.ShapeCasts S1x6
  inb_S10112x256_S10112x256_0_0 : ∀ a, (![0, 0] : Fin 2 → Nat) a + S10112x256.size a ≤ S10112x256.size a
  h_S10112x256 : 0 < S10112x256.numel
  transposes_S1x80_p1_0_S80x1 : S1x80.Transposes [1, 0] S80x1
  broadcasts_S80x1_S80x10112 : S80x1.Broadcasts S80x10112
  slices_S80x10112_o0_0_S18x10112 : S80x10112.Slices ![0, 0] S18x10112
  inb_S18x10112_S18x10112_0_0 : ∀ a, (![0, 0] : Fin 2 → Nat) a + S18x10112.size a ≤ S18x10112.size a
  h_S18x10112 : 0 < S18x10112.numel
  slices_S80x10112_o24_0_S42x10112 : S80x10112.Slices ![24, 0] S42x10112
  inb_S42x10112_S42x10112_0_0 : ∀ a, (![0, 0] : Fin 2 → Nat) a + S42x10112.size a ≤ S42x10112.size a
  h_S42x10112 : 0 < S42x10112.numel
  slices_S80x10112_o72_0_S6x10112 : S80x10112.Slices ![72, 0] S6x10112
  inb_S6x10112_S6x10112_0_0 : ∀ a, (![0, 0] : Fin 2 → Nat) a + S6x10112.size a ≤ S6x10112.size a
  h_S6x10112 : 0 < S6x10112.numel
  transposes_S18x20000_S20000x18_1_0 : S18x20000.Transposes [1, 0] S20000x18
  transposes_S42x20000_S20000x42_1_0 : S42x20000.Transposes [1, 0] S20000x42
  transposes_S6x20000_S20000x6_1_0 : S6x20000.Transposes [1, 0] S20000x6
  dot_S80x256_S10112x256_S80x10112_1_1_0_0_n_n_wf : DotDims.WF S80x256 S10112x256 S80x10112 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S10112x256.size a < S20000x256.size a
  hwx0_0 : ∀ i : grid0.Coords, EltTy.bits .f32 = 32 ∨ (Rect.unit (s := S20000x256) (fun a => cc0_transform_0 i a * S10112x256.size a) (fun a => (Pipeline.Clip.of (cc0_transform_0 i a) (S10112x256.size a) (S20000x256.size a)).extent (S10112x256.size a)) fun a => Pipeline.Clip.inb (Pipeline.Clip.ok_of (hstart0_0 i a))).WholeWords (EltTy.packing .f32)
  hwxs0_0 : ∀ i : grid0.Coords, EltTy.bits .f32 = 32 ∨ (Rect.unit (s := S10112x256) (fun _ => 0) (fun a => (Pipeline.Clip.of (cc0_transform_0 i a) (S10112x256.size a) (S20000x256.size a)).extent (S10112x256.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S18x256.size a ≤ S18x256.size a
  hwx0_1 : ∀ i : grid0.Coords, EltTy.bits .f32 = 32 ∨ (Rect.block (s := S18x256) S18x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S42x256.size a ≤ S42x256.size a
  hwx0_2 : ∀ i : grid0.Coords, EltTy.bits .f32 = 32 ∨ (Rect.block (s := S42x256) S42x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S6x256.size a ≤ S6x256.size a
  hwx0_3 : ∀ i : grid0.Coords, EltTy.bits .f32 = 32 ∨ (Rect.block (s := S6x256) S6x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S18.size a ≤ S18.size a
  hwx0_4 : ∀ i : grid0.Coords, EltTy.bits .f32 = 32 ∨ (Rect.block (s := S18) S18.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S42.size a ≤ S42.size a
  hwx0_5 : ∀ i : grid0.Coords, EltTy.bits .f32 = 32 ∨ (Rect.block (s := S42) S42.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S6.size a ≤ S6.size a
  hwx0_6 : ∀ i : grid0.Coords, EltTy.bits .f32 = 32 ∨ (Rect.block (s := S6) S6.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hstart0_7 : ∀ (i : grid0.Coords) a, cc0_transform_7 i a * S18x10112.size a < S18x20000.size a
  hwx0_7 : ∀ i : grid0.Coords, EltTy.bits .f32 = 32 ∨ (Rect.unit (s := S18x20000) (fun a => cc0_transform_7 i a * S18x10112.size a) (fun a => (Pipeline.Clip.of (cc0_transform_7 i a) (S18x10112.size a) (S18x20000.size a)).extent (S18x10112.size a)) fun a => Pipeline.Clip.inb (Pipeline.Clip.ok_of (hstart0_7 i a))).WholeWords (EltTy.packing .f32)
  hwxs0_7 : ∀ i : grid0.Coords, EltTy.bits .f32 = 32 ∨ (Rect.unit (s := S18x10112) (fun _ => 0) (fun a => (Pipeline.Clip.of (cc0_transform_7 i a) (S18x10112.size a) (S18x20000.size a)).extent (S18x10112.size a)) fun a => (Nat.zero_add _).trans_le (Pipeline.Clip.extent_le (Pipeline.Clip.ok_of (hstart0_7 i a)))).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hstart0_8 : ∀ (i : grid0.Coords) a, cc0_transform_8 i a * S42x10112.size a < S42x20000.size a
  hwx0_8 : ∀ i : grid0.Coords, EltTy.bits .f32 = 32 ∨ (Rect.unit (s := S42x20000) (fun a => cc0_transform_8 i a * S42x10112.size a) (fun a => (Pipeline.Clip.of (cc0_transform_8 i a) (S42x10112.size a) (S42x20000.size a)).extent (S42x10112.size a)) fun a => Pipeline.Clip.inb (Pipeline.Clip.ok_of (hstart0_8 i a))).WholeWords (EltTy.packing .f32)
  hwxs0_8 : ∀ i : grid0.Coords, EltTy.bits .f32 = 32 ∨ (Rect.unit (s := S42x10112) (fun _ => 0) (fun a => (Pipeline.Clip.of (cc0_transform_8 i a) (S42x10112.size a) (S42x20000.size a)).extent (S42x10112.size a)) fun a => (Nat.zero_add _).trans_le (Pipeline.Clip.extent_le (Pipeline.Clip.ok_of (hstart0_8 i a)))).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hstart0_9 : ∀ (i : grid0.Coords) a, cc0_transform_9 i a * S6x10112.size a < S6x20000.size a
  hwx0_9 : ∀ i : grid0.Coords, EltTy.bits .f32 = 32 ∨ (Rect.unit (s := S6x20000) (fun a => cc0_transform_9 i a * S6x10112.size a) (fun a => (Pipeline.Clip.of (cc0_transform_9 i a) (S6x10112.size a) (S6x20000.size a)).extent (S6x10112.size a)) fun a => Pipeline.Clip.inb (Pipeline.Clip.ok_of (hstart0_9 i a))).WholeWords (EltTy.packing .f32)
  hwxs0_9 : ∀ i : grid0.Coords, EltTy.bits .f32 = 32 ∨ (Rect.unit (s := S6x10112) (fun _ => 0) (fun a => (Pipeline.Clip.of (cc0_transform_9 i a) (S6x10112.size a) (S6x20000.size a)).extent (S6x10112.size a)) fun a => (Nat.zero_add _).trans_le (Pipeline.Clip.extent_le (Pipeline.Clip.ok_of (hstart0_9 i a)))).WholeWords (EltTy.packing .f32)

variable [Facts₀]

def dot_S80x256_S10112x256_S80x10112_1_1_0_0_n_n : DotDims S80x256 S10112x256 S80x10112 where
  lhsContracting := [1]
  rhsContracting := [1]
  lhsNonContracting := [0]
  rhsNonContracting := [0]
  lhsBatch := []
  rhsBatch := []
  wf := dot_S80x256_S10112x256_S80x10112_1_1_0_0_n_n_wf

abbrev win0_0 : Pipeline.Window sig grid0 :=
  Pipeline.Window.ofSpecClip (Memref.whole main_arg0) S10112x256.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v0) S18x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S42x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S6x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S18.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S42.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S6.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpecClip (Memref.whole main_v3_0) S18x10112.size cc0_transform_7 reads0_7 true false 2 stage0_7 sem0_7
    hrank0 hreads0_7 hstart0_7 nbuf0_7 (Memref.isWhole_whole _) hwx0_7 hwxs0_7 hstage0_7

abbrev win0_8 : Pipeline.Window sig grid0 :=
  Pipeline.Window.ofSpecClip (Memref.whole main_v3_1) S42x10112.size cc0_transform_8 reads0_8 true false 2 stage0_8 sem0_8
    hrank0 hreads0_8 hstart0_8 nbuf0_8 (Memref.isWhole_whole _) hwx0_8 hwxs0_8 hstage0_8

abbrev win0_9 : Pipeline.Window sig grid0 :=
  Pipeline.Window.ofSpecClip (Memref.whole main_v3_2) S6x10112.size cc0_transform_9 reads0_9 true false 2 stage0_9 sem0_9
    hrank0 hreads0_9 hstart0_9 nbuf0_9 (Memref.isWhole_whole _) hwx0_9 hwxs0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S20000x256 : Shape := ⟨2, ![20000, 256]⟩
abbrev S256x18 : Shape := ⟨2, ![256, 18]⟩
abbrev S18 : Shape := ⟨1, ![18]⟩
abbrev S256x42 : Shape := ⟨2, ![256, 42]⟩
abbrev S42 : Shape := ⟨1, ![42]⟩
abbrev S256x6 : Shape := ⟨2, ![256, 6]⟩
abbrev S6 : Shape := ⟨1, ![6]⟩
abbrev S20000x18 : Shape := ⟨2, ![20000, 18]⟩
abbrev S1x18 : Shape := ⟨2, ![1, 18]⟩
abbrev S20000x6 : Shape := ⟨2, ![20000, 6]⟩
abbrev S1x6 : Shape := ⟨2, ![1, 6]⟩
abbrev S20000x42 : Shape := ⟨2, ![20000, 42]⟩
abbrev S1x42 : Shape := ⟨2, ![1, 42]⟩

abbrev nBuf : Space → Nat
  | .hbm => 19
  | .vmem => 0
  | .smem => 0
  | _ => 0

abbrev bufTy : (tb : Table) → Fin (tcTables nBuf tb) → BufTy
  | .hbm, ⟨0, _⟩ => ⟨S20000x256, .f32⟩
  | .hbm, ⟨1, _⟩ => ⟨S256x18, .f32⟩
  | .hbm, ⟨2, _⟩ => ⟨S18, .f32⟩
  | .hbm, ⟨3, _⟩ => ⟨S256x42, .f32⟩
  | .hbm, ⟨4, _⟩ => ⟨S42, .f32⟩
  | .hbm, ⟨5, _⟩ => ⟨S256x6, .f32⟩
  | .hbm, ⟨6, _⟩ => ⟨S6, .f32⟩
  | .hbm, ⟨7, _⟩ => ⟨S20000x18, .f32⟩
  | .hbm, ⟨8, _⟩ => ⟨S1x18, .f32⟩
  | .hbm, ⟨9, _⟩ => ⟨S20000x18, .f32⟩
  | .hbm, ⟨10, _⟩ => ⟨S20000x18, .f32⟩
  | .hbm, ⟨11, _⟩ => ⟨S20000x6, .f32⟩
  | .hbm, ⟨12, _⟩ => ⟨S1x6, .f32⟩
  | .hbm, ⟨13, _⟩ => ⟨S20000x6, .f32⟩
  | .hbm, ⟨14, _⟩ => ⟨S20000x6, .f32⟩
  | .hbm, ⟨15, _⟩ => ⟨S20000x42, .f32⟩
  | .hbm, ⟨16, _⟩ => ⟨S1x42, .f32⟩
  | .hbm, ⟨17, _⟩ => ⟨S20000x42, .f32⟩
  | .hbm, ⟨18, _⟩ => ⟨S20000x42, .f32⟩
  | _, _ => ⟨S20000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩

abbrev nD : Nat := 1
abbrev τ : Topo := Topo.v7x

variable {F : FTy → Type} [FloatOps F]

class Facts₀ : Prop where
  bcast_S18_S1x18_1 : S18.BroadcastsInDim S1x18 (![1] : Fin 1 → Fin S1x18.rank)
  bcast_S1x18_S20000x18_0_1 : S1x18.BroadcastsInDim S20000x18 (![0, 1] : Fin 2 → Fin S20000x18.rank)
  bcast_S6_S1x6_1 : S6.BroadcastsInDim S1x6 (![1] : Fin 1 → Fin S1x6.rank)
  bcast_S1x6_S20000x6_0_1 : S1x6.BroadcastsInDim S20000x6 (![0, 1] : Fin 2 → Fin S20000x6.rank)
  bcast_S42_S1x42_1 : S42.BroadcastsInDim S1x42 (![1] : Fin 1 → Fin S1x42.rank)
  bcast_S1x42_S20000x42_0_1 : S1x42.BroadcastsInDim S20000x42 (![0, 1] : Fin 2 → Fin S20000x42.rank)
  dot_S20000x256_S256x18_S20000x18_1_0_0_1_n_n_wf : DotDims.WF S20000x256 S256x18 S20000x18 [1] [0] [0] [1] [] []
  dot_S20000x256_S256x6_S20000x6_1_0_0_1_n_n_wf : DotDims.WF S20000x256 S256x6 S20000x6 [1] [0] [0] [1] [] []
  dot_S20000x256_S256x42_S20000x42_1_0_0_1_n_n_wf : DotDims.WF S20000x256 S256x42 S20000x42 [1] [0] [0] [1] [] []

variable [Facts₀]

def dot_S20000x256_S256x18_S20000x18_1_0_0_1_n_n : DotDims S20000x256 S256x18 S20000x18 where
  lhsContracting := [1]
  rhsContracting := [0]
  lhsNonContracting := [0]
  rhsNonContracting := [1]
  lhsBatch := []
  rhsBatch := []
  wf := dot_S20000x256_S256x18_S20000x18_1_0_0_1_n_n_wf
def dot_S20000x256_S256x6_S20000x6_1_0_0_1_n_n : DotDims S20000x256 S256x6 S20000x6 where
  lhsContracting := [1]
  rhsContracting := [0]
  lhsNonContracting := [0]
  rhsNonContracting := [1]
  lhsBatch := []
  rhsBatch := []
  wf := dot_S20000x256_S256x6_S20000x6_1_0_0_1_n_n_wf
def dot_S20000x256_S256x42_S20000x42_1_0_0_1_n_n : DotDims S20000x256 S256x42 S20000x42 where
  lhsContracting := [1]
  rhsContracting := [0]
  lhsNonContracting := [0]
  rhsNonContracting := [1]
  lhsBatch := []
  rhsBatch := []
  wf := dot_S20000x256_S256x42_S20000x42_1_0_0_1_n_n_wf

class Facts : Prop extends Facts₀ where

variable [Facts]
-- ==== Proof.BShared.lean ====
/-
  What the two runs of the heads kernel's body share: the condition of its one branch in closed form (it holds at
  the grid's first point only, where the body packs the three transposed weight matrices and the three biases into
  its two scratch buffers), the staging memrefs the pipeline calls the body with at a point, the two scratch
  memrefs, and the launch invariant written over them.
-/
import proofs.«179534_g59124519797212_fold_wed_c4_776_33_alg».proof.Proof.Gen.Kernel.Frame
import proofs.«179534_g59124519797212_fold_wed_c4_776_33_alg».proof.Proof.Gen.Kernel.Skeleton

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's branch: taken iff the grid coordinate is zero. -/
abbrev cond0 (i : grid0.Coords) : Prop :=
  (Scalar.cmpi .ne (Scalar.extui (Scalar.cmpi .eq (BitVec.ofNat 32 (i 0).val) 0#32)) 0#32) = 1#1

/-- It holds at the first of the two points only. -/
theorem hcond0 : ∀ t : Fin cfg0.N, cond0 (grid0.coords t) ↔ t.val = 0 :=
  (by decide +kernel : ∀ t : Fin grid0.N, cond0 (grid0.coords t) ↔ t.val = 0)

/-- Each window's current staging memref at point `t`, as the pipeline passes it, and its wholeness. -/
abbrev ms0 (t : Fin cfg0.N) : Memref sig .tc .vmem S10112x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S18x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S42x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S6x256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S18 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S42 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S6 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S18x10112 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S42x10112 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S6x10112 .f32 := win0_9.stage (cfg0.slots t 9)
abbrev hs9 (t : Fin cfg0.N) : (ms9 t).IsWhole := hstage0_9 ((cfg0.slots t 9).cast nbuf0_9)

/-- The two scratch operands: the packed weights (80 rows of 256) and the packed biases (one row of 80). -/
abbrev scW : Memref sig .tc .vmem S80x256 .f32 := Memref.whole cc0_scratch0
abbrev scB : Memref sig .tc .vmem S1x80 .f32 := Memref.whole cc0_scratch1

/-- The launch invariant over the scratch memrefs: each owned at some contents, and the generator register. -/
theorem PhiA0_eq (c : Dev nD) :
    (Pipeline.ΦA spec0 c : sProp 𝕄)
      = iprop(iprop((∃ d, owns (c : Thread nD τ) scW fullShare d) ∗ (∃ d, owns (c : Thread nD τ) scB fullShare d)) ∗ (∃ r, prngReg c r)) := by
  unfold Pipeline.ΦA; rw [scopedRest0_eq]; simp only [scW, scB, owns_whole]; try rfl

end Cert.Kernel.Hand

end
-- ==== Proof.BRunFirst.lean ====
/-
  The body of the heads kernel run at the grid's FIRST point, where its branch is taken: on whole staging memrefs,
  the seven inputs' at their contents and the three outputs' and the two scratch buffers at anything, the body runs
  to the continuation holding the inputs' as they were and each output and each scratch buffer with a list of
  pieces written into it (last store first).  The pieces are found by running the body: the scratch buffers end
  with the zero fill under the three weight blocks at rows 0, 24, 72 (the three bias rows at columns 0, 24, 72),
  each output with the one whole store of its slice of the fused product.
-/
import proofs.«179534_g59124519797212_fold_wed_c4_776_33_alg».proof.Proof.BShared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The first point's run: the branch's condition holds (`hc`). -/
noncomputable def runFirst (c : Dev nD) (i : grid0.Coords) (arg1 : Memref sig .tc .vmem S10112x256 .f32) (harg1 : arg1.IsWhole) (arg2 : Memref sig .tc .vmem S18x256 .f32) (harg2 : arg2.IsWhole) (arg3 : Memref sig .tc .vmem S42x256 .f32) (harg3 : arg3.IsWhole) (arg4 : Memref sig .tc .vmem S6x256 .f32) (harg4 : arg4.IsWhole) (arg5 : Memref sig .tc .vmem S18 .f32) (harg5 : arg5.IsWhole) (arg6 : Memref sig .tc .vmem S42 .f32) (harg6 : arg6.IsWhole) (arg7 : Memref sig .tc .vmem S6 .f32) (harg7 : arg7.IsWhole) (arg8 : Memref sig .tc .vmem S18x10112 .f32) (harg8 : arg8.IsWhole) (arg9 : Memref sig .tc .vmem S42x10112 .f32) (harg9 : arg9.IsWhole) (arg10 : Memref sig .tc .vmem S6x10112 .f32) (harg10 : arg10.IsWhole) (arg11 : Memref sig .tc .vmem S80x256 .f32) (harg11 : arg11.IsWhole) (arg12 : Memref sig .tc .vmem S1x80 .f32) (harg12 : arg12.IsWhole) (hc : cond0 i)
    (x0 : Vec F S10112x256 .f32) (x1 : Vec F S18x256 .f32) (x2 : Vec F S42x256 .f32) (x3 : Vec F S6x256 .f32) (x4 : Vec F S18 .f32) (x5 : Vec F S42 .f32) (x6 : Vec F S6 .f32) :
    Σ' (L7 : List (View.Piece (Elt F) S18x10112 .f32)) (L8 : List (View.Piece (Elt F) S42x10112 .f32)) (L9 : List (View.Piece (Elt F) S6x10112 .f32)) (LW : List (View.Piece (Elt F) S80x256 .f32)), { LB : List (View.Piece (Elt F) S1x80 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f LW) ∗ (∃ f, arg12.view.loc (c : Thread nD τ) ↦[arg12.view.set]{fullShare} arg12.view.writes (Elt F) f LB)) -∗ K ⟨⟩))
          ⊢ wp frame (wpE (defs₀ (F := F)) Variants.none c none) E (cc0__heads_kernel i arg1 harg1 arg2 harg2 arg3 harg3 arg4 harg4 arg5 harg5 arg6 harg6 arg7 harg7 arg8 harg8 arg9 harg9 arg10 harg10 arg11 harg11 arg12 harg12) K } := by
  refine ⟨?_, ?_, ?_, ?_, ?_, fun E K => ?run⟩
  case run =>
    simp only [cc0__heads_kernel_eq_skeleton]; unfold cc0__heads_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%dW, %fW, -, HW⟩, ⟨%dB, %fB, -, HB⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hf5; obtain rfl := harg7.eq_unread hf6
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    isplitl [H9]; · iexists _; iexact H9
    isplitl [HW]; · iexists _; iexact HW
    iexists _; iexact HB

end Cert.Kernel.Hand

end
-- ==== Proof.BRunLater.lean ====
/-
  The body of the heads kernel run at a LATER point of the grid, where its branch is not taken: on whole staging
  memrefs, the seven inputs' and the two scratch buffers at their contents and the three outputs' at anything, the
  body runs to the continuation holding the inputs' and the scratch buffers as they were and each output with the
  one whole store of its slice of the fused product written into it.
-/
import proofs.«179534_g59124519797212_fold_wed_c4_776_33_alg».proof.Proof.BShared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A later point's run: the branch's condition fails (`hc`); the scratch buffers hold `xW`, `xB`. -/
noncomputable def runLater (c : Dev nD) (i : grid0.Coords) (arg1 : Memref sig .tc .vmem S10112x256 .f32) (harg1 : arg1.IsWhole) (arg2 : Memref sig .tc .vmem S18x256 .f32) (harg2 : arg2.IsWhole) (arg3 : Memref sig .tc .vmem S42x256 .f32) (harg3 : arg3.IsWhole) (arg4 : Memref sig .tc .vmem S6x256 .f32) (harg4 : arg4.IsWhole) (arg5 : Memref sig .tc .vmem S18 .f32) (harg5 : arg5.IsWhole) (arg6 : Memref sig .tc .vmem S42 .f32) (harg6 : arg6.IsWhole) (arg7 : Memref sig .tc .vmem S6 .f32) (harg7 : arg7.IsWhole) (arg8 : Memref sig .tc .vmem S18x10112 .f32) (harg8 : arg8.IsWhole) (arg9 : Memref sig .tc .vmem S42x10112 .f32) (harg9 : arg9.IsWhole) (arg10 : Memref sig .tc .vmem S6x10112 .f32) (harg10 : arg10.IsWhole) (arg11 : Memref sig .tc .vmem S80x256 .f32) (harg11 : arg11.IsWhole) (arg12 : Memref sig .tc .vmem S1x80 .f32) (harg12 : arg12.IsWhole) (hc : ¬cond0 i)
    (x0 : Vec F S10112x256 .f32) (x1 : Vec F S18x256 .f32) (x2 : Vec F S42x256 .f32) (x3 : Vec F S6x256 .f32) (x4 : Vec F S18 .f32) (x5 : Vec F S42 .f32) (x6 : Vec F S6 .f32) (xW : Vec F S80x256 .f32) (xB : Vec F S1x80 .f32) :
    Σ' (L7 : List (View.Piece (Elt F) S18x10112 .f32)) (L8 : List (View.Piece (Elt F) S42x10112 .f32)), { L9 : List (View.Piece (Elt F) S6x10112 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xW ∗ owns (c : Thread nD τ) arg12 fullShare xB
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ owns (c : Thread nD τ) arg11 fullShare xW ∗ owns (c : Thread nD τ) arg12 fullShare xB) -∗ K ⟨⟩))
          ⊢ wp frame (wpE (defs₀ (F := F)) Variants.none c none) E (cc0__heads_kernel i arg1 harg1 arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0__heads_kernel_eq_skeleton]; unfold cc0__heads_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%fW, %hfW, HW⟩, ⟨%fB, %hfB, HB⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hf5; obtain rfl := harg7.eq_unread hf6
    obtain rfl := harg11.eq_unread hfW; obtain rfl := harg12.eq_unread hfB
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    isplitl [H9]; · iexists _; iexact H9
    isplitl [HW]
    · iexists _; isplitr; · ipureintro; exact harg11.read_unread _
      iexact HW
    iexists _; isplitr; · ipureintro; exact harg12.read_unread _
    iexact HB

end Cert.Kernel.Hand

end
-- ==== Proof.BFrame.lean ====
/-
  The frame of the heads kernel's program: every weakly fair execution of @main terminates, faults nowhere, and leaves
  the seven argument arrays as they were.

  The pipeline's proof data names what each INPUT window's staging buffer holds after the body at a point: the window's
  block of its array (for the feature matrix, whose second block overhangs the array, the block on the rows inside the
  array and the zero word on the rows past its end, of which no obligation reads anything).  What the body leaves in
  the three OUTPUT windows is not named: the outputs are forgotten, each handed to the body at some contents and taken
  back at some contents.  The two scratch buffers are carried in the invariant at some contents: the body fills them at
  the first point and only reads them at the second, whatever they hold.
-/
import proofs.«179534_g59124519797212_fold_wed_c4_776_33_alg».proof.Proof.BRunFirst
import proofs.«179534_g59124519797212_fold_wed_c4_776_33_alg».proof.Proof.BRunLater
import Idealize.ShloMosaic.Lib.Pipeline.FrameSuffix
import Idealize.ShloMosaic.Lib.Pipeline.Dat
import Idealize.ShloMosaic.Lib.Pipeline.Cells

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The output windows, whose contents nothing here names. -/
def forgets : Fin cfg0.W → Bool := fun
  | ⟨0, _⟩ => false | ⟨1, _⟩ => false | ⟨2, _⟩ => false | ⟨3, _⟩ => false | ⟨4, _⟩ => false
  | ⟨5, _⟩ => false | ⟨6, _⟩ => false | ⟨7, _⟩ => true | ⟨8, _⟩ => true | ⟨9, _⟩ => true
  | ⟨_ + 10, h⟩ => absurd h (Nat.not_lt.2 (Nat.le_add_left _ _))

/-- The proof data on core `c`: the arrays as the region finds them; after the body each input's buffer at its block
    (the feature block filled out with the zero word past the array's end), the outputs unnamed; the invariant the
    scratch buffers and the generator register at some contents; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => win0_0.fill (grid0.coords t) (fun _ => Scalar.ofBits .f32 0#32) (iblk m c 0 t)
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after_0 (c : Dev nD) (t : Fin cfg0.N) :
    (dats m 0 c).after 0 t = win0_0.fill (grid0.coords t) (fun _ => Scalar.ofBits .f32 0#32) (iblk m c 0 t) := by
  dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]

/-- What the body finds: the feature window's buffer just fetched — its block on the rows inside the array, `d`
    past the array's end —, -/
theorem before_0 (c : Dev nD) (t : Fin cfg0.N) (d) :
    (dats m 0 c).before 0 t d = win0_0.fill (grid0.coords t) d (iblk m c 0 t) := by
  unfold Dat.before; rw [if_pos (fetch0_0 t)]; rfl
/-- and every other input's buffer at its block, fetched at this point or at the first. -/
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

/-! ## The body's obligation -/

set_option maxHeartbeats 1600000 in
/-- At every point the body runs from the invariant, the inputs' buffers at their blocks and the outputs' at anything
    to the same again.  At the first point the branch is taken and the body fills the scratch buffers, whatever they
    held; at the second it only reads them.  The feature window's buffer comes back as it came: its block on the rows
    inside the array, which is all its loose obligation states. -/
theorem body_obligation (c : Dev nD) :
    Pipeline.BodyObligationLoose (dats m 0 c) (defs₀ (F := F)) Variants.none () Set.univ forgets := fun t => by
  rw [bigSep_W0, bigSep_W0]
  simp only [forgets]
  rw [show (dats m 0 c).Φ t.succ = Pipeline.ΦA spec0 c from rfl,
    show (dats m 0 c).Φ t.castSucc = Pipeline.ΦA spec0 c from rfl,
    show (dats m 0 c).owesAt () t.succ = (dats m 0 c).owesAt () t.castSucc from rfl, PhiA0_eq]
  change _ ⊢ wp frame _ Set.univ (bodyAt0 t) _
  iintro ⟨⟨⟨⟨%xW, HW⟩, ⟨%xB, HB⟩⟩, Hg⟩, Ho, ⟨%d0, H0⟩, ⟨%d1, H1⟩, ⟨%d2, H2⟩, ⟨%d3, H3⟩, ⟨%d4, H4⟩, ⟨%d5, H5⟩, ⟨%d6, H6⟩, H7, H8, H9⟩
  rw [before_0 m c t d0, before_1 m c t d1, before_2 m c t d2, before_3 m c t d3, before_4 m c t d4,
    before_5 m c t d5, before_6 m c t d6]
  by_cases ht : t.val = 0
  · iapply ((runFirst c (grid0.coords t) (ms0 t) (hs0 t) (ms1 t) (hs1 t) (ms2 t) (hs2 t) (ms3 t) (hs3 t) (ms4 t) (hs4 t) (ms5 t) (hs5 t) (ms6 t) (hs6 t)
        (ms7 t) (hs7 t) (ms8 t) (hs8 t) (ms9 t) (hs9 t) scW (Memref.isWhole_whole _) scB (Memref.isWhole_whole _)
        ((hcond0 t).2 ht) (win0_0.fill (grid0.coords t) d0 (iblk m c 0 t)) (iblk m c 1 t) (iblk m c 2 t) (iblk m c 3 t) (iblk m c 4 t)
        (iblk m c 5 t) (iblk m c 6 t)).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HW]; · iexists _; iexact HW
    isplitl [HB]; · iexists _; iexact HB
    iintro ⟨H0, H1, H2, H3, H4, H5, H6, ⟨%f7, H7⟩, ⟨%f8, H8⟩, ⟨%f9, H9⟩, ⟨%fW, HW⟩, ⟨%fB, HB⟩⟩
    isplitl [HW HB Hg]
    · isplitl [HW HB]
      · isplitl [HW]
        · iexists _; unfold owns; iexists _; isplitr
          swap; · iexact HW
          ipureintro; rfl
        · iexists _; unfold owns; iexists _; isplitr
          swap; · iexact HB
          ipureintro; rfl
      iexact Hg
    isplitl [Ho]; · iexact Ho
    isplitl [H0]
    · iexists d0
      rw [after_0 m c t]
      change _ ⊢ owns (c : Thread nD τ) (ms0 t) fullShare (win0_0.fill (grid0.coords t) d0 (win0_0.cut (grid0.coords t)
        (win0_0.fill (grid0.coords t) (fun _ => Scalar.ofBits .f32 0#32) (iblk m c 0 t))))
      rw [win0_0.cut_fill]
    isplitl [H1]; · rw [after_1 m c t]; iexact H1
    isplitl [H2]; · rw [after_2 m c t]; iexact H2
    isplitl [H3]; · rw [after_3 m c t]; iexact H3
    isplitl [H4]; · rw [after_4 m c t]; iexact H4
    isplitl [H5]; · rw [after_5 m c t]; iexact H5
    isplitl [H6]; · rw [after_6 m c t]; iexact H6
    isplitl [H7]
    · iexists _; unfold owns; iexists _; isplitr
      swap; · iexact H7
      ipureintro; rfl
    isplitl [H8]
    · iexists _; unfold owns; iexists _; isplitr
      swap; · iexact H8
      ipureintro; rfl
    · iexists _; unfold owns; iexists _; isplitr
      swap; · iexact H9
      ipureintro; rfl
  · iapply ((runLater c (grid0.coords t) (ms0 t) (hs0 t) (ms1 t) (hs1 t) (ms2 t) (hs2 t) (ms3 t) (hs3 t) (ms4 t) (hs4 t) (ms5 t) (hs5 t) (ms6 t) (hs6 t)
        (ms7 t) (hs7 t) (ms8 t) (hs8 t) (ms9 t) (hs9 t) scW (Memref.isWhole_whole _) scB (Memref.isWhole_whole _)
        (fun h => ht ((hcond0 t).1 h)) (win0_0.fill (grid0.coords t) d0 (iblk m c 0 t)) (iblk m c 1 t) (iblk m c 2 t) (iblk m c 3 t) (iblk m c 4 t)
        (iblk m c 5 t) (iblk m c 6 t) xW xB).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HW]; · iexact HW
    isplitl [HB]; · iexact HB
    iintro ⟨H0, H1, H2, H3, H4, H5, H6, ⟨%f7, H7⟩, ⟨%f8, H8⟩, ⟨%f9, H9⟩, HW, HB⟩
    isplitl [HW HB Hg]
    · isplitl [HW HB]
      · isplitl [HW]
        · iexists _; iexact HW
        · iexists _; iexact HB
      iexact Hg
    isplitl [Ho]; · iexact Ho
    isplitl [H0]
    · iexists d0
      rw [after_0 m c t]
      change _ ⊢ owns (c : Thread nD τ) (ms0 t) fullShare (win0_0.fill (grid0.coords t) d0 (win0_0.cut (grid0.coords t)
        (win0_0.fill (grid0.coords t) (fun _ => Scalar.ofBits .f32 0#32) (iblk m c 0 t))))
      rw [win0_0.cut_fill]
    isplitl [H1]; · rw [after_1 m c t]; iexact H1
    isplitl [H2]; · rw [after_2 m c t]; iexact H2
    isplitl [H3]; · rw [after_3 m c t]; iexact H3
    isplitl [H4]; · rw [after_4 m c t]; iexact H4
    isplitl [H5]; · rw [after_5 m c t]; iexact H5
    isplitl [H6]; · rw [after_6 m c t]; iexact H6
    isplitl [H7]
    · iexists _; unfold owns; iexists _; isplitr
      swap; · iexact H7
      ipureintro; rfl
    isplitl [H8]
    · iexists _; unfold owns; iexists _; isplitr
      swap; · iexact H8
      ipureintro; rfl
    · iexists _; unfold owns; iexists _; isplitr
      swap; · iexact H9
      ipureintro; rfl

/-! ## The run -/

/-- The buffers the host lines after the region write: the three transposed results. -/
abbrev tailWrites : Finset (Ref sig .tc) := {main_v4, main_v5, main_v6}

/-- Each host line after the region writes its own result buffer only. -/
theorem sfx_writes : ∀ ops ∈ ([hostOps1] : List (List (HloOp τ sig (Elt F)))), ∀ op ∈ ops, ∀ b : Ref sig .tc,
    Proc.devRef .tc b ∈ op.writes → b ∈ tailWrites := by
  intro ops hops op hop
  simp only [List.mem_cons, List.mem_nil_iff, or_false] at hops
  rcases hops with rfl
  simp only [hostOps1, List.mem_cons, List.mem_nil_iff, or_false] at hop
  rcases hop with rfl | rfl | rfl
  all_goals
    intro b hb
    simp only [StableHlo.unary_writes, Finset.mem_singleton] at hb
    obtain rfl := Proc.devRef_injective _ hb
    simp only [tailWrites, Finset.mem_insert, Finset.mem_singleton, true_or, or_true]

set_option backward.isDefEq.respectTransparency.types false in
/-- Every weakly fair execution of @main terminates; at the end every input window's array holds its entry contents,
    nothing is said of the forgotten outputs, and every other unscoped buffer the host lines after the region do not
    write holds its contents at the region's entry. -/
theorem run_main : θ_run defs (onTc (τ := τ) (main (F := F))) (s₀ m ρ)
    (Pipeline.RDat.FramePostR (cfgs 0) (fun c => (dats m 0 c).toRForget forgets) tailWrites (V m)) :=
  Pipeline.RDat.θ_run_frame_around_T cfgs (0 : Fin 1) launch0 defs₀ Variants.none (fun c => (dats m 0 c).toRForget forgets) tailWrites m ρ main
    (hbody := fun c => (body_obligation m c).toRForget)
    (hshare := fun c => ((dats m 0 c).toRForget forgets).share_full fun _ => rfl)
    (howed := fun _ _ => rfl) (V₀ := V0 m) (opss := [hostOps1]) (hsub := sfx_sub) (hfresh := sfx_fresh) (hkeep := sfx_keeps)
    (hT := sfx_writes) (hmain := hmain m Variants.none) (hA := A_eq m) (hΦ := fun _ _ => rfl)

/-! ## The frame -/

/-- An input window's array ends at its entry contents. -/
theorem arr_in (c : Dev nD) (r : PUnit × MemSt nD τ sig (Elt F))
    (h : Pipeline.RDat.FramePostR (cfgs 0) (fun c => (dats m 0 c).toRForget forgets) tailWrites (V m) r)
    (w : Fin cfg0.W) (hw : (cfg0.win w).isOut = false) :
    r.2.mem ((cfg0.spec w).arr.view.loc (c.tc : Thread nD τ)) = V m c (Pipeline.arrRef spec0 w) := by
  have h1 := (h c).1 w
  rw [Pipeline.RDat.ArrAt_in _ w hw] at h1
  exact h1.trans (A_eq m c w)

/-- THE FRAME: the seven argument arrays end as they were.  Four are input windows' arrays (the features and the three
    biases); the three weight matrices are read only by the host lines before the region and written by nothing. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(arr_in m c r h 0 rfl).trans (V_main_arg0 m c),
     ((h c).2 main_arg1 (Finset.mem_sdiff.mpr ⟨Pipeline.mem_restRefs_of main_arg1 (by decide) (by decide), by decide⟩)).trans (V_main_arg1 m c),
     (arr_in m c r h 4 rfl).trans (V_main_arg2 m c),
     ((h c).2 main_arg3 (Finset.mem_sdiff.mpr ⟨Pipeline.mem_restRefs_of main_arg3 (by decide) (by decide), by decide⟩)).trans (V_main_arg3 m c),
     (arr_in m c r h 5 rfl).trans (V_main_arg4 m c),
     ((h c).2 main_arg5 (Finset.mem_sdiff.mpr ⟨Pipeline.mem_restRefs_of main_arg5 (by decide) (by decide), by decide⟩)).trans (V_main_arg5 m c),
     (arr_in m c r h 6 rfl).trans (V_main_arg6 m c)⟩) (run_main m ρ)

end Cert.Kernel.Hand

end
-- ==== Proof.IShared.lean ====
/-
  What the two runs of the heads kernel's body share: the condition of its one branch in closed form (it holds at
  the grid's first point only, where the body packs the three transposed weight matrices and the three biases into
  its two scratch buffers), the staging memrefs the pipeline calls the body with at a point, the two scratch
  memrefs, and the launch invariant written over them.
-/
import proofs.«179534_g59124519797212_fold_wed_c4_776_33_alg».proof.Proof.Gen.KernelIdeal.Frame
import proofs.«179534_g59124519797212_fold_wed_c4_776_33_alg».proof.Proof.Gen.KernelIdeal.Skeleton

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's branch: taken iff the grid coordinate is zero. -/
abbrev cond0 (i : grid0.Coords) : Prop :=
  (Scalar.cmpi .ne (Scalar.extui (Scalar.cmpi .eq (BitVec.ofNat 32 (i 0).val) 0#32)) 0#32) = 1#1

/-- It holds at the first of the two points only. -/
theorem hcond0 : ∀ t : Fin cfg0.N, cond0 (grid0.coords t) ↔ t.val = 0 :=
  (by decide +kernel : ∀ t : Fin grid0.N, cond0 (grid0.coords t) ↔ t.val = 0)

/-- Each window's current staging memref at point `t`, as the pipeline passes it, and its wholeness. -/
abbrev ms0 (t : Fin cfg0.N) : Memref sig .tc .vmem S10112x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S18x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S42x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S6x256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S18 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S42 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S6 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S18x10112 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S42x10112 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S6x10112 .f32 := win0_9.stage (cfg0.slots t 9)
abbrev hs9 (t : Fin cfg0.N) : (ms9 t).IsWhole := hstage0_9 ((cfg0.slots t 9).cast nbuf0_9)

/-- The two scratch operands: the packed weights (80 rows of 256) and the packed biases (one row of 80). -/
abbrev scW : Memref sig .tc .vmem S80x256 .f32 := Memref.whole cc0_scratch0
abbrev scB : Memref sig .tc .vmem S1x80 .f32 := Memref.whole cc0_scratch1

/-- The launch invariant over the scratch memrefs: each owned at some contents, and the generator register. -/
theorem PhiA0_eq (c : Dev nD) :
    (Pipeline.ΦA spec0 c : sProp 𝕄)
      = iprop(iprop((∃ d, owns (c : Thread nD τ) scW fullShare d) ∗ (∃ d, owns (c : Thread nD τ) scB fullShare d)) ∗ (∃ r, prngReg c r)) := by
  unfold Pipeline.ΦA; rw [scopedRest0_eq]; simp only [scW, scB, owns_whole]; try rfl

end Cert.KernelIdeal.Hand

end
-- ==== Proof.IRunFirst.lean ====
/-
  The body of the heads kernel run at the grid's FIRST point, where its branch is taken: on whole staging memrefs,
  the seven inputs' at their contents and the three outputs' and the two scratch buffers at anything, the body runs
  to the continuation holding the inputs' as they were and each output and each scratch buffer with a list of
  pieces written into it (last store first).  The pieces are found by running the body: the scratch buffers end
  with the zero fill under the three weight blocks at rows 0, 24, 72 (the three bias rows at columns 0, 24, 72),
  each output with the one whole store of its slice of the fused product.
-/
import proofs.«179534_g59124519797212_fold_wed_c4_776_33_alg».proof.Proof.IShared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The first point's run: the branch's condition holds (`hc`). -/
noncomputable def runFirst (c : Dev nD) (i : grid0.Coords) (arg1 : Memref sig .tc .vmem S10112x256 .f32) (harg1 : arg1.IsWhole) (arg2 : Memref sig .tc .vmem S18x256 .f32) (harg2 : arg2.IsWhole) (arg3 : Memref sig .tc .vmem S42x256 .f32) (harg3 : arg3.IsWhole) (arg4 : Memref sig .tc .vmem S6x256 .f32) (harg4 : arg4.IsWhole) (arg5 : Memref sig .tc .vmem S18 .f32) (harg5 : arg5.IsWhole) (arg6 : Memref sig .tc .vmem S42 .f32) (harg6 : arg6.IsWhole) (arg7 : Memref sig .tc .vmem S6 .f32) (harg7 : arg7.IsWhole) (arg8 : Memref sig .tc .vmem S18x10112 .f32) (harg8 : arg8.IsWhole) (arg9 : Memref sig .tc .vmem S42x10112 .f32) (harg9 : arg9.IsWhole) (arg10 : Memref sig .tc .vmem S6x10112 .f32) (harg10 : arg10.IsWhole) (arg11 : Memref sig .tc .vmem S80x256 .f32) (harg11 : arg11.IsWhole) (arg12 : Memref sig .tc .vmem S1x80 .f32) (harg12 : arg12.IsWhole) (hc : cond0 i)
    (x0 : Vec F S10112x256 .f32) (x1 : Vec F S18x256 .f32) (x2 : Vec F S42x256 .f32) (x3 : Vec F S6x256 .f32) (x4 : Vec F S18 .f32) (x5 : Vec F S42 .f32) (x6 : Vec F S6 .f32) :
    Σ' (L7 : List (View.Piece (Elt F) S18x10112 .f32)) (L8 : List (View.Piece (Elt F) S42x10112 .f32)) (L9 : List (View.Piece (Elt F) S6x10112 .f32)) (LW : List (View.Piece (Elt F) S80x256 .f32)), { LB : List (View.Piece (Elt F) S1x80 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f LW) ∗ (∃ f, arg12.view.loc (c : Thread nD τ) ↦[arg12.view.set]{fullShare} arg12.view.writes (Elt F) f LB)) -∗ K ⟨⟩))
          ⊢ wp frame (wpE (defs₀ (F := F)) Variants.none c none) E (cc0__heads_kernel i arg1 harg1 arg2 harg2 arg3 harg3 arg4 harg4 arg5 harg5 arg6 harg6 arg7 harg7 arg8 harg8 arg9 harg9 arg10 harg10 arg11 harg11 arg12 harg12) K } := by
  refine ⟨?_, ?_, ?_, ?_, ?_, fun E K => ?run⟩
  case run =>
    simp only [cc0__heads_kernel_eq_skeleton]; unfold cc0__heads_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%dW, %fW, -, HW⟩, ⟨%dB, %fB, -, HB⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hf5; obtain rfl := harg7.eq_unread hf6
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    isplitl [H9]; · iexists _; iexact H9
    isplitl [HW]; · iexists _; iexact HW
    iexists _; iexact HB

end Cert.KernelIdeal.Hand

end
-- ==== Proof.IRunLater.lean ====
/-
  The body of the heads kernel run at a LATER point of the grid, where its branch is not taken: on whole staging
  memrefs, the seven inputs' and the two scratch buffers at their contents and the three outputs' at anything, the
  body runs to the continuation holding the inputs' and the scratch buffers as they were and each output with the
  one whole store of its slice of the fused product written into it.
-/
import proofs.«179534_g59124519797212_fold_wed_c4_776_33_alg».proof.Proof.IShared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A later point's run: the branch's condition fails (`hc`); the scratch buffers hold `xW`, `xB`. -/
noncomputable def runLater (c : Dev nD) (i : grid0.Coords) (arg1 : Memref sig .tc .vmem S10112x256 .f32) (harg1 : arg1.IsWhole) (arg2 : Memref sig .tc .vmem S18x256 .f32) (harg2 : arg2.IsWhole) (arg3 : Memref sig .tc .vmem S42x256 .f32) (harg3 : arg3.IsWhole) (arg4 : Memref sig .tc .vmem S6x256 .f32) (harg4 : arg4.IsWhole) (arg5 : Memref sig .tc .vmem S18 .f32) (harg5 : arg5.IsWhole) (arg6 : Memref sig .tc .vmem S42 .f32) (harg6 : arg6.IsWhole) (arg7 : Memref sig .tc .vmem S6 .f32) (harg7 : arg7.IsWhole) (arg8 : Memref sig .tc .vmem S18x10112 .f32) (harg8 : arg8.IsWhole) (arg9 : Memref sig .tc .vmem S42x10112 .f32) (harg9 : arg9.IsWhole) (arg10 : Memref sig .tc .vmem S6x10112 .f32) (harg10 : arg10.IsWhole) (arg11 : Memref sig .tc .vmem S80x256 .f32) (harg11 : arg11.IsWhole) (arg12 : Memref sig .tc .vmem S1x80 .f32) (harg12 : arg12.IsWhole) (hc : ¬cond0 i)
    (x0 : Vec F S10112x256 .f32) (x1 : Vec F S18x256 .f32) (x2 : Vec F S42x256 .f32) (x3 : Vec F S6x256 .f32) (x4 : Vec F S18 .f32) (x5 : Vec F S42 .f32) (x6 : Vec F S6 .f32) (xW : Vec F S80x256 .f32) (xB : Vec F S1x80 .f32) :
    Σ' (L7 : List (View.Piece (Elt F) S18x10112 .f32)) (L8 : List (View.Piece (Elt F) S42x10112 .f32)), { L9 : List (View.Piece (Elt F) S6x10112 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xW ∗ owns (c : Thread nD τ) arg12 fullShare xB
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ owns (c : Thread nD τ) arg11 fullShare xW ∗ owns (c : Thread nD τ) arg12 fullShare xB) -∗ K ⟨⟩))
          ⊢ wp frame (wpE (defs₀ (F := F)) Variants.none c none) E (cc0__heads_kernel i arg1 harg1 arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0__heads_kernel_eq_skeleton]; unfold cc0__heads_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%fW, %hfW, HW⟩, ⟨%fB, %hfB, HB⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hf5; obtain rfl := harg7.eq_unread hf6
    obtain rfl := harg11.eq_unread hfW; obtain rfl := harg12.eq_unread hfB
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    isplitl [H9]; · iexists _; iexact H9
    isplitl [HW]
    · iexists _; isplitr; · ipureintro; exact harg11.read_unread _
      iexact HW
    iexists _; isplitr; · ipureintro; exact harg12.read_unread _
    iexact HB

end Cert.KernelIdeal.Hand

end
-- ==== Proof.IPack.lean ====
/-
  What the kernel's two scratch buffers hold once the first grid point has packed them, as functions of the weight
  and bias blocks alone.  The body first fills the 80 x 256 weight buffer with zeros and then stores the three
  transposed weight matrices at rows 0, 24 and 72 (18, 42 and 6 rows); it fills the 1 x 80 bias row with zeros and
  stores the three biases at columns 0, 24 and 72.  Each buffer is named as the canonical contents of its list of
  stores, newest first: at an index, the payload of the newest store whose rectangle holds it.
-/
import proofs.«179534_g59124519797212_fold_wed_c4_776_33_alg».proof.Proof.Gen.KernelIdeal.Skeleton
import Idealize.ShloMosaic.Lib.Pipeline.FrameBody

noncomputable section

namespace Cert.KernelIdeal.Pack

open Cert.KernelIdeal Cert.KernelIdeal.Gen Idealize.ShloMosaic

variable {F : FTy → Type} [FloatOps F]

/-- The four stores into the weight scratch, newest first. -/
def piecesW (x1 : Vec F S18x256 .f32) (x2 : Vec F S42x256 .f32) (x3 : Vec F S6x256 .f32) :
    List (View.Piece (Elt F) S80x256 .f32) :=
  [⟨Rect.unit ![72, 0] S6x256.size Facts₀.inb_S80x256_S6x256_72_0, k0_pay10 x3⟩,
   ⟨Rect.unit ![24, 0] S42x256.size Facts₀.inb_S80x256_S42x256_24_0, k0_pay9 x2⟩,
   ⟨Rect.unit ![0, 0] S18x256.size Facts₀.inb_S80x256_S18x256_0_0, k0_pay8 x1⟩,
   ⟨Rect.unit ![0, 0] S80x256.size Facts₀.inb_S80x256_S80x256_0_0, k0_pay7⟩]

/-- The packed weights. -/
def packW (x1 : Vec F S18x256 .f32) (x2 : Vec F S42x256 .f32) (x3 : Vec F S6x256 .f32) : Vec F S80x256 .f32 :=
  View.canon (piecesW x1 x2 x3)

/-- The four stores into the bias scratch, newest first. -/
def piecesB (x4 : Vec F S18 .f32) (x5 : Vec F S42 .f32) (x6 : Vec F S6 .f32) :
    List (View.Piece (Elt F) S1x80 .f32) :=
  [⟨Rect.unit ![0, 72] S1x6.size Facts₀.inb_S1x80_S1x6_0_72, k0_pay2 x6⟩,
   ⟨Rect.unit ![0, 24] S1x42.size Facts₀.inb_S1x80_S1x42_0_24, k0_pay1 (k0_pay13 x5)⟩,
   ⟨Rect.unit ![0, 0] S1x18.size Facts₀.inb_S1x80_S1x18_0_0, k0_pay12 x4⟩,
   ⟨Rect.unit ![0, 0] S1x80.size Facts₀.inb_S1x80_S1x80_0_0, k0_pay11⟩]

/-- The packed biases. -/
def packB (x4 : Vec F S18 .f32) (x5 : Vec F S42 .f32) (x6 : Vec F S6 .f32) : Vec F S1x80 .f32 :=
  View.canon (piecesB x4 x5 x6)

end Cert.KernelIdeal.Pack

end
-- ==== Proof.IPieces.lean ====
/-
  What the two runs of the body leave, read back as functions of what the body was handed.  An output's staging
  buffer is rewritten whole by its one store, so it reads back the store's payload: the output's slice of the fused
  product of the weight scratch with the block of x, plus the bias scratch.  At the first point the two scratch buffers
  read back as the packed weights and the packed biases (their lists of stores end with a store of the whole buffer,
  so the lists cover it), and the product is taken against those; at a later point the scratch buffers are as found.
-/
import proofs.«179534_g59124519797212_fold_wed_c4_776_33_alg».proof.Proof.IRunFirst
import proofs.«179534_g59124519797212_fold_wed_c4_776_33_alg».proof.Proof.IRunLater
import proofs.«179534_g59124519797212_fold_wed_c4_776_33_alg».proof.Proof.IPack
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Pack

theorem hz2 : (![0, 0] : Fin 2 → Nat) = fun _ => 0 := funext fun a => by fin_cases a <;> rfl
theorem hz1 : (![0] : Fin 1 → Nat) = fun _ => 0 := funext fun a => by fin_cases a; rfl

/-- Every index lies in the rectangle at offsets zero of the shape's own sizes. -/
theorem mem_unit_zero {S : Shape} {off : Fin S.rank → Nat} (h : off = fun _ => 0) (inb : ∀ a, off a + S.size a ≤ S.size a)
    (y : S.Idx) : y ∈ (Rect.unit off S.size inb).set := by
  subst h; show y ∈ (Rect.whole S).set; rw [Rect.set_whole]; exact Finset.mem_univ y

/-- A buffer rewritten whole by one store reads back the store's payload, whatever it held. -/
theorem read_writes_whole {S : Shape} {κ : Kind} {sp : Space} (v : View sig κ sp S .f32) (f : v.ty.Contents (Elt F))
    {off : Fin S.rank → Nat} (h : off = fun _ => 0) (inb : ∀ a, off a + S.size a ≤ S.size a) (w : S.Idx → Elt F .f32) :
    v.read (Elt F) (v.writes (Elt F) f [(⟨Rect.unit off S.size inb, w⟩ : View.Piece (Elt F) S .f32)]) = w := by
  rw [View.read_writes_eq_canon v f _ (fun y => ⟨_, List.mem_singleton_self _, mem_unit_zero h inb y⟩), View.canon_unit_zero h]

/-! ## A later point -/

theorem later_read7 (c : Dev nD) (i : grid0.Coords) (arg1 : Memref sig .tc .vmem S10112x256 .f32) (harg1 : arg1.IsWhole) (arg2 : Memref sig .tc .vmem S18x256 .f32) (harg2 : arg2.IsWhole) (arg3 : Memref sig .tc .vmem S42x256 .f32) (harg3 : arg3.IsWhole) (arg4 : Memref sig .tc .vmem S6x256 .f32) (harg4 : arg4.IsWhole) (arg5 : Memref sig .tc .vmem S18 .f32) (harg5 : arg5.IsWhole) (arg6 : Memref sig .tc .vmem S42 .f32) (harg6 : arg6.IsWhole) (arg7 : Memref sig .tc .vmem S6 .f32) (harg7 : arg7.IsWhole) (arg8 : Memref sig .tc .vmem S18x10112 .f32) (harg8 : arg8.IsWhole) (arg9 : Memref sig .tc .vmem S42x10112 .f32) (harg9 : arg9.IsWhole) (arg10 : Memref sig .tc .vmem S6x10112 .f32) (harg10 : arg10.IsWhole) (arg11 : Memref sig .tc .vmem S80x256 .f32) (harg11 : arg11.IsWhole) (arg12 : Memref sig .tc .vmem S1x80 .f32) (harg12 : arg12.IsWhole) (hc : ¬cond0 i) (x0 : Vec F S10112x256 .f32) (x1 : Vec F S18x256 .f32) (x2 : Vec F S42x256 .f32) (x3 : Vec F S6x256 .f32) (x4 : Vec F S18 .f32) (x5 : Vec F S42 .f32) (x6 : Vec F S6 .f32) (xW : Vec F S80x256 .f32) (xB : Vec F S1x80 .f32) (f : arg8.view.ty.Contents (Elt F)) :
    arg8.view.read (Elt F) (arg8.view.writes (Elt F) f (runLater c i arg1 harg1 arg2 harg2 arg3 harg3 arg4 harg4 arg5 harg5 arg6 harg6 arg7 harg7 arg8 harg8 arg9 harg9 arg10 harg10 arg11 harg11 arg12 harg12 hc x0 x1 x2 x3 x4 x5 x6 xW xB).1) = k0_pay4 xW x0 xB := by
  unfold runLater; dsimp only
  rw [read_writes_whole _ _ hz2]
  simp only [View.readAt_eq_ld, harg1.read_unread, harg2.read_unread, harg3.read_unread, harg4.read_unread, harg5.read_unread, harg6.read_unread, harg7.read_unread, harg11.read_unread, harg12.read_unread, View.ld_unit_zero (S := S10112x256) hz2, View.ld_unit_zero (S := S18x256) hz2, View.ld_unit_zero (S := S42x256) hz2, View.ld_unit_zero (S := S6x256) hz2, View.ld_unit_zero (S := S80x256) hz2, View.ld_unit_zero (S := S1x80) hz2, View.ld_unit_zero (S := S18) hz1, View.ld_unit_zero (S := S42) hz1, View.ld_unit_zero (S := S6) hz1]

theorem later_read8 (c : Dev nD) (i : grid0.Coords) (arg1 : Memref sig .tc .vmem S10112x256 .f32) (harg1 : arg1.IsWhole) (arg2 : Memref sig .tc .vmem S18x256 .f32) (harg2 : arg2.IsWhole) (arg3 : Memref sig .tc .vmem S42x256 .f32) (harg3 : arg3.IsWhole) (arg4 : Memref sig .tc .vmem S6x256 .f32) (harg4 : arg4.IsWhole) (arg5 : Memref sig .tc .vmem S18 .f32) (harg5 : arg5.IsWhole) (arg6 : Memref sig .tc .vmem S42 .f32) (harg6 : arg6.IsWhole) (arg7 : Memref sig .tc .vmem S6 .f32) (harg7 : arg7.IsWhole) (arg8 : Memref sig .tc .vmem S18x10112 .f32) (harg8 : arg8.IsWhole) (arg9 : Memref sig .tc .vmem S42x10112 .f32) (harg9 : arg9.IsWhole) (arg10 : Memref sig .tc .vmem S6x10112 .f32) (harg10 : arg10.IsWhole) (arg11 : Memref sig .tc .vmem S80x256 .f32) (harg11 : arg11.IsWhole) (arg12 : Memref sig .tc .vmem S1x80 .f32) (harg12 : arg12.IsWhole) (hc : ¬cond0 i) (x0 : Vec F S10112x256 .f32) (x1 : Vec F S18x256 .f32) (x2 : Vec F S42x256 .f32) (x3 : Vec F S6x256 .f32) (x4 : Vec F S18 .f32) (x5 : Vec F S42 .f32) (x6 : Vec F S6 .f32) (xW : Vec F S80x256 .f32) (xB : Vec F S1x80 .f32) (f : arg9.view.ty.Contents (Elt F)) :
    arg9.view.read (Elt F) (arg9.view.writes (Elt F) f (runLater c i arg1 harg1 arg2 harg2 arg3 harg3 arg4 harg4 arg5 harg5 arg6 harg6 arg7 harg7 arg8 harg8 arg9 harg9 arg10 harg10 arg11 harg11 arg12 harg12 hc x0 x1 x2 x3 x4 x5 x6 xW xB).2.1) = k0_pay5 xW x0 xB := by
  unfold runLater; dsimp only
  rw [read_writes_whole _ _ hz2]
  simp only [View.readAt_eq_ld, harg1.read_unread, harg2.read_unread, harg3.read_unread, harg4.read_unread, harg5.read_unread, harg6.read_unread, harg7.read_unread, harg11.read_unread, harg12.read_unread, View.ld_unit_zero (S := S10112x256) hz2, View.ld_unit_zero (S := S18x256) hz2, View.ld_unit_zero (S := S42x256) hz2, View.ld_unit_zero (S := S6x256) hz2, View.ld_unit_zero (S := S80x256) hz2, View.ld_unit_zero (S := S1x80) hz2, View.ld_unit_zero (S := S18) hz1, View.ld_unit_zero (S := S42) hz1, View.ld_unit_zero (S := S6) hz1]

theorem later_read9 (c : Dev nD) (i : grid0.Coords) (arg1 : Memref sig .tc .vmem S10112x256 .f32) (harg1 : arg1.IsWhole) (arg2 : Memref sig .tc .vmem S18x256 .f32) (harg2 : arg2.IsWhole) (arg3 : Memref sig .tc .vmem S42x256 .f32) (harg3 : arg3.IsWhole) (arg4 : Memref sig .tc .vmem S6x256 .f32) (harg4 : arg4.IsWhole) (arg5 : Memref sig .tc .vmem S18 .f32) (harg5 : arg5.IsWhole) (arg6 : Memref sig .tc .vmem S42 .f32) (harg6 : arg6.IsWhole) (arg7 : Memref sig .tc .vmem S6 .f32) (harg7 : arg7.IsWhole) (arg8 : Memref sig .tc .vmem S18x10112 .f32) (harg8 : arg8.IsWhole) (arg9 : Memref sig .tc .vmem S42x10112 .f32) (harg9 : arg9.IsWhole) (arg10 : Memref sig .tc .vmem S6x10112 .f32) (harg10 : arg10.IsWhole) (arg11 : Memref sig .tc .vmem S80x256 .f32) (harg11 : arg11.IsWhole) (arg12 : Memref sig .tc .vmem S1x80 .f32) (harg12 : arg12.IsWhole) (hc : ¬cond0 i) (x0 : Vec F S10112x256 .f32) (x1 : Vec F S18x256 .f32) (x2 : Vec F S42x256 .f32) (x3 : Vec F S6x256 .f32) (x4 : Vec F S18 .f32) (x5 : Vec F S42 .f32) (x6 : Vec F S6 .f32) (xW : Vec F S80x256 .f32) (xB : Vec F S1x80 .f32) (f : arg10.view.ty.Contents (Elt F)) :
    arg10.view.read (Elt F) (arg10.view.writes (Elt F) f (runLater c i arg1 harg1 arg2 harg2 arg3 harg3 arg4 harg4 arg5 harg5 arg6 harg6 arg7 harg7 arg8 harg8 arg9 harg9 arg10 harg10 arg11 harg11 arg12 harg12 hc x0 x1 x2 x3 x4 x5 x6 xW xB).2.2.1) = k0_pay6 xW x0 xB := by
  unfold runLater; dsimp only
  rw [read_writes_whole _ _ hz2]
  simp only [View.readAt_eq_ld, harg1.read_unread, harg2.read_unread, harg3.read_unread, harg4.read_unread, harg5.read_unread, harg6.read_unread, harg7.read_unread, harg11.read_unread, harg12.read_unread, View.ld_unit_zero (S := S10112x256) hz2, View.ld_unit_zero (S := S18x256) hz2, View.ld_unit_zero (S := S42x256) hz2, View.ld_unit_zero (S := S6x256) hz2, View.ld_unit_zero (S := S80x256) hz2, View.ld_unit_zero (S := S1x80) hz2, View.ld_unit_zero (S := S18) hz1, View.ld_unit_zero (S := S42) hz1, View.ld_unit_zero (S := S6) hz1]

/-! ## The first point -/

/-- The packing stores cover the weight scratch: the oldest of them rewrote the whole buffer. -/
theorem coverW (x1 : Vec F S18x256 .f32) (x2 : Vec F S42x256 .f32) (x3 : Vec F S6x256 .f32) (y : S80x256.Idx) :
    ∃ p ∈ piecesW x1 x2 x3, y ∈ p.1.set :=
  ⟨(⟨Rect.unit ![0, 0] S80x256.size Facts₀.inb_S80x256_S80x256_0_0, k0_pay7⟩ : View.Piece (Elt F) S80x256 .f32),
    List.mem_cons_of_mem _ (List.mem_cons_of_mem _ (List.mem_cons_of_mem _ (List.mem_singleton_self _))),
    mem_unit_zero hz2 Facts₀.inb_S80x256_S80x256_0_0 y⟩

/-- Likewise the bias scratch. -/
theorem coverB (x4 : Vec F S18 .f32) (x5 : Vec F S42 .f32) (x6 : Vec F S6 .f32) (y : S1x80.Idx) :
    ∃ p ∈ piecesB x4 x5 x6, y ∈ p.1.set :=
  ⟨(⟨Rect.unit ![0, 0] S1x80.size Facts₀.inb_S1x80_S1x80_0_0, k0_pay11⟩ : View.Piece (Elt F) S1x80 .f32),
    List.mem_cons_of_mem _ (List.mem_cons_of_mem _ (List.mem_cons_of_mem _ (List.mem_singleton_self _))),
    mem_unit_zero hz2 Facts₀.inb_S1x80_S1x80_0_0 y⟩

/-- The weight scratch after the first point: the packed weights, whatever it held. -/
theorem first_readW (c : Dev nD) (i : grid0.Coords) (arg1 : Memref sig .tc .vmem S10112x256 .f32) (harg1 : arg1.IsWhole) (arg2 : Memref sig .tc .vmem S18x256 .f32) (harg2 : arg2.IsWhole) (arg3 : Memref sig .tc .vmem S42x256 .f32) (harg3 : arg3.IsWhole) (arg4 : Memref sig .tc .vmem S6x256 .f32) (harg4 : arg4.IsWhole) (arg5 : Memref sig .tc .vmem S18 .f32) (harg5 : arg5.IsWhole) (arg6 : Memref sig .tc .vmem S42 .f32) (harg6 : arg6.IsWhole) (arg7 : Memref sig .tc .vmem S6 .f32) (harg7 : arg7.IsWhole) (arg8 : Memref sig .tc .vmem S18x10112 .f32) (harg8 : arg8.IsWhole) (arg9 : Memref sig .tc .vmem S42x10112 .f32) (harg9 : arg9.IsWhole) (arg10 : Memref sig .tc .vmem S6x10112 .f32) (harg10 : arg10.IsWhole) (arg11 : Memref sig .tc .vmem S80x256 .f32) (harg11 : arg11.IsWhole) (arg12 : Memref sig .tc .vmem S1x80 .f32) (harg12 : arg12.IsWhole) (hc : cond0 i) (x0 : Vec F S10112x256 .f32) (x1 : Vec F S18x256 .f32) (x2 : Vec F S42x256 .f32) (x3 : Vec F S6x256 .f32) (x4 : Vec F S18 .f32) (x5 : Vec F S42 .f32) (x6 : Vec F S6 .f32) (f : arg11.view.ty.Contents (Elt F)) :
    arg11.view.read (Elt F) (arg11.view.writes (Elt F) f (runFirst c i arg1 harg1 arg2 harg2 arg3 harg3 arg4 harg4 arg5 harg5 arg6 harg6 arg7 harg7 arg8 harg8 arg9 harg9 arg10 harg10 arg11 harg11 arg12 harg12 hc x0 x1 x2 x3 x4 x5 x6).2.2.2.1) = packW x1 x2 x3 := by
  unfold runFirst; dsimp only; sl_unfold_run_names
  simp only [View.readAt_eq_ld, harg1.read_unread, harg2.read_unread, harg3.read_unread, harg4.read_unread, harg5.read_unread, harg6.read_unread, harg7.read_unread, harg11.read_unread, harg12.read_unread, View.ld_unit_zero (S := S10112x256) hz2, View.ld_unit_zero (S := S18x256) hz2, View.ld_unit_zero (S := S42x256) hz2, View.ld_unit_zero (S := S6x256) hz2, View.ld_unit_zero (S := S80x256) hz2, View.ld_unit_zero (S := S1x80) hz2, View.ld_unit_zero (S := S18) hz1, View.ld_unit_zero (S := S42) hz1, View.ld_unit_zero (S := S6) hz1]
  exact View.read_writes_eq_canon arg11.view f (piecesW x1 x2 x3) (coverW x1 x2 x3)

/-- The bias scratch after the first point: the packed biases, whatever it held. -/
theorem first_readB (c : Dev nD) (i : grid0.Coords) (arg1 : Memref sig .tc .vmem S10112x256 .f32) (harg1 : arg1.IsWhole) (arg2 : Memref sig .tc .vmem S18x256 .f32) (harg2 : arg2.IsWhole) (arg3 : Memref sig .tc .vmem S42x256 .f32) (harg3 : arg3.IsWhole) (arg4 : Memref sig .tc .vmem S6x256 .f32) (harg4 : arg4.IsWhole) (arg5 : Memref sig .tc .vmem S18 .f32) (harg5 : arg5.IsWhole) (arg6 : Memref sig .tc .vmem S42 .f32) (harg6 : arg6.IsWhole) (arg7 : Memref sig .tc .vmem S6 .f32) (harg7 : arg7.IsWhole) (arg8 : Memref sig .tc .vmem S18x10112 .f32) (harg8 : arg8.IsWhole) (arg9 : Memref sig .tc .vmem S42x10112 .f32) (harg9 : arg9.IsWhole) (arg10 : Memref sig .tc .vmem S6x10112 .f32) (harg10 : arg10.IsWhole) (arg11 : Memref sig .tc .vmem S80x256 .f32) (harg11 : arg11.IsWhole) (arg12 : Memref sig .tc .vmem S1x80 .f32) (harg12 : arg12.IsWhole) (hc : cond0 i) (x0 : Vec F S10112x256 .f32) (x1 : Vec F S18x256 .f32) (x2 : Vec F S42x256 .f32) (x3 : Vec F S6x256 .f32) (x4 : Vec F S18 .f32) (x5 : Vec F S42 .f32) (x6 : Vec F S6 .f32) (f : arg12.view.ty.Contents (Elt F)) :
    arg12.view.read (Elt F) (arg12.view.writes (Elt F) f (runFirst c i arg1 harg1 arg2 harg2 arg3 harg3 arg4 harg4 arg5 harg5 arg6 harg6 arg7 harg7 arg8 harg8 arg9 harg9 arg10 harg10 arg11 harg11 arg12 harg12 hc x0 x1 x2 x3 x4 x5 x6).2.2.2.2.1) = packB x4 x5 x6 := by
  unfold runFirst; dsimp only; sl_unfold_run_names
  simp only [View.readAt_eq_ld, harg1.read_unread, harg2.read_unread, harg3.read_unread, harg4.read_unread, harg5.read_unread, harg6.read_unread, harg7.read_unread, harg11.read_unread, harg12.read_unread, View.ld_unit_zero (S := S10112x256) hz2, View.ld_unit_zero (S := S18x256) hz2, View.ld_unit_zero (S := S42x256) hz2, View.ld_unit_zero (S := S6x256) hz2, View.ld_unit_zero (S := S80x256) hz2, View.ld_unit_zero (S := S1x80) hz2, View.ld_unit_zero (S := S18) hz1, View.ld_unit_zero (S := S42) hz1, View.ld_unit_zero (S := S6) hz1]
  exact View.read_writes_eq_canon arg12.view f (piecesB x4 x5 x6) (coverB x4 x5 x6)

/-- What the body's loads of the two scratch buffers read at the first point, after the packing stores. -/
theorem readCov_W {κ : Kind} {sp : Space} (v : View sig κ sp S80x256 .f32) (x1 : Vec F S18x256 .f32) (x2 : Vec F S42x256 .f32) (x3 : Vec F S6x256 .f32) :
    v.readCov (piecesW x1 x2 x3) (Rect.unit ![0, 0] ![80, 256] Facts₀.inb_S80x256_S80x256_0_0).toLoadRect = packW x1 x2 x3 := by
  rw [View.readCov_eq_canon_ld _ _ _ (coverW x1 x2 x3)]
  exact View.ld_unit_zero (S := S80x256) hz2 _ _

theorem readCov_B {κ : Kind} {sp : Space} (v : View sig κ sp S1x80 .f32) (x4 : Vec F S18 .f32) (x5 : Vec F S42 .f32) (x6 : Vec F S6 .f32) :
    v.readCov (piecesB x4 x5 x6) (Rect.unit ![0, 0] ![1, 80] Facts₀.inb_S1x80_S1x80_0_0).toLoadRect = packB x4 x5 x6 := by
  rw [View.readCov_eq_canon_ld _ _ _ (coverB x4 x5 x6)]
  exact View.ld_unit_zero (S := S1x80) hz2 _ _

theorem first_read7 (c : Dev nD) (i : grid0.Coords) (arg1 : Memref sig .tc .vmem S10112x256 .f32) (harg1 : arg1.IsWhole) (arg2 : Memref sig .tc .vmem S18x256 .f32) (harg2 : arg2.IsWhole) (arg3 : Memref sig .tc .vmem S42x256 .f32) (harg3 : arg3.IsWhole) (arg4 : Memref sig .tc .vmem S6x256 .f32) (harg4 : arg4.IsWhole) (arg5 : Memref sig .tc .vmem S18 .f32) (harg5 : arg5.IsWhole) (arg6 : Memref sig .tc .vmem S42 .f32) (harg6 : arg6.IsWhole) (arg7 : Memref sig .tc .vmem S6 .f32) (harg7 : arg7.IsWhole) (arg8 : Memref sig .tc .vmem S18x10112 .f32) (harg8 : arg8.IsWhole) (arg9 : Memref sig .tc .vmem S42x10112 .f32) (harg9 : arg9.IsWhole) (arg10 : Memref sig .tc .vmem S6x10112 .f32) (harg10 : arg10.IsWhole) (arg11 : Memref sig .tc .vmem S80x256 .f32) (harg11 : arg11.IsWhole) (arg12 : Memref sig .tc .vmem S1x80 .f32) (harg12 : arg12.IsWhole) (hc : cond0 i) (x0 : Vec F S10112x256 .f32) (x1 : Vec F S18x256 .f32) (x2 : Vec F S42x256 .f32) (x3 : Vec F S6x256 .f32) (x4 : Vec F S18 .f32) (x5 : Vec F S42 .f32) (x6 : Vec F S6 .f32) (f : arg8.view.ty.Contents (Elt F)) :
    arg8.view.read (Elt F) (arg8.view.writes (Elt F) f (runFirst c i arg1 harg1 arg2 harg2 arg3 harg3 arg4 harg4 arg5 harg5 arg6 harg6 arg7 harg7 arg8 harg8 arg9 harg9 arg10 harg10 arg11 harg11 arg12 harg12 hc x0 x1 x2 x3 x4 x5 x6).1) = k0_pay4 (packW x1 x2 x3) x0 (packB x4 x5 x6) := by
  unfold runFirst; dsimp only; sl_unfold_run_names
  rw [read_writes_whole _ _ hz2]
  simp only [View.readAt_eq_ld, harg1.read_unread, harg2.read_unread, harg3.read_unread, harg4.read_unread, harg5.read_unread, harg6.read_unread, harg7.read_unread, harg11.read_unread, harg12.read_unread, View.ld_unit_zero (S := S10112x256) hz2, View.ld_unit_zero (S := S18x256) hz2, View.ld_unit_zero (S := S42x256) hz2, View.ld_unit_zero (S := S6x256) hz2, View.ld_unit_zero (S := S80x256) hz2, View.ld_unit_zero (S := S1x80) hz2, View.ld_unit_zero (S := S18) hz1, View.ld_unit_zero (S := S42) hz1, View.ld_unit_zero (S := S6) hz1]
  exact congrArg₂ (fun a b => k0_pay4 a x0 b) (readCov_W arg11.view x1 x2 x3) (readCov_B arg12.view x4 x5 x6)

theorem first_read8 (c : Dev nD) (i : grid0.Coords) (arg1 : Memref sig .tc .vmem S10112x256 .f32) (harg1 : arg1.IsWhole) (arg2 : Memref sig .tc .vmem S18x256 .f32) (harg2 : arg2.IsWhole) (arg3 : Memref sig .tc .vmem S42x256 .f32) (harg3 : arg3.IsWhole) (arg4 : Memref sig .tc .vmem S6x256 .f32) (harg4 : arg4.IsWhole) (arg5 : Memref sig .tc .vmem S18 .f32) (harg5 : arg5.IsWhole) (arg6 : Memref sig .tc .vmem S42 .f32) (harg6 : arg6.IsWhole) (arg7 : Memref sig .tc .vmem S6 .f32) (harg7 : arg7.IsWhole) (arg8 : Memref sig .tc .vmem S18x10112 .f32) (harg8 : arg8.IsWhole) (arg9 : Memref sig .tc .vmem S42x10112 .f32) (harg9 : arg9.IsWhole) (arg10 : Memref sig .tc .vmem S6x10112 .f32) (harg10 : arg10.IsWhole) (arg11 : Memref sig .tc .vmem S80x256 .f32) (harg11 : arg11.IsWhole) (arg12 : Memref sig .tc .vmem S1x80 .f32) (harg12 : arg12.IsWhole) (hc : cond0 i) (x0 : Vec F S10112x256 .f32) (x1 : Vec F S18x256 .f32) (x2 : Vec F S42x256 .f32) (x3 : Vec F S6x256 .f32) (x4 : Vec F S18 .f32) (x5 : Vec F S42 .f32) (x6 : Vec F S6 .f32) (f : arg9.view.ty.Contents (Elt F)) :
    arg9.view.read (Elt F) (arg9.view.writes (Elt F) f (runFirst c i arg1 harg1 arg2 harg2 arg3 harg3 arg4 harg4 arg5 harg5 arg6 harg6 arg7 harg7 arg8 harg8 arg9 harg9 arg10 harg10 arg11 harg11 arg12 harg12 hc x0 x1 x2 x3 x4 x5 x6).2.1) = k0_pay5 (packW x1 x2 x3) x0 (packB x4 x5 x6) := by
  unfold runFirst; dsimp only; sl_unfold_run_names
  rw [read_writes_whole _ _ hz2]
  simp only [View.readAt_eq_ld, harg1.read_unread, harg2.read_unread, harg3.read_unread, harg4.read_unread, harg5.read_unread, harg6.read_unread, harg7.read_unread, harg11.read_unread, harg12.read_unread, View.ld_unit_zero (S := S10112x256) hz2, View.ld_unit_zero (S := S18x256) hz2, View.ld_unit_zero (S := S42x256) hz2, View.ld_unit_zero (S := S6x256) hz2, View.ld_unit_zero (S := S80x256) hz2, View.ld_unit_zero (S := S1x80) hz2, View.ld_unit_zero (S := S18) hz1, View.ld_unit_zero (S := S42) hz1, View.ld_unit_zero (S := S6) hz1]
  exact congrArg₂ (fun a b => k0_pay5 a x0 b) (readCov_W arg11.view x1 x2 x3) (readCov_B arg12.view x4 x5 x6)

theorem first_read9 (c : Dev nD) (i : grid0.Coords) (arg1 : Memref sig .tc .vmem S10112x256 .f32) (harg1 : arg1.IsWhole) (arg2 : Memref sig .tc .vmem S18x256 .f32) (harg2 : arg2.IsWhole) (arg3 : Memref sig .tc .vmem S42x256 .f32) (harg3 : arg3.IsWhole) (arg4 : Memref sig .tc .vmem S6x256 .f32) (harg4 : arg4.IsWhole) (arg5 : Memref sig .tc .vmem S18 .f32) (harg5 : arg5.IsWhole) (arg6 : Memref sig .tc .vmem S42 .f32) (harg6 : arg6.IsWhole) (arg7 : Memref sig .tc .vmem S6 .f32) (harg7 : arg7.IsWhole) (arg8 : Memref sig .tc .vmem S18x10112 .f32) (harg8 : arg8.IsWhole) (arg9 : Memref sig .tc .vmem S42x10112 .f32) (harg9 : arg9.IsWhole) (arg10 : Memref sig .tc .vmem S6x10112 .f32) (harg10 : arg10.IsWhole) (arg11 : Memref sig .tc .vmem S80x256 .f32) (harg11 : arg11.IsWhole) (arg12 : Memref sig .tc .vmem S1x80 .f32) (harg12 : arg12.IsWhole) (hc : cond0 i) (x0 : Vec F S10112x256 .f32) (x1 : Vec F S18x256 .f32) (x2 : Vec F S42x256 .f32) (x3 : Vec F S6x256 .f32) (x4 : Vec F S18 .f32) (x5 : Vec F S42 .f32) (x6 : Vec F S6 .f32) (f : arg10.view.ty.Contents (Elt F)) :
    arg10.view.read (Elt F) (arg10.view.writes (Elt F) f (runFirst c i arg1 harg1 arg2 harg2 arg3 harg3 arg4 harg4 arg5 harg5 arg6 harg6 arg7 harg7 arg8 harg8 arg9 harg9 arg10 harg10 arg11 harg11 arg12 harg12 hc x0 x1 x2 x3 x4 x5 x6).2.2.1) = k0_pay6 (packW x1 x2 x3) x0 (packB x4 x5 x6) := by
  unfold runFirst; dsimp only; sl_unfold_run_names
  rw [read_writes_whole _ _ hz2]
  simp only [View.readAt_eq_ld, harg1.read_unread, harg2.read_unread, harg3.read_unread, harg4.read_unread, harg5.read_unread, harg6.read_unread, harg7.read_unread, harg11.read_unread, harg12.read_unread, View.ld_unit_zero (S := S10112x256) hz2, View.ld_unit_zero (S := S18x256) hz2, View.ld_unit_zero (S := S42x256) hz2, View.ld_unit_zero (S := S6x256) hz2, View.ld_unit_zero (S := S80x256) hz2, View.ld_unit_zero (S := S1x80) hz2, View.ld_unit_zero (S := S18) hz1, View.ld_unit_zero (S := S42) hz1, View.ld_unit_zero (S := S6) hz1]
  exact congrArg₂ (fun a b => k0_pay6 a x0 b) (readCov_W arg11.view x1 x2 x3) (readCov_B arg12.view x4 x5 x6)

end Cert.KernelIdeal.Hand

end
-- ==== Proof.IData.lean ====
/-
  The proof data of the heads kernel's pipeline.

  After the body at point t each input's staging buffer holds what it held: the weight and bias blocks (fetched
  once), and x's block, which on the rows inside the array is the array's block and past the array's end anything.
  Each output's buffer holds its slice of the fused product of the PACKED weights with x's block, plus the packed
  biases; the two scratch buffers hold the packed weights and biases from the first point on (the invariant: before
  the first point anything, afterwards those).  The outputs' windows are stated on the part their write-backs move:
  there the product does not see what fills x's block past the array's end (the columns written back are the rows
  of x inside the array), so it is named with the zero word there.
-/
import proofs.«179534_g59124519797212_fold_wed_c4_776_33_alg».proof.Proof.IPieces

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Pack
open Idealize.ShloMosaic.Pipeline (BodyObligationLoose)

variable (m : (ℓ : Loc nD τ sig) → Buf (Elt F) ℓ) (ρ : Dev nD → PrngReg)

/-- The zero word everywhere: the filler the proof names past the array's end. -/
abbrev zfill : Vec F S10112x256 .f32 := fun _ => Scalar.ofBits .f32 0#32

/-- x's block at point `t` filled out with `d` past the array's end. -/
abbrev xblk (c : Dev nD) (t : Fin cfg0.N) (d : Vec F S10112x256 .f32) : Vec F S10112x256 .f32 :=
  win0_0.fill (grid0.coords t) d (iblk m c 0 t)

/-- The packed weights and the packed biases of the launch's arrays. -/
def wS (c : Dev nD) : Vec F S80x256 .f32 := packW (iblk m c 1 t0_0) (iblk m c 2 t0_0) (iblk m c 3 t0_0)
def bS (c : Dev nD) : Vec F S1x80 .f32 := packB (iblk m c 4 t0_0) (iblk m c 5 t0_0) (iblk m c 6 t0_0)

/-- The invariant before position `n`: before the first point the launch's (each scratch at anything); afterwards
    the scratch buffers at the packed weights and biases. -/
def PhiS (c : Dev nD) : ℕ → sProp 𝕄
  | 0 => Pipeline.ΦA spec0 c
  | _ + 1 => iprop(iprop(owns (c : Thread nD τ) scW fullShare (wS m c) ∗ owns (c : Thread nD τ) scB fullShare (bS m c)) ∗ (∃ r, prngReg c r))

/-- The proof data. -/
def dats (_ : Fin 1) (c : Dev nD) : Dat τ (Elt F) Unit ℕ (UR sig nD τ) ℕ cfg0 c where
  A w := V m c (Pipeline.arrRef spec0 w)
  after w t := match w with
    | ⟨0, _⟩ => xblk m c t zfill
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => k0_pay4 (wS m c) (xblk m c t zfill) (bS m c)
    | ⟨8, _⟩ => k0_pay5 (wS m c) (xblk m c t zfill) (bS m c)
    | ⟨9, _⟩ => k0_pay6 (wS m c) (xblk m c t zfill) (bS m c)
  Φ t := PhiS m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = xblk m c t zfill := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = k0_pay4 (wS m c) (xblk m c t zfill) (bS m c) := by dsimp only [dats]
theorem after_8 (c : Dev nD) (t : Fin cfg0.N) : (dats m 0 c).after 8 t = k0_pay5 (wS m c) (xblk m c t zfill) (bS m c) := by dsimp only [dats]
theorem after_9 (c : Dev nD) (t : Fin cfg0.N) : (dats m 0 c).after 9 t = k0_pay6 (wS m c) (xblk m c t zfill) (bS m c) := by dsimp only [dats]

/-- x's buffer is fetched at every point: the block on the rows inside the array, `d` elsewhere. -/
theorem before_0 (c : Dev nD) (t : Fin cfg0.N) (d) : (dats m 0 c).before 0 t d = xblk m c t d := by
  unfold Dat.before; rw [if_pos (fetch0_0 t)]
  unfold Dat.fetched Dat.blockOf xblk iblk; rw [A_eq]; try rfl
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

end Cert.KernelIdeal.Hand

end
-- ==== Proof.IBody.lean ====
/-
  The body obligation of the heads kernel's pipeline over its proof data: at every grid point the body, handed each
  window's buffer as the pipeline left it and the scratch buffers as the invariant has them, runs and hands them back
  as the proof data says.  x's block arrives holding the array's rows where they exist and anything past the array's
  end; an output leaves holding the product taken against THAT block, and the proof data names the product against the
  block filled with zeros: the two agree on the part the write-back moves (the hypothesis `Locality`).
-/
import proofs.«179534_g59124519797212_fold_wed_c4_776_33_alg».proof.Proof.IData

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Pack
open Idealize.ShloMosaic.Pipeline (BodyObligationLoose)

variable (m : (ℓ : Loc nD τ sig) → Buf (Elt F) ℓ) (ρ : Dev nD → PrngReg)

/-! ## The body obligation -/

/-- What the obligation below needs of the arithmetic: on the part an output's write-back moves, the output's payload
    is the same whatever fills x's block past the array's end. -/
structure Locality (F : FTy → Type) [FloatOps F] : Prop where
  h7 : ∀ (t : Fin grid0.N) (W : Vec F S80x256 .f32) (B : Vec F S1x80 .f32) (d d' : Vec F S10112x256 .f32)
      (g : (win0_0.xblock (grid0.coords t)).Idx → Elt F .f32),
      win0_7.cut (grid0.coords t) (k0_pay4 W (win0_0.fill (grid0.coords t) d g) B)
        = win0_7.cut (grid0.coords t) (k0_pay4 W (win0_0.fill (grid0.coords t) d' g) B)
  h8 : ∀ (t : Fin grid0.N) (W : Vec F S80x256 .f32) (B : Vec F S1x80 .f32) (d d' : Vec F S10112x256 .f32)
      (g : (win0_0.xblock (grid0.coords t)).Idx → Elt F .f32),
      win0_8.cut (grid0.coords t) (k0_pay5 W (win0_0.fill (grid0.coords t) d g) B)
        = win0_8.cut (grid0.coords t) (k0_pay5 W (win0_0.fill (grid0.coords t) d' g) B)
  h9 : ∀ (t : Fin grid0.N) (W : Vec F S80x256 .f32) (B : Vec F S1x80 .f32) (d d' : Vec F S10112x256 .f32)
      (g : (win0_0.xblock (grid0.coords t)).Idx → Elt F .f32),
      win0_9.cut (grid0.coords t) (k0_pay6 W (win0_0.fill (grid0.coords t) d g) B)
        = win0_9.cut (grid0.coords t) (k0_pay6 W (win0_0.fill (grid0.coords t) d' g) B)

/-- What the body is called with at point `t`, the windows one by one. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d)))

/-- What it returns: each loose window's buffer stated on the part its transfers move. -/
def bodyPost (c : Dev nD) (t : Fin cfg0.N) : sProp 𝕄 :=
  iprop((dats m 0 c).Φ t.succ ∗ (dats m 0 c).owesAt () t.succ
    ∗ (dats m 0 c).leaves 0 t
    ∗ (dats m 0 c).leaves 1 t
    ∗ (dats m 0 c).leaves 2 t
    ∗ (dats m 0 c).leaves 3 t
    ∗ (dats m 0 c).leaves 4 t
    ∗ (dats m 0 c).leaves 5 t
    ∗ (dats m 0 c).leaves 6 t
    ∗ (dats m 0 c).leaves 7 t
    ∗ (dats m 0 c).leaves 8 t
    ∗ (dats m 0 c).leaves 9 t)

theorem leaves_0 (c : Dev nD) (t : Fin cfg0.N) : (dats m 0 c).leaves 0 t
    = iprop(∃ d, owns (c : Thread nD τ) (ms0 t) fullShare (win0_0.fill (grid0.coords t) d (win0_0.cut (grid0.coords t) ((dats m 0 c).after 0 t)))) := rfl
theorem leaves_7 (c : Dev nD) (t : Fin cfg0.N) : (dats m 0 c).leaves 7 t
    = iprop(∃ d, owns (c : Thread nD τ) (ms7 t) fullShare (win0_7.fill (grid0.coords t) d (win0_7.cut (grid0.coords t) ((dats m 0 c).after 7 t)))) := rfl
theorem leaves_8 (c : Dev nD) (t : Fin cfg0.N) : (dats m 0 c).leaves 8 t
    = iprop(∃ d, owns (c : Thread nD τ) (ms8 t) fullShare (win0_8.fill (grid0.coords t) d (win0_8.cut (grid0.coords t) ((dats m 0 c).after 8 t)))) := rfl
theorem leaves_9 (c : Dev nD) (t : Fin cfg0.N) : (dats m 0 c).leaves 9 t
    = iprop(∃ d, owns (c : Thread nD τ) (ms9 t) fullShare (win0_9.fill (grid0.coords t) d (win0_9.cut (grid0.coords t) ((dats m 0 c).after 9 t)))) := rfl
theorem leaves_1 (c : Dev nD) (t : Fin cfg0.N) : (dats m 0 c).leaves 1 t = owns (c : Thread nD τ) (ms1 t) fullShare ((dats m 0 c).after 1 t) := rfl
theorem leaves_2 (c : Dev nD) (t : Fin cfg0.N) : (dats m 0 c).leaves 2 t = owns (c : Thread nD τ) (ms2 t) fullShare ((dats m 0 c).after 2 t) := rfl
theorem leaves_3 (c : Dev nD) (t : Fin cfg0.N) : (dats m 0 c).leaves 3 t = owns (c : Thread nD τ) (ms3 t) fullShare ((dats m 0 c).after 3 t) := rfl
theorem leaves_4 (c : Dev nD) (t : Fin cfg0.N) : (dats m 0 c).leaves 4 t = owns (c : Thread nD τ) (ms4 t) fullShare ((dats m 0 c).after 4 t) := rfl
theorem leaves_5 (c : Dev nD) (t : Fin cfg0.N) : (dats m 0 c).leaves 5 t = owns (c : Thread nD τ) (ms5 t) fullShare ((dats m 0 c).after 5 t) := rfl
theorem leaves_6 (c : Dev nD) (t : Fin cfg0.N) : (dats m 0 c).leaves 6 t = owns (c : Thread nD τ) (ms6 t) fullShare ((dats m 0 c).after 6 t) := rfl

theorem cut_xblk (c : Dev nD) (t : Fin cfg0.N) (d : Vec F S10112x256 .f32) :
    win0_0.cut (grid0.coords t) (xblk m c t d) = iblk m c 0 t := win0_0.cut_fill _ _ _

set_option maxHeartbeats 4000000 in
/-- The body at any point.  At the first point the branch is taken: the scratch buffers, found at anything, are left
    at the packed weights and biases; at the later point they are found there and left there.  Either way each output's
    buffer is left at its slice of the product of the packed weights with x's block as found, which on the part written
    back is the named one. -/
theorem sound_body (hL : Locality F) (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  rw [leaves_0 m c t, leaves_1 m c t, leaves_2 m c t, leaves_3 m c t, leaves_4 m c t, leaves_5 m c t, leaves_6 m c t,
    leaves_7 m c t, leaves_8 m c t, leaves_9 m c t]
  rw [show PhiS m c (t.val + 1) = iprop(iprop(owns (c : Thread nD τ) scW fullShare (wS m c) ∗ owns (c : Thread nD τ) scB fullShare (bS m c)) ∗ (∃ r, prngReg c r)) from rfl]
  by_cases hz : t.val = 0
  · have hc : cond0 (grid0.coords t) := (hcond0 t).mpr hz
    have ht : t = t0_0 := Fin.ext hz
    have hw : wS m c = packW (iblk m c 1 t) (iblk m c 2 t) (iblk m c 3 t) := by rw [ht]; rfl
    have hb : bS m c = packB (iblk m c 4 t) (iblk m c 5 t) (iblk m c 6 t) := by rw [ht]; rfl
    rw [show PhiS m c t.val = Pipeline.ΦA spec0 c from by rw [hz]; rfl, PhiA0_eq]
    iintro ⟨⟨⟨HW, HB⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scW (Memref.isWhole_whole _) scB (Memref.isWhole_whole _) hc (xblk m c t d0) (iblk m c 1 t) (iblk m c 2 t) (iblk m c 3 t) (iblk m c 4 t) (iblk m c 5 t) (iblk m c 6 t)).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [HW]; · iexact HW
    isplitl [HB]; · iexact HB
    iintro ⟨H0, H1, H2, H3, H4, H5, H6, ⟨%f7, H7⟩, ⟨%f8, H8⟩, ⟨%f9, H9⟩, ⟨%fW, HW⟩, ⟨%fB, HB⟩⟩
    isplitl [HW HB Hg]
    · isplitl [HW HB]
      · isplitl [HW]
        · unfold owns; iexists _; isplitr
          swap; · iexact HW
          ipureintro; rw [hw]; exact first_readW c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scW (Memref.isWhole_whole _) scB (Memref.isWhole_whole _) hc (xblk m c t d0) (iblk m c 1 t) (iblk m c 2 t) (iblk m c 3 t) (iblk m c 4 t) (iblk m c 5 t) (iblk m c 6 t) fW
        · unfold owns; iexists _; isplitr
          swap; · iexact HB
          ipureintro; rw [hb]; exact first_readB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scW (Memref.isWhole_whole _) scB (Memref.isWhole_whole _) hc (xblk m c t d0) (iblk m c 1 t) (iblk m c 2 t) (iblk m c 3 t) (iblk m c 4 t) (iblk m c 5 t) (iblk m c 6 t) fB
      · iexact Hg
    isplitl [Ho]; · iexact Ho
    isplitl [H0]
    · iexists d0; rw [after_0 m c t, cut_xblk m c t zfill]; iexact H0
    isplitl [H1]; · rw [after_1 m c t]; iexact H1
    isplitl [H2]; · rw [after_2 m c t]; iexact H2
    isplitl [H3]; · rw [after_3 m c t]; iexact H3
    isplitl [H4]; · rw [after_4 m c t]; iexact H4
    isplitl [H5]; · rw [after_5 m c t]; iexact H5
    isplitl [H6]; · rw [after_6 m c t]; iexact H6
    isplitl [H7]
    · iexists k0_pay4 (wS m c) (xblk m c t d0) (bS m c)
      rw [after_7 m c t, win0_7.fill_congr_cut (grid0.coords t) (hL.h7 t (wS m c) (bS m c) d0 zfill (iblk m c 0 t))]
      unfold owns; iexists _; isplitr
      swap; · iexact H7
      ipureintro; rw [hw, hb]; exact first_read7 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scW (Memref.isWhole_whole _) scB (Memref.isWhole_whole _) hc (xblk m c t d0) (iblk m c 1 t) (iblk m c 2 t) (iblk m c 3 t) (iblk m c 4 t) (iblk m c 5 t) (iblk m c 6 t) f7
    isplitl [H8]
    · iexists k0_pay5 (wS m c) (xblk m c t d0) (bS m c)
      rw [after_8 m c t, win0_8.fill_congr_cut (grid0.coords t) (hL.h8 t (wS m c) (bS m c) d0 zfill (iblk m c 0 t))]
      unfold owns; iexists _; isplitr
      swap; · iexact H8
      ipureintro; rw [hw, hb]; exact first_read8 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scW (Memref.isWhole_whole _) scB (Memref.isWhole_whole _) hc (xblk m c t d0) (iblk m c 1 t) (iblk m c 2 t) (iblk m c 3 t) (iblk m c 4 t) (iblk m c 5 t) (iblk m c 6 t) f8
    · iexists k0_pay6 (wS m c) (xblk m c t d0) (bS m c)
      rw [after_9 m c t, win0_9.fill_congr_cut (grid0.coords t) (hL.h9 t (wS m c) (bS m c) d0 zfill (iblk m c 0 t))]
      unfold owns; iexists _; isplitr
      swap; · iexact H9
      ipureintro; rw [hw, hb]; exact first_read9 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scW (Memref.isWhole_whole _) scB (Memref.isWhole_whole _) hc (xblk m c t d0) (iblk m c 1 t) (iblk m c 2 t) (iblk m c 3 t) (iblk m c 4 t) (iblk m c 5 t) (iblk m c 6 t) f9
  · have hc : ¬cond0 (grid0.coords t) := fun h => hz ((hcond0 t).mp h)
    obtain ⟨n, hn⟩ : ∃ n, t.val = n + 1 := Nat.exists_eq_succ_of_ne_zero hz
    rw [show PhiS m c t.val = iprop(iprop(owns (c : Thread nD τ) scW fullShare (wS m c) ∗ owns (c : Thread nD τ) scB fullShare (bS m c)) ∗ (∃ r, prngReg c r)) from by rw [hn]; rfl]
    iintro ⟨⟨⟨HW, HB⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runLater c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scW (Memref.isWhole_whole _) scB (Memref.isWhole_whole _) hc (xblk m c t d0) (iblk m c 1 t) (iblk m c 2 t) (iblk m c 3 t) (iblk m c 4 t) (iblk m c 5 t) (iblk m c 6 t) (wS m c) (bS m c)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [HW]; · iexact HW
    isplitl [HB]; · iexact HB
    iintro ⟨H0, H1, H2, H3, H4, H5, H6, ⟨%f7, H7⟩, ⟨%f8, H8⟩, ⟨%f9, H9⟩, HW, HB⟩
    isplitl [HW HB Hg]
    · isplitl [HW HB]
      · isplitl [HW]; · iexact HW
        iexact HB
      · iexact Hg
    isplitl [Ho]; · iexact Ho
    isplitl [H0]
    · iexists d0; rw [after_0 m c t, cut_xblk m c t zfill]; iexact H0
    isplitl [H1]; · rw [after_1 m c t]; iexact H1
    isplitl [H2]; · rw [after_2 m c t]; iexact H2
    isplitl [H3]; · rw [after_3 m c t]; iexact H3
    isplitl [H4]; · rw [after_4 m c t]; iexact H4
    isplitl [H5]; · rw [after_5 m c t]; iexact H5
    isplitl [H6]; · rw [after_6 m c t]; iexact H6
    isplitl [H7]
    · iexists k0_pay4 (wS m c) (xblk m c t d0) (bS m c)
      rw [after_7 m c t, win0_7.fill_congr_cut (grid0.coords t) (hL.h7 t (wS m c) (bS m c) d0 zfill (iblk m c 0 t))]
      unfold owns; iexists _; isplitr
      swap; · iexact H7
      ipureintro; exact later_read7 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scW (Memref.isWhole_whole _) scB (Memref.isWhole_whole _) hc (xblk m c t d0) (iblk m c 1 t) (iblk m c 2 t) (iblk m c 3 t) (iblk m c 4 t) (iblk m c 5 t) (iblk m c 6 t) (wS m c) (bS m c) f7
    isplitl [H8]
    · iexists k0_pay5 (wS m c) (xblk m c t d0) (bS m c)
      rw [after_8 m c t, win0_8.fill_congr_cut (grid0.coords t) (hL.h8 t (wS m c) (bS m c) d0 zfill (iblk m c 0 t))]
      unfold owns; iexists _; isplitr
      swap; · iexact H8
      ipureintro; exact later_read8 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scW (Memref.isWhole_whole _) scB (Memref.isWhole_whole _) hc (xblk m c t d0) (iblk m c 1 t) (iblk m c 2 t) (iblk m c 3 t) (iblk m c 4 t) (iblk m c 5 t) (iblk m c 6 t) (wS m c) (bS m c) f8
    · iexists k0_pay6 (wS m c) (xblk m c t d0) (bS m c)
      rw [after_9 m c t, win0_9.fill_congr_cut (grid0.coords t) (hL.h9 t (wS m c) (bS m c) d0 zfill (iblk m c 0 t))]
      unfold owns; iexists _; isplitr
      swap; · iexact H9
      ipureintro; exact later_read9 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scW (Memref.isWhole_whole _) scB (Memref.isWhole_whole _) hc (xblk m c t d0) (iblk m c 1 t) (iblk m c 2 t) (iblk m c 3 t) (iblk m c 4 t) (iblk m c 5 t) (iblk m c 6 t) (wS m c) (bS m c) f9

/-- The library's body obligation, at every point. -/
theorem body_obligation (hL : Locality F) (c : Dev nD) :
    BodyObligationLoose (dats (F := F) m 0 c) (defs₀ (F := F)) Variants.none () Set.univ := fun t => by
  rw [bigSep_W0, bigSep_W0]
  exact sound_body m hL c t

end Cert.KernelIdeal.Hand

end
-- ==== Proof.IRun.lean ====
/-
  The run of the idealized program and its frame.  The launch invariant is the invariant before the first point; after
  the last point the scratch buffers' named contents are forgotten, which gives the launch invariant back.  So every
  weakly fair execution of @main terminates with every array of the pipeline at what the library computes from the
  proof data and every other unscoped buffer as the host lines after the region leave it; read at the argument arrays,
  that is the frame.
-/
import proofs.«179534_g59124519797212_fold_wed_c4_776_33_alg».proof.Proof.IBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Pack

variable (m : (ℓ : Loc nD τ sig) → Buf (Elt F) ℓ) (ρ : Dev nD → PrngReg)

/-- What the launch hands the region is the invariant before the first point. -/
theorem hin (c : Dev nD) : Pipeline.ΦA spec0 c ⊢ (dats m 0 c).Φ 0 := by
  rw [show (dats m 0 c).Φ 0 = Pipeline.ΦA spec0 c from rfl]
  try exact Idealize.SL.BI.Entails.refl _

/-- After the last point the invariant gives the launch's back: the scratch buffers at some contents. -/
theorem hout (c : Dev nD) : (dats m 0 c).Φ (Fin.last cfg0.N) ⊢ Pipeline.ΦA spec0 c := by
  have hN : (Fin.last cfg0.N).val = 1 + 1 := by rw [Fin.val_last]; exact N_0
  rw [show (dats m 0 c).Φ (Fin.last cfg0.N) = PhiS m c (Fin.last cfg0.N).val from rfl, hN,
    show PhiS m c (1 + 1) = iprop(iprop(owns (c : Thread nD τ) scW fullShare (wS m c) ∗ owns (c : Thread nD τ) scB fullShare (bS m c)) ∗ (∃ r, prngReg c r)) from rfl,
    PhiA0_eq]
  iintro ⟨⟨HW, HB⟩, Hg⟩
  isplitl [HW HB]
  · isplitl [HW]
    · iexists _; iexact HW
    · iexists _; iexact HB
  iexact Hg

set_option backward.isDefEq.respectTransparency.types false in
/-- Every weakly fair execution of @main terminates; every final state has every array of the pipeline at what the
    library computes from the proof data and every other unscoped buffer as the lines after the region leave it. -/
theorem run_main (hL : Locality F) : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => body_obligation m hL c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the seven argument arrays end as launched. -/
theorem frame (hL : Locality F) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ hL)

end Cert.KernelIdeal.Hand

end
-- ==== Proof.LibMatmulRows.lean ====
/-
  A matrix product that contracts the two operands' LAST axes, read at one entry.

  For dimension numbers that contract the left operand's second axis with the right operand's second axis — the
  left operand [a, n], the right operand [b, n], the result [a, b], no batch axes: `x @ W.T` without the transpose
  ever being formed — the entry (p, q) of the product is the sum over k of left (p, k) times right (q, k): row p of
  the left operand against row q of the right one. The dimension numbers enter only through four facts about where
  the two operand indices sit (the left one reads the result's row and the contraction position, the right one the
  result's column and the contraction position); a caller proves those four facts for its own record, each by
  unfolding the record's two membership tests.

  `contr_sum_rows`     the contraction's sum re-indexed by the one contracted coordinate;
  `matmul_zero_rows`   a `tpu.matmul` into the zero accumulator at the ideal instance;
  `dotGeneral_rows`    the host's `dot_general` at the ideal instance.
-/
import Idealize.ShloMosaic.PureOps.Ideal.Laws
import Idealize.ShloMosaic.Lib.ValueIdx

noncomputable section

open scoped BigOperators

namespace Idealize.ShloMosaic.MatmulRows

open Idealize.ShloMosaic Idealize.ShloMosaic.ValueIdx

variable {a n b : ℕ}

/-- The sum over the contraction positions of a one-axis contraction of the operands' last axes is the sum over the
    contracted coordinate `k : Fin n`, the left operand read at `(p, k)` and the right one at `(q, k)`. -/
theorem contr_sum_rows (D : DotDims ⟨2, ![a, n]⟩ ⟨2, ![b, n]⟩ ⟨2, ![a, b]⟩) (hr : D.contr.rank = 1)
    (hs : D.contr.size ⟨0, by omega⟩ = n)
    (hl0 : ∀ i c, (D.lhsIdx i c (0 : Fin 2)).val = (i (0 : Fin 2)).val)
    (hl1 : ∀ i c, (D.lhsIdx i c (1 : Fin 2)).val = (c ⟨0, by omega⟩).val)
    (hr0 : ∀ i c, (D.rhsIdx i c (0 : Fin 2)).val = (i (1 : Fin 2)).val)
    (hr1 : ∀ i c, (D.rhsIdx i c (1 : Fin 2)).val = (c ⟨0, by omega⟩).val)
    (l : (⟨2, ![a, n]⟩ : Shape).Idx → EReal) (r : (⟨2, ![b, n]⟩ : Shape).Idx → EReal) (p : Fin a) (q : Fin b) :
    ∑ c : D.contr.Idx, l (D.lhsIdx (ix2 p q) c) * r (D.rhsIdx (ix2 p q) c) = ∑ k : Fin n, l (ix2 p k) * r (ix2 q k) := by
  rw [← Equiv.sum_comp (contrEquiv1 D n hr hs).symm]
  refine Finset.sum_congr rfl fun k _ => ?_
  have hk := contrEquiv1_symm_val D n hr hs k
  have el : D.lhsIdx (ix2 p q) ((contrEquiv1 D n hr hs).symm k) = ix2 p k := funext fun ax => Fin.ext (by
    match ax with
    | ⟨0, _⟩ => exact hl0 _ _
    | ⟨1, _⟩ => exact (hl1 _ _).trans hk)
  have er : D.rhsIdx (ix2 p q) ((contrEquiv1 D n hr hs).symm k) = ix2 q k := funext fun ax => Fin.ext (by
    match ax with
    | ⟨0, _⟩ => exact hr0 _ _
    | ⟨1, _⟩ => exact (hr1 _ _).trans hk)
  rw [el, er]

/-- A `tpu.matmul` of an [a, n] by a [b, n] operand into the zero accumulator, at the ideal instance, read at
    `(p, q)`: the sum over `k` of left `(p, k)` times right `(q, k)`. -/
theorem matmul_zero_rows {φ₁ φ₂ : FTy} (D : DotDims ⟨2, ![a, n]⟩ ⟨2, ![b, n]⟩ ⟨2, ![a, b]⟩) (hr : D.contr.rank = 1)
    (hs : D.contr.size ⟨0, by omega⟩ = n)
    (hl0 : ∀ i c, (D.lhsIdx i c (0 : Fin 2)).val = (i (0 : Fin 2)).val)
    (hl1 : ∀ i c, (D.lhsIdx i c (1 : Fin 2)).val = (c ⟨0, by omega⟩).val)
    (hr0 : ∀ i c, (D.rhsIdx i c (0 : Fin 2)).val = (i (1 : Fin 2)).val)
    (hr1 : ∀ i c, (D.rhsIdx i c (1 : Fin 2)).val = (c ⟨0, by omega⟩).val)
    (prec : Option ContractPrecision) (l : FVec Ideal ⟨2, ![a, n]⟩ φ₁) (r : FVec Ideal ⟨2, ![b, n]⟩ φ₂)
    (p : Fin a) (q : Fin b) :
    matmul D prec l r (constant ⟨2, ![a, b]⟩ .f32 0x00000000#32) (ix2 p q) = ∑ k : Fin n, l (ix2 p k) * r (ix2 q k) :=
  (Ideal.matmul_constant_zero_apply D prec l r (ix2 p q)).trans (contr_sum_rows D hr hs hl0 hl1 hr0 hr1 l r p q)

/-- The host's `dot_general` of an [a, n] by a [b, n] operand, at the ideal instance, read at `(p, q)`: the same sum. -/
theorem dotGeneral_rows {φ₁ φ₂ : FTy} (D : DotDims ⟨2, ![a, n]⟩ ⟨2, ![b, n]⟩ ⟨2, ![a, b]⟩) (hr : D.contr.rank = 1)
    (hs : D.contr.size ⟨0, by omega⟩ = n)
    (hl0 : ∀ i c, (D.lhsIdx i c (0 : Fin 2)).val = (i (0 : Fin 2)).val)
    (hl1 : ∀ i c, (D.lhsIdx i c (1 : Fin 2)).val = (c ⟨0, by omega⟩).val)
    (hr0 : ∀ i c, (D.rhsIdx i c (0 : Fin 2)).val = (i (1 : Fin 2)).val)
    (hr1 : ∀ i c, (D.rhsIdx i c (1 : Fin 2)).val = (c ⟨0, by omega⟩).val)
    (prec : Option ContractPrecision) (l : FVec Ideal ⟨2, ![a, n]⟩ φ₁) (r : FVec Ideal ⟨2, ![b, n]⟩ φ₂)
    (p : Fin a) (q : Fin b) :
    Host.dotGeneral D prec l r (ix2 p q) = ∑ k : Fin n, l (ix2 p k) * r (ix2 q k) :=
  (Ideal.dotGeneral_apply D prec .single l r (ix2 p q)).trans (contr_sum_rows D hr hs hl0 hl1 hr0 hr1 l r p q)

end Idealize.ShloMosaic.MatmulRows

end
-- ==== Proof.IPayAt.lean ====
/-
  The kernel body's arithmetic, read at one entry, on the extended reals.

  The body forms one [80, 10112] array: the product of the packed weights Wp [80, 256] with the features X [10112, 256],
  contracting both operands' second axes into a zero accumulator, plus the packed bias Bp [1, 80] transposed to a
  column and spread along the 10112 positions.  At row ρ and position j this is
      (sum over k of Wp(ρ, k) * X(j, k)) + Bp(0, ρ).
  The three stored payloads are its row blocks at rows 0..17, 24..65 and 72..77, so each reads the same expression
  at row r, 24 + r and 72 + r.
-/
import proofs.«179534_g59124519797212_fold_wed_c4_776_33_alg».proof.Proof.Gen.KernelIdeal.Skeleton
import proofs.«179534_g59124519797212_fold_wed_c4_776_33_alg».proof.Proof.LibMatmulRows
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayAt

open Cert.KernelIdeal Cert.KernelIdeal.Gen Idealize.ShloMosaic Idealize.ShloMosaic.ValueIdx

variable [Cert.KernelIdeal.Facts]

/-! ## Where the product's two operand indices sit

The left operand's row is the result's row and the right operand's row is the result's column; both operands'
second coordinate is the contraction position. -/

theorem lhs0 (i : S80x10112.Idx) (c : dot_S80x256_S10112x256_S80x10112_1_1_0_0_n_n.contr.Idx) :
    (dot_S80x256_S10112x256_S80x10112_1_1_0_0_n_n.lhsIdx i c (0 : Fin 2)).val = (i (0 : Fin 2)).val := by
  unfold DotDims.lhsIdx
  rw [dif_neg (show ¬(0 : Fin S80x256.rank) ∈ dot_S80x256_S10112x256_S80x10112_1_1_0_0_n_n.lhsBatch by decide),
    dif_pos (show (0 : Fin S80x256.rank) ∈ dot_S80x256_S10112x256_S80x10112_1_1_0_0_n_n.lhsNonContracting by decide)]
  rfl

theorem lhs1 (i : S80x10112.Idx) (c : dot_S80x256_S10112x256_S80x10112_1_1_0_0_n_n.contr.Idx) :
    (dot_S80x256_S10112x256_S80x10112_1_1_0_0_n_n.lhsIdx i c (1 : Fin 2)).val = (c ⟨0, by decide⟩).val :=
  dot_S80x256_S10112x256_S80x10112_1_1_0_0_n_n.lhsIdx_val_of_single rfl i c

theorem rhs0 (i : S80x10112.Idx) (c : dot_S80x256_S10112x256_S80x10112_1_1_0_0_n_n.contr.Idx) :
    (dot_S80x256_S10112x256_S80x10112_1_1_0_0_n_n.rhsIdx i c (0 : Fin 2)).val = (i (1 : Fin 2)).val := by
  unfold DotDims.rhsIdx
  rw [dif_neg (show ¬(0 : Fin S10112x256.rank) ∈ dot_S80x256_S10112x256_S80x10112_1_1_0_0_n_n.rhsBatch by decide),
    dif_pos (show (0 : Fin S10112x256.rank) ∈ dot_S80x256_S10112x256_S80x10112_1_1_0_0_n_n.rhsNonContracting by decide)]
  rfl

theorem rhs1 (i : S80x10112.Idx) (c : dot_S80x256_S10112x256_S80x10112_1_1_0_0_n_n.contr.Idx) :
    (dot_S80x256_S10112x256_S80x10112_1_1_0_0_n_n.rhsIdx i c (1 : Fin 2)).val = (c ⟨0, by decide⟩).val :=
  dot_S80x256_S10112x256_S80x10112_1_1_0_0_n_n.rhsIdx_val_of_single rfl i c

/-! ## One column spread over many -/

/-- An `[a, 1]` array broadcast to `[a, b]` reads, at `(p, c)`, the operand's one column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The whole [80, 10112] array at an entry -/

/-- Row `ρ`, position `j` of the body's array: row `ρ` of the weights against row `j` of the features, plus the
    bias at `ρ`. -/
theorem pay3_at (Wp : Vec Ideal S80x256 .f32) (X : Vec Ideal S10112x256 .f32) (Bp : Vec Ideal S1x80 .f32)
    (ρ : Fin 80) (j : Fin 10112) :
    k0_pay3 (F := Ideal) Wp X Bp (ix2 ρ j)
      = (∑ k : Fin 256, Wp (ix2 ρ k) * X (ix2 j k)) + Bp (ix2 (0 : Fin 1) ρ) := by
  unfold k0_pay3
  refine (addf_apply _ _ _).trans ?_
  refine congrArg₂ (· + ·) ?_ ?_
  · exact MatmulRows.matmul_zero_rows dot_S80x256_S10112x256_S80x10112_1_1_0_0_n_n rfl rfl lhs0 lhs1 rhs0 rhs1 none Wp X ρ j
  · refine (broadcastTo_a1_ab_apply _ _ ρ j).trans ?_
    exact transpose_ix2_apply Bp _ ρ (0 : Fin 1)

/-! ## The three stored row blocks -/

/-- Rows 0..17: entry `(r, j)` of the first block is entry `(r, j)` of the array. -/
theorem pay4_at (Wp : Vec Ideal S80x256 .f32) (X : Vec Ideal S10112x256 .f32) (Bp : Vec Ideal S1x80 .f32)
    (r : Fin 18) (j : Fin 10112) :
    k0_pay4 (F := Ideal) Wp X Bp (ix2 r j)
      = (∑ k : Fin 256, Wp (ix2 (⟨r.val, by omega⟩ : Fin 80) k) * X (ix2 j k))
        + Bp (ix2 (0 : Fin 1) (⟨r.val, by omega⟩ : Fin 80)) := by
  unfold k0_pay4
  exact (slice2_axis0_apply _ _ _ r j (⟨r.val, by omega⟩ : Fin 80) (Nat.zero_add _).symm).trans
    (pay3_at Wp X Bp _ j)

/-- Rows 24..65: entry `(r, j)` of the second block is entry `(24 + r, j)` of the array. -/
theorem pay5_at (Wp : Vec Ideal S80x256 .f32) (X : Vec Ideal S10112x256 .f32) (Bp : Vec Ideal S1x80 .f32)
    (r : Fin 42) (j : Fin 10112) :
    k0_pay5 (F := Ideal) Wp X Bp (ix2 r j)
      = (∑ k : Fin 256, Wp (ix2 (⟨24 + r.val, by omega⟩ : Fin 80) k) * X (ix2 j k))
        + Bp (ix2 (0 : Fin 1) (⟨24 + r.val, by omega⟩ : Fin 80)) := by
  unfold k0_pay5
  exact (slice2_axis0_apply _ _ _ r j (⟨24 + r.val, by omega⟩ : Fin 80) rfl).trans
    (pay3_at Wp X Bp _ j)

/-- Rows 72..77: entry `(r, j)` of the third block is entry `(72 + r, j)` of the array. -/
theorem pay6_at (Wp : Vec Ideal S80x256 .f32) (X : Vec Ideal S10112x256 .f32) (Bp : Vec Ideal S1x80 .f32)
    (r : Fin 6) (j : Fin 10112) :
    k0_pay6 (F := Ideal) Wp X Bp (ix2 r j)
      = (∑ k : Fin 256, Wp (ix2 (⟨72 + r.val, by omega⟩ : Fin 80) k) * X (ix2 j k))
        + Bp (ix2 (0 : Fin 1) (⟨72 + r.val, by omega⟩ : Fin 80)) := by
  unfold k0_pay6
  exact (slice2_axis0_apply _ _ _ r j (⟨72 + r.val, by omega⟩ : Fin 80) rfl).trans
    (pay3_at Wp X Bp _ j)

end Cert.KernelIdeal.PayAt

end
-- ==== Proof.ILocal.lean ====
/-
  Why the padding rows of x's clipped block do not reach the part of an output block that is written back.  The
  second block of x overhangs the array by 224 rows, which the fetch fills with words nothing names; the fused
  product's column j is the product of the weight scratch with ROW j of the block alone, and the write-back of an
  output block moves exactly the columns whose rows of x lie inside the array.  So on the part a write-back moves,
  an output's payload is the same whatever fills the block past the array's end.
-/
import proofs.«179534_g59124519797212_fold_wed_c4_776_33_alg».proof.Proof.IPayAt
import proofs.«179534_g59124519797212_fold_wed_c4_776_33_alg».proof.Proof.Gen.KernelIdeal.Frame

set_option maxRecDepth 16384

noncomputable section

namespace Cert.KernelIdeal.Local

open Cert.KernelIdeal Cert.KernelIdeal.Gen Cert.KernelIdeal.PayAt
open Idealize.ShloMosaic Idealize.ShloMosaic.ValueIdx Idealize.ShloMosaic.Pipeline

/-- What the transfers move at each point: all 256 features of a row of x, and as many rows of x as columns of
    each output. -/
theorem xsize_facts : ∀ t : Fin grid0.N,
    win0_0.xsize (grid0.coords t) 1 = 256 ∧ win0_0.xsize (grid0.coords t) 0 = win0_7.xsize (grid0.coords t) 1
      ∧ win0_8.xsize (grid0.coords t) 1 = win0_7.xsize (grid0.coords t) 1
      ∧ win0_9.xsize (grid0.coords t) 1 = win0_7.xsize (grid0.coords t) 1 := by decide +kernel

/-- A row of x's block that the fetch moves reads the array's row, whatever fills the block elsewhere. -/
theorem fill0_congr (t : Fin grid0.N) (d d' : Vec Ideal S10112x256 .f32) (g : (win0_0.xblock (grid0.coords t)).Idx → EReal)
    (p : Fin 10112) (k : Fin 256) (hp : p.val < win0_7.xsize (grid0.coords t) 1) :
    win0_0.fill (grid0.coords t) d g (ix2 p k) = win0_0.fill (grid0.coords t) d' g (ix2 p k) := by
  have hm : win0_0.moved (grid0.coords t) (ix2 p k) = true := (win0_0.moved_iff _ _).mpr (fun a => by
    match a with
    | ⟨0, _⟩ => show p.val < win0_0.xsize (grid0.coords t) 0; rw [(xsize_facts t).2.1]; exact hp
    | ⟨1, _⟩ => show k.val < win0_0.xsize (grid0.coords t) 1; rw [(xsize_facts t).1]; exact k.isLt)
  unfold Window.fill; rw [dif_pos hm, dif_pos hm]

theorem cut7_congr (t : Fin grid0.N) (W : Vec Ideal S80x256 .f32) (B : Vec Ideal S1x80 .f32) (d d' : Vec Ideal S10112x256 .f32)
    (g : (win0_0.xblock (grid0.coords t)).Idx → EReal) :
    win0_7.cut (grid0.coords t) (k0_pay4 (F := Ideal) W (win0_0.fill (grid0.coords t) d g) B)
      = win0_7.cut (grid0.coords t) (k0_pay4 (F := Ideal) W (win0_0.fill (grid0.coords t) d' g) B) := by
  funext j
  have hj1 : (j 1).val < win0_7.xsize (grid0.coords t) 1 := (j 1).isLt
  have hj0 : (j 0).val < 18 := lt_of_lt_of_le (j 0).isLt (win0_7.xsize_le (grid0.coords t) 0)
  have hcol : (j 1).val < 10112 := lt_of_lt_of_le (j 1).isLt (win0_7.xsize_le (grid0.coords t) 1)
  have e : win0_7.xinj (grid0.coords t) j = ix2 (⟨(j 0).val, hj0⟩ : Fin 18) (⟨(j 1).val, hcol⟩ : Fin 10112) :=
    funext fun a => Fin.ext (by match a with | ⟨0, _⟩ => rfl | ⟨1, _⟩ => rfl)
  show k0_pay4 (F := Ideal) W (win0_0.fill (grid0.coords t) d g) B (win0_7.xinj (grid0.coords t) j)
    = k0_pay4 (F := Ideal) W (win0_0.fill (grid0.coords t) d' g) B (win0_7.xinj (grid0.coords t) j)
  rw [e, pay4_at, pay4_at]
  refine congrArg (· + _) (Finset.sum_congr rfl fun k _ => ?_)
  rw [fill0_congr t d d' g _ k hj1]

theorem cut8_congr (t : Fin grid0.N) (W : Vec Ideal S80x256 .f32) (B : Vec Ideal S1x80 .f32) (d d' : Vec Ideal S10112x256 .f32)
    (g : (win0_0.xblock (grid0.coords t)).Idx → EReal) :
    win0_8.cut (grid0.coords t) (k0_pay5 (F := Ideal) W (win0_0.fill (grid0.coords t) d g) B)
      = win0_8.cut (grid0.coords t) (k0_pay5 (F := Ideal) W (win0_0.fill (grid0.coords t) d' g) B) := by
  funext j
  have hj1 : (j 1).val < win0_7.xsize (grid0.coords t) 1 := lt_of_lt_of_eq (j 1).isLt (xsize_facts t).2.2.1
  have hj0 : (j 0).val < 42 := lt_of_lt_of_le (j 0).isLt (win0_8.xsize_le (grid0.coords t) 0)
  have hcol : (j 1).val < 10112 := lt_of_lt_of_le (j 1).isLt (win0_8.xsize_le (grid0.coords t) 1)
  have e : win0_8.xinj (grid0.coords t) j = ix2 (⟨(j 0).val, hj0⟩ : Fin 42) (⟨(j 1).val, hcol⟩ : Fin 10112) :=
    funext fun a => Fin.ext (by match a with | ⟨0, _⟩ => rfl | ⟨1, _⟩ => rfl)
  show k0_pay5 (F := Ideal) W (win0_0.fill (grid0.coords t) d g) B (win0_8.xinj (grid0.coords t) j)
    = k0_pay5 (F := Ideal) W (win0_0.fill (grid0.coords t) d' g) B (win0_8.xinj (grid0.coords t) j)
  rw [e, pay5_at, pay5_at]
  refine congrArg (· + _) (Finset.sum_congr rfl fun k _ => ?_)
  rw [fill0_congr t d d' g _ k hj1]

theorem cut9_congr (t : Fin grid0.N) (W : Vec Ideal S80x256 .f32) (B : Vec Ideal S1x80 .f32) (d d' : Vec Ideal S10112x256 .f32)
    (g : (win0_0.xblock (grid0.coords t)).Idx → EReal) :
    win0_9.cut (grid0.coords t) (k0_pay6 (F := Ideal) W (win0_0.fill (grid0.coords t) d g) B)
      = win0_9.cut (grid0.coords t) (k0_pay6 (F := Ideal) W (win0_0.fill (grid0.coords t) d' g) B) := by
  funext j
  have hj1 : (j 1).val < win0_7.xsize (grid0.coords t) 1 := lt_of_lt_of_eq (j 1).isLt (xsize_facts t).2.2.2
  have hj0 : (j 0).val < 6 := lt_of_lt_of_le (j 0).isLt (win0_9.xsize_le (grid0.coords t) 0)
  have hcol : (j 1).val < 10112 := lt_of_lt_of_le (j 1).isLt (win0_9.xsize_le (grid0.coords t) 1)
  have e : win0_9.xinj (grid0.coords t) j = ix2 (⟨(j 0).val, hj0⟩ : Fin 6) (⟨(j 1).val, hcol⟩ : Fin 10112) :=
    funext fun a => Fin.ext (by match a with | ⟨0, _⟩ => rfl | ⟨1, _⟩ => rfl)
  show k0_pay6 (F := Ideal) W (win0_0.fill (grid0.coords t) d g) B (win0_9.xinj (grid0.coords t) j)
    = k0_pay6 (F := Ideal) W (win0_0.fill (grid0.coords t) d' g) B (win0_9.xinj (grid0.coords t) j)
  rw [e, pay6_at, pay6_at]
  refine congrArg (· + _) (Finset.sum_congr rfl fun k _ => ?_)
  rw [fill0_congr t d d' g _ k hj1]

end Cert.KernelIdeal.Local

end
-- ==== Proof.IPackAt.lean ====
/-
  The packed weight and bias buffers read at an index.  Each buffer is the canonical contents of four stores; the three
  newest are row blocks (weights) or column blocks (biases) at offsets 0, 24 and 72 that do not meet, so an index in one
  block misses the newer blocks on the block axis and lies in its own block at its position minus the offset.  There
  the payload is the loaded weight block through identity shape casts, or the loaded bias vector cast from [n] to
  [1, n], which at (0, r) is the vector at r.
-/
import proofs.«179534_g59124519797212_fold_wed_c4_776_33_alg».proof.Proof.IPack
import Idealize.ShloMosaic.Lib.WritesUnit
import Idealize.ShloMosaic.Lib.ValueIdx
import Idealize.ShloMosaic.Lib.Pipeline.Value
import Idealize.ShloMosaic.Lib.ValueLayout

noncomputable section

namespace Cert.KernelIdeal.Pack

open Cert.KernelIdeal Cert.KernelIdeal.Gen Idealize.ShloMosaic Idealize.ShloMosaic.ValueIdx

variable {F : FTy → Type} [FloatOps F]

/-- The view the canon of the weight stores is read through (any view of the shape reads the same). -/
private abbrev vW : View sig .tc .vmem S80x256 .f32 :=
  (Memref.whole cc0_scratch0 : Memref sig .tc .vmem S80x256 .f32).view

/-- The view the canon of the bias stores is read through. -/
private abbrev vB : View sig .tc .vmem S1x80 .f32 :=
  (Memref.whole cc0_scratch1 : Memref sig .tc .vmem S1x80 .f32).view

/-- Rows 0..17 of the packed weights are the first weight block. -/
theorem packW_cls (x1 : Vec F S18x256 .f32) (x2 : Vec F S42x256 .f32) (x3 : Vec F S6x256 .f32) (r : Fin 18) (k : Fin 256) :
    packW x1 x2 x3 (ix2 (⟨r.val, by omega⟩ : Fin 80) k) = x1 (ix2 r k) := by
  unfold packW piecesW
  refine (congrFun (View.read_writes_junk_eq_canon (vW) _).symm _).trans ?_
  refine (View.read_writes_cons_unit_of_not_mem (s := S80x256) (Val := Elt F) (e := .f32) _ _
    Facts₀.inb_S80x256_S6x256_72_0 (k0_pay10 x3) _ (ix2 (⟨r.val, by omega⟩ : Fin 80) k) (off' := ![72, 0]) rfl
    (0 : Fin 2) (Or.inl (by show r.val < 72; omega))).trans ?_
  refine (View.read_writes_cons_unit_of_not_mem (s := S80x256) (Val := Elt F) (e := .f32) _ _
    Facts₀.inb_S80x256_S42x256_24_0 (k0_pay9 x2) _ (ix2 (⟨r.val, by omega⟩ : Fin 80) k) (off' := ![24, 0]) rfl
    (0 : Fin 2) (Or.inl (by show r.val < 24; omega))).trans ?_
  refine (View.read_writes_cons_unit_of_mem (s := S80x256) (Val := Elt F) (e := .f32) _ _
    Facts₀.inb_S80x256_S18x256_0_0 (k0_pay8 x1) _ (ix2 (⟨r.val, by omega⟩ : Fin 80) k) (ix2 r k) (off' := ![0, 0]) rfl
    (Fin.forall_fin_two.mpr ⟨(Nat.zero_add _).symm, (Nat.zero_add _).symm⟩)).trans ?_
  exact congrFun (((shapeCast_self _ _).trans (shapeCast_self _ _)) : k0_pay8 x1 = x1) _

/-- Rows 24..65 of the packed weights are the second weight block. -/
theorem packW_box (x1 : Vec F S18x256 .f32) (x2 : Vec F S42x256 .f32) (x3 : Vec F S6x256 .f32) (r : Fin 42) (k : Fin 256) :
    packW x1 x2 x3 (ix2 (⟨24 + r.val, by omega⟩ : Fin 80) k) = x2 (ix2 r k) := by
  unfold packW piecesW
  refine (congrFun (View.read_writes_junk_eq_canon (vW) _).symm _).trans ?_
  refine (View.read_writes_cons_unit_of_not_mem (s := S80x256) (Val := Elt F) (e := .f32) _ _
    Facts₀.inb_S80x256_S6x256_72_0 (k0_pay10 x3) _ (ix2 (⟨24 + r.val, by omega⟩ : Fin 80) k) (off' := ![72, 0]) rfl
    (0 : Fin 2) (Or.inl (by show 24 + r.val < 72; omega))).trans ?_
  refine (View.read_writes_cons_unit_of_mem (s := S80x256) (Val := Elt F) (e := .f32) _ _
    Facts₀.inb_S80x256_S42x256_24_0 (k0_pay9 x2) _ (ix2 (⟨24 + r.val, by omega⟩ : Fin 80) k) (ix2 r k) (off' := ![24, 0]) rfl
    (Fin.forall_fin_two.mpr ⟨rfl, (Nat.zero_add _).symm⟩)).trans ?_
  exact congrFun (((shapeCast_self _ _).trans (shapeCast_self _ _)) : k0_pay9 x2 = x2) _

/-- Rows 72..77 of the packed weights are the third weight block. -/
theorem packW_obj (x1 : Vec F S18x256 .f32) (x2 : Vec F S42x256 .f32) (x3 : Vec F S6x256 .f32) (r : Fin 6) (k : Fin 256) :
    packW x1 x2 x3 (ix2 (⟨72 + r.val, by omega⟩ : Fin 80) k) = x3 (ix2 r k) := by
  unfold packW piecesW
  refine (congrFun (View.read_writes_junk_eq_canon (vW) _).symm _).trans ?_
  refine (View.read_writes_cons_unit_of_mem (s := S80x256) (Val := Elt F) (e := .f32) _ _
    Facts₀.inb_S80x256_S6x256_72_0 (k0_pay10 x3) _ (ix2 (⟨72 + r.val, by omega⟩ : Fin 80) k) (ix2 r k) (off' := ![72, 0]) rfl
    (Fin.forall_fin_two.mpr ⟨rfl, (Nat.zero_add _).symm⟩)).trans ?_
  exact congrFun (((shapeCast_self _ _).trans (shapeCast_self _ _)) : k0_pay10 x3 = x3) _

/-- Columns 0..17 of the packed bias row are the first bias vector. -/
theorem packB_cls (x4 : Vec F S18 .f32) (x5 : Vec F S42 .f32) (x6 : Vec F S6 .f32) (r : Fin 18) :
    packB x4 x5 x6 (ix2 (0 : Fin 1) (⟨r.val, by omega⟩ : Fin 80)) = x4 (ix1 r) := by
  unfold packB piecesB
  refine (congrFun (View.read_writes_junk_eq_canon (vB) _).symm _).trans ?_
  refine (View.read_writes_cons_unit_of_not_mem (s := S1x80) (Val := Elt F) (e := .f32) _ _
    Facts₀.inb_S1x80_S1x6_0_72 (k0_pay2 x6) _ (ix2 (0 : Fin 1) (⟨r.val, by omega⟩ : Fin 80)) (off' := ![0, 72]) rfl
    (1 : Fin 2) (Or.inl (by show r.val < 72; omega))).trans ?_
  refine (View.read_writes_cons_unit_of_not_mem (s := S1x80) (Val := Elt F) (e := .f32) _ _
    Facts₀.inb_S1x80_S1x42_0_24 (k0_pay1 (k0_pay13 x5)) _ (ix2 (0 : Fin 1) (⟨r.val, by omega⟩ : Fin 80)) (off' := ![0, 24]) rfl
    (1 : Fin 2) (Or.inl (by show r.val < 24; omega))).trans ?_
  refine (View.read_writes_cons_unit_of_mem (s := S1x80) (Val := Elt F) (e := .f32) _ _
    Facts₀.inb_S1x80_S1x18_0_0 (k0_pay12 x4) _ (ix2 (0 : Fin 1) (⟨r.val, by omega⟩ : Fin 80)) (ix2 (0 : Fin 1) r)
    (off' := ![0, 0]) rfl
    (Fin.forall_fin_two.mpr ⟨rfl, (Nat.zero_add _).symm⟩)).trans ?_
  refine (congrFun (shapeCast_self _ _ : k0_pay12 x4 = shapeCast S1x18 x4 Facts₀.shapeCasts_S18_S1x18) _).trans ?_
  exact shapeCast_a_1a_apply x4 _ (0 : Fin 1) r

/-- Columns 24..65 of the packed bias row are the second bias vector. -/
theorem packB_box (x4 : Vec F S18 .f32) (x5 : Vec F S42 .f32) (x6 : Vec F S6 .f32) (r : Fin 42) :
    packB x4 x5 x6 (ix2 (0 : Fin 1) (⟨24 + r.val, by omega⟩ : Fin 80)) = x5 (ix1 r) := by
  unfold packB piecesB
  refine (congrFun (View.read_writes_junk_eq_canon (vB) _).symm _).trans ?_
  refine (View.read_writes_cons_unit_of_not_mem (s := S1x80) (Val := Elt F) (e := .f32) _ _
    Facts₀.inb_S1x80_S1x6_0_72 (k0_pay2 x6) _ (ix2 (0 : Fin 1) (⟨24 + r.val, by omega⟩ : Fin 80)) (off' := ![0, 72]) rfl
    (1 : Fin 2) (Or.inl (by show 24 + r.val < 72; omega))).trans ?_
  refine (View.read_writes_cons_unit_of_mem (s := S1x80) (Val := Elt F) (e := .f32) _ _
    Facts₀.inb_S1x80_S1x42_0_24 (k0_pay1 (k0_pay13 x5)) _ (ix2 (0 : Fin 1) (⟨24 + r.val, by omega⟩ : Fin 80))
    (ix2 (0 : Fin 1) r) (off' := ![0, 24]) rfl
    (Fin.forall_fin_two.mpr ⟨rfl, rfl⟩)).trans ?_
  refine (congrFun (shapeCast_self _ _ : k0_pay1 (k0_pay13 x5) = shapeCast S1x42 x5 Facts₀.shapeCasts_S42_S1x42) _).trans ?_
  exact shapeCast_a_1a_apply x5 _ (0 : Fin 1) r

/-- Columns 72..77 of the packed bias row are the third bias vector. -/
theorem packB_obj (x4 : Vec F S18 .f32) (x5 : Vec F S42 .f32) (x6 : Vec F S6 .f32) (r : Fin 6) :
    packB x4 x5 x6 (ix2 (0 : Fin 1) (⟨72 + r.val, by omega⟩ : Fin 80)) = x6 (ix1 r) := by
  unfold packB piecesB
  refine (congrFun (View.read_writes_junk_eq_canon (vB) _).symm _).trans ?_
  refine (View.read_writes_cons_unit_of_mem (s := S1x80) (Val := Elt F) (e := .f32) _ _
    Facts₀.inb_S1x80_S1x6_0_72 (k0_pay2 x6) _ (ix2 (0 : Fin 1) (⟨72 + r.val, by omega⟩ : Fin 80))
    (ix2 (0 : Fin 1) r) (off' := ![0, 72]) rfl
    (Fin.forall_fin_two.mpr ⟨rfl, rfl⟩)).trans ?_
  refine (congrFun (shapeCast_self _ _ : k0_pay2 x6 = shapeCast S1x6 x6 Facts₀.shapeCasts_S6_S1x6) _).trans ?_
  exact shapeCast_a_1a_apply x6 _ (0 : Fin 1) r

end Cert.KernelIdeal.Pack

end
-- ==== Proof.IBlocks.lean ====
/-
  The blocks the region finds, read at an index as entries of the argument arrays.  Before the region the host
  transposes the three weight arguments; windows 1, 2, 3 stage the whole of each transposed array, so their block at
  any grid point, read at (r, k), is the argument at (k, r).  Windows 4, 5, 6 stage the whole of each bias argument.
  Window 0 stages blocks of 10112 rows of the first argument, the block at grid point t starting at row t * 10112; the
  second block overhangs the array and the transfer moves only the rows inside it, so a staging buffer filled with the
  block holds, at a row p with t * 10112 + p < 20000, the argument's row t * 10112 + p.
-/
import proofs.«179534_g59124519797212_fold_wed_c4_776_33_alg».proof.Proof.Gen.KernelIdeal.Frame
import Idealize.ShloMosaic.Lib.ValueIdx
import Idealize.ShloMosaic.Lib.Pipeline.Value
import Idealize.ShloMosaic.Lib.ValueLayout
import Idealize.ShloMosaic.Lib.StableHlo.Run

noncomputable section

namespace Cert.KernelIdeal.Blocks

open Cert.KernelIdeal Cert.KernelIdeal.Gen Idealize.ShloMosaic Idealize.ShloMosaic.TcCoe Idealize.ShloMosaic.ValueIdx
open Idealize.SL.Sem

variable {F : FTy → Type} [FloatOps F] (m : (ℓ : Loc nD τ sig) → Buf (Elt F) ℓ)

/-- The printed index maps, decided over the grid: the whole-array windows sit at block index 0 on every axis. -/
theorem idx_facts : ∀ t : Fin grid0.N,
    (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ win0_4.index t (0 : Fin 1) = 0 ∧ win0_5.index t (0 : Fin 1) = 0 ∧ win0_6.index t (0 : Fin 1) = 0 :=
  (by decide +kernel : ∀ t : Fin grid0.N, _)

/-- Window 0, decided over the grid: block index t on the row axis and 0 on the column axis; the transfer moves every
    column and the rows of the block that lie inside the array. -/
theorem x_facts : ∀ t : Fin grid0.N,
    win0_0.index t (0 : Fin 2) = t.val ∧ win0_0.index t (1 : Fin 2) = 0
    ∧ win0_0.xsize (grid0.coords t) (1 : Fin 2) = 256
    ∧ t.val * 10112 + win0_0.xsize (grid0.coords t) (0 : Fin 2) = min 20000 (t.val * 10112 + 10112) :=
  (by decide +kernel : ∀ t : Fin grid0.N, _)

/-- The transposed weight the host writes before the region, as the region finds it. -/
theorem V_main_v0 (c : Dev nD) : (V m c main_v0 : S18x256.Idx → Elt F .f32)
    = transpose S18x256 [1, 0] (m ((c : Thread nD τ).loc main_arg1)) Facts₀.transposes_S256x18_S18x256_1_0 := by
  show StableHlo.after hostOps0 (fun b => m (c, b)) (Proc.devRef .tc main_v0) = _
  after_results

/-- Window 1's block is its whole array at every point: entry (r, k) is the argument's entry (k, r). -/
theorem iblk1_at (c : Dev nD) (t : Fin cfg0.N) (r : Fin 18) (k : Fin 256) :
    iblk m c 1 t (ix2 r k) = m ((c : Thread nD τ).loc main_arg1) (ix2 k r) := by
  show V m c main_v0 (((cfg0.win 1).blk t).view.emb (ix2 r k)) = _
  obtain ⟨e0, e1⟩ := (idx_facts t).1
  have hidx : ((cfg0.win 1).blk t).view.emb (ix2 r k) = (ix2 r k : S18x256.Idx) := by
    funext a; apply Fin.ext
    match a with
    | ⟨0, _⟩ => show win0_1.index t (0 : Fin 2) * 18 + 1 * r.val = r.val; omega
    | ⟨1, _⟩ => show win0_1.index t (1 : Fin 2) * 256 + 1 * k.val = k.val; omega
  refine (congrArg (V m c main_v0 : S18x256.Idx → Elt F .f32) hidx).trans ?_
  rw [V_main_v0]
  exact transpose_ix2_apply _ _ r k

/-- The transposed weight the host writes before the region, as the region finds it. -/
theorem V_main_v1 (c : Dev nD) : (V m c main_v1 : S42x256.Idx → Elt F .f32)
    = transpose S42x256 [1, 0] (m ((c : Thread nD τ).loc main_arg3)) Facts₀.transposes_S256x42_S42x256_1_0 := by
  show StableHlo.after hostOps0 (fun b => m (c, b)) (Proc.devRef .tc main_v1) = _
  after_results

/-- Window 2's block is its whole array at every point: entry (r, k) is the argument's entry (k, r). -/
theorem iblk2_at (c : Dev nD) (t : Fin cfg0.N) (r : Fin 42) (k : Fin 256) :
    iblk m c 2 t (ix2 r k) = m ((c : Thread nD τ).loc main_arg3) (ix2 k r) := by
  show V m c main_v1 (((cfg0.win 2).blk t).view.emb (ix2 r k)) = _
  obtain ⟨e0, e1⟩ := (idx_facts t).2.1
  have hidx : ((cfg0.win 2).blk t).view.emb (ix2 r k) = (ix2 r k : S42x256.Idx) := by
    funext a; apply Fin.ext
    match a with
    | ⟨0, _⟩ => show win0_2.index t (0 : Fin 2) * 42 + 1 * r.val = r.val; omega
    | ⟨1, _⟩ => show win0_2.index t (1 : Fin 2) * 256 + 1 * k.val = k.val; omega
  refine (congrArg (V m c main_v1 : S42x256.Idx → Elt F .f32) hidx).trans ?_
  rw [V_main_v1]
  exact transpose_ix2_apply _ _ r k

/-- The transposed weight the host writes before the region, as the region finds it. -/
theorem V_main_v2 (c : Dev nD) : (V m c main_v2 : S6x256.Idx → Elt F .f32)
    = transpose S6x256 [1, 0] (m ((c : Thread nD τ).loc main_arg5)) Facts₀.transposes_S256x6_S6x256_1_0 := by
  show StableHlo.after hostOps0 (fun b => m (c, b)) (Proc.devRef .tc main_v2) = _
  after_results

/-- Window 3's block is its whole array at every point: entry (r, k) is the argument's entry (k, r). -/
theorem iblk3_at (c : Dev nD) (t : Fin cfg0.N) (r : Fin 6) (k : Fin 256) :
    iblk m c 3 t (ix2 r k) = m ((c : Thread nD τ).loc main_arg5) (ix2 k r) := by
  show V m c main_v2 (((cfg0.win 3).blk t).view.emb (ix2 r k)) = _
  obtain ⟨e0, e1⟩ := (idx_facts t).2.2.1
  have hidx : ((cfg0.win 3).blk t).view.emb (ix2 r k) = (ix2 r k : S6x256.Idx) := by
    funext a; apply Fin.ext
    match a with
    | ⟨0, _⟩ => show win0_3.index t (0 : Fin 2) * 6 + 1 * r.val = r.val; omega
    | ⟨1, _⟩ => show win0_3.index t (1 : Fin 2) * 256 + 1 * k.val = k.val; omega
  refine (congrArg (V m c main_v2 : S6x256.Idx → Elt F .f32) hidx).trans ?_
  rw [V_main_v2]
  exact transpose_ix2_apply _ _ r k

/-- Window 4's block is its whole array at every point: entry r is the argument's entry r. -/
theorem iblk4_at (c : Dev nD) (t : Fin cfg0.N) (r : Fin 18) :
    iblk m c 4 t (ix1 r) = m ((c : Thread nD τ).loc main_arg2) (ix1 r) := by
  show V m c main_arg2 (((cfg0.win 4).blk t).view.emb (ix1 r)) = _
  have e0 := (idx_facts t).2.2.2.1
  have hidx : ((cfg0.win 4).blk t).view.emb (ix1 r) = (ix1 r : S18.Idx) := by
    funext a; apply Fin.ext
    match a with
    | ⟨0, _⟩ => show win0_4.index t (0 : Fin 1) * 18 + 1 * r.val = r.val; omega
  refine (congrArg (V m c main_arg2 : S18.Idx → Elt F .f32) hidx).trans ?_
  rw [V_main_arg2]

/-- Window 5's block is its whole array at every point: entry r is the argument's entry r. -/
theorem iblk5_at (c : Dev nD) (t : Fin cfg0.N) (r : Fin 42) :
    iblk m c 5 t (ix1 r) = m ((c : Thread nD τ).loc main_arg4) (ix1 r) := by
  show V m c main_arg4 (((cfg0.win 5).blk t).view.emb (ix1 r)) = _
  have e0 := (idx_facts t).2.2.2.2.1
  have hidx : ((cfg0.win 5).blk t).view.emb (ix1 r) = (ix1 r : S42.Idx) := by
    funext a; apply Fin.ext
    match a with
    | ⟨0, _⟩ => show win0_5.index t (0 : Fin 1) * 42 + 1 * r.val = r.val; omega
  refine (congrArg (V m c main_arg4 : S42.Idx → Elt F .f32) hidx).trans ?_
  rw [V_main_arg4]

/-- Window 6's block is its whole array at every point: entry r is the argument's entry r. -/
theorem iblk6_at (c : Dev nD) (t : Fin cfg0.N) (r : Fin 6) :
    iblk m c 6 t (ix1 r) = m ((c : Thread nD τ).loc main_arg6) (ix1 r) := by
  show V m c main_arg6 (((cfg0.win 6).blk t).view.emb (ix1 r)) = _
  have e0 := (idx_facts t).2.2.2.2.2
  have hidx : ((cfg0.win 6).blk t).view.emb (ix1 r) = (ix1 r : S6.Idx) := by
    funext a; apply Fin.ext
    match a with
    | ⟨0, _⟩ => show win0_6.index t (0 : Fin 1) * 6 + 1 * r.val = r.val; omega
  refine (congrArg (V m c main_arg6 : S6.Idx → Elt F .f32) hidx).trans ?_
  rw [V_main_arg6]

/-- A staging buffer of window 0 filled with the block at point t holds, at a row inside the array, the argument's row. -/
theorem xfill_at (c : Dev nD) (t : Fin cfg0.N) (d : Vec F S10112x256 .f32) (p : Fin 10112) (k : Fin 256)
    (hp : t.val * 10112 + p.val < 20000) :
    win0_0.fill (grid0.coords t) d (iblk m c 0 t) (ix2 p k)
      = m ((c : Thread nD τ).loc main_arg0) (ix2 (⟨t.val * 10112 + p.val, hp⟩ : Fin 20000) k) := by
  obtain ⟨i0, i1, x1, x0⟩ := x_facts t
  have hm : win0_0.moved (grid0.coords t) (ix2 p k) = true := (win0_0.moved_iff _ _).mpr (fun a => by
    match a with
    | ⟨0, _⟩ => show p.val < win0_0.xsize (grid0.coords t) (0 : Fin 2); omega
    | ⟨1, _⟩ => show k.val < win0_0.xsize (grid0.coords t) (1 : Fin 2); have := k.isLt; omega)
  unfold Pipeline.Window.fill
  rw [dif_pos hm]
  show V m c main_arg0 (((cfg0.win 0).blk t).view.emb _) = _
  rw [V_main_arg0]
  refine congrArg (m ((c : Thread nD τ).loc main_arg0)) (funext fun a => Fin.ext ?_)
  match a with
  | ⟨0, _⟩ => show win0_0.index t (0 : Fin 2) * 10112 + 1 * p.val = t.val * 10112 + p.val; rw [i0]; omega
  | ⟨1, _⟩ => show win0_0.index t (1 : Fin 2) * 256 + 1 * k.val = k.val; omega

end Cert.KernelIdeal.Blocks

end
-- ==== Proof.HeadSpec.lean ====
/-
  One linear head of the detection layer, as a function of the whole arrays: for the feature matrix x over
  20000 voxels and 256 features, a weight matrix W of 256 rows and n columns and a bias b of n entries,
  the prediction at voxel p and channel q is the sum over the features k of x(p,k) * W(k,q), plus b(q),
  on the extended reals.  Both programs are shown to end at this function of their arguments, once per head.
-/
import Idealize.ShloMosaic.PureOps.Ideal
import Idealize.ShloMosaic.Lib.ValueIdx

noncomputable section

namespace Cert.Heads

open Idealize.ShloMosaic Idealize.ShloMosaic.ValueIdx

/-- The head's prediction at voxel `p`, channel `q`. -/
def headAt {n : Nat} (x : (⟨2, ![20000, 256]⟩ : Shape).Idx → EReal) (W : (⟨2, ![256, n]⟩ : Shape).Idx → EReal)
    (b : (⟨1, ![n]⟩ : Shape).Idx → EReal) (p : Fin 20000) (q : Fin n) : EReal :=
  (∑ k : Fin 256, x (ix2 p k) * W (ix2 k q)) + b (ix1 q)

/-- The head as an array over voxels and channels. -/
def head {n : Nat} (x : (⟨2, ![20000, 256]⟩ : Shape).Idx → EReal) (W : (⟨2, ![256, n]⟩ : Shape).Idx → EReal)
    (b : (⟨1, ![n]⟩ : Shape).Idx → EReal) : (⟨2, ![20000, n]⟩ : Shape).Idx → EReal :=
  fun i => headAt x W b (i 0) (i 1)

theorem head_apply {n : Nat} (x : (⟨2, ![20000, 256]⟩ : Shape).Idx → EReal) (W : (⟨2, ![256, n]⟩ : Shape).Idx → EReal)
    (b : (⟨1, ![n]⟩ : Shape).Idx → EReal) (p : Fin 20000) (q : Fin n) : head x W b (ix2 p q) = headAt x W b p q := rfl

/-- The head with the channels first: what an output array of the kernel's pipeline holds before the final transpose. -/
def headT {n : Nat} (x : (⟨2, ![20000, 256]⟩ : Shape).Idx → EReal) (W : (⟨2, ![256, n]⟩ : Shape).Idx → EReal)
    (b : (⟨1, ![n]⟩ : Shape).Idx → EReal) : (⟨2, ![n, 20000]⟩ : Shape).Idx → EReal :=
  fun i => headAt x W b (i 1) (i 0)

theorem headT_apply {n : Nat} (x : (⟨2, ![20000, 256]⟩ : Shape).Idx → EReal) (W : (⟨2, ![256, n]⟩ : Shape).Idx → EReal)
    (b : (⟨1, ![n]⟩ : Shape).Idx → EReal) (q : Fin n) (p : Fin 20000) : headT x W b (ix2 q p) = headAt x W b p q := rfl

end Cert.Heads

end
-- ==== Proof.IFinal.lean ====
/-
  From blocks to the arrays: each output array of the pipeline ends holding the transposed head.

  Output window 7 walks the [18, 20000] array in two blocks of 10112 columns, the second cut at the array's end to
  9888.  What point t writes back at row r and column p of its block is row r of the fused product against row p of
  x's block: the sum over k of the packed weight (r, k) times x(t * 10112 + p, k), plus the packed bias at r.  The
  packed weights' rows 0..17 are the transposed first weight matrix and the packed biases' entries 0..17 the first
  bias, so this is the first head at voxel t * 10112 + p and channel r — the entry (r, t * 10112 + p) of the head
  with channels first.  Column t * 10112 + p lies inside the array, where x's block is the array's rows.  The two
  blocks cover the array, so it ends holding that function.  Windows 8 and 9 are the same with 42 and 6 rows, at
  rows 24.. and 72.. of the packed operands.
-/
import proofs.«179534_g59124519797212_fold_wed_c4_776_33_alg».proof.Proof.IData
import proofs.«179534_g59124519797212_fold_wed_c4_776_33_alg».proof.Proof.IPayAt
import proofs.«179534_g59124519797212_fold_wed_c4_776_33_alg».proof.Proof.IPackAt
import proofs.«179534_g59124519797212_fold_wed_c4_776_33_alg».proof.Proof.IBlocks
import proofs.«179534_g59124519797212_fold_wed_c4_776_33_alg».proof.Proof.HeadSpec
import Idealize.ShloMosaic.Lib.Pipeline.Value

set_option maxRecDepth 16384

noncomputable section

namespace Cert.KernelIdeal.Final

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Hand Cert.KernelIdeal.Pack Cert.KernelIdeal.PayAt Cert.KernelIdeal.Blocks Cert.Heads
open Idealize.ShloMosaic.ValueIdx

variable (m : (ℓ : Loc nD τ sig) → Buf (Elt Ideal) ℓ)

/-! ## Output window 7 -/

/-- The printed index map and cut, decided over the grid: one block of rows, the block of columns the point's; the
    second block of columns is cut to the 9888 inside the array. -/
theorem idx_facts7 : ∀ t : Fin cfg0.N, win0_7.index t (0 : Fin 2) = 0 ∧ win0_7.index t (1 : Fin 2) = t.val
    ∧ win0_7.xsize (grid0.coords t) (0 : Fin 2) = 18
    ∧ t.val * 10112 + win0_7.xsize (grid0.coords t) (1 : Fin 2) ≤ 20000
    ∧ (t.val = 1 → win0_7.xsize (grid0.coords t) (1 : Fin 2) = 9888)
    ∧ (t.val = 0 → win0_7.xsize (grid0.coords t) (1 : Fin 2) = 10112) :=
  (by decide +kernel : ∀ t : Fin grid0.N, _)

/-- Row `r`, column `p` of what the body leaves at point `t`, for a column inside the array: the first head at voxel
    `t * 10112 + p` and channel `r` (rows 0..17 of the packed operands). -/
theorem entry7 (c : Dev nD) (t : Fin cfg0.N) (r : Fin 18) (p : Fin 10112) (hp : t.val * 10112 + p.val < 20000) :
    k0_pay4 (F := Ideal) (wS m c) (xblk m c t zfill) (bS m c) (ix2 r p)
      = headAt (m ((c : Thread nD τ).loc main_arg0)) (m ((c : Thread nD τ).loc main_arg1)) (m ((c : Thread nD τ).loc main_arg2))
          (⟨t.val * 10112 + p.val, hp⟩ : Fin 20000) r := by
  refine (pay4_at _ _ _ r p).trans ?_
  unfold headAt wS bS xblk
  refine congrArg₂ (· + ·) (Finset.sum_congr rfl fun k _ => ?_) ?_
  · rw [packW_cls, iblk1_at]
    rw [xfill_at m c t zfill p k hp]
    exact mul_comm _ _
  · rw [packB_cls, iblk4_at]

/-- What point `t` writes back is its block of the first head with channels first. -/
theorem flushed7_eq (c : Dev nD) (t : Fin cfg0.N) :
    (dats m 0 c).flushed 7 t = ((cfg0.win 7).blk t).view.read (Elt Ideal) (headT (m ((c : Thread nD τ).loc main_arg0)) (m ((c : Thread nD τ).loc main_arg1)) (m ((c : Thread nD τ).loc main_arg2))) := by
  show (cfg0.win 7).cut (grid0.coords t) ((dats m 0 c).after 7 t) = _
  rw [after_7]
  obtain ⟨e0, e1, e2, e3, e4, e5⟩ := idx_facts7 t
  funext j
  have hj0 : (j 0).val < 18 := lt_of_lt_of_eq (j 0).isLt e2
  have hj1 : (j 1).val < win0_7.xsize (grid0.coords t) (1 : Fin 2) := (j 1).isLt
  have hx1 : win0_7.xsize (grid0.coords t) (1 : Fin 2) ≤ 10112 := win0_7.xsize_le _ _
  have hp : t.val * 10112 + (j 1).val < 20000 := by omega
  have hl : win0_7.xinj (grid0.coords t) j = ix2 (⟨(j 0).val, hj0⟩ : Fin 18) (⟨(j 1).val, by omega⟩ : Fin 10112) :=
    funext fun a => Fin.ext (by match a with | ⟨0, _⟩ => rfl | ⟨1, _⟩ => rfl)
  have h0 : (((cfg0.win 7).blk t).view.emb j) 0 = (⟨(j 0).val, hj0⟩ : Fin 18) := Fin.ext (by
    show win0_7.index t (0 : Fin 2) * 18 + 1 * (j 0).val = (j 0).val; omega)
  have h1 : (((cfg0.win 7).blk t).view.emb j) 1 = (⟨t.val * 10112 + (j 1).val, hp⟩ : Fin 20000) := Fin.ext (by
    show win0_7.index t (1 : Fin 2) * 10112 + 1 * (j 1).val = t.val * 10112 + (j 1).val; omega)
  show k0_pay4 (wS m c) (xblk m c t zfill) (bS m c) (win0_7.xinj (grid0.coords t) j)
    = headAt _ _ _ ((((cfg0.win 7).blk t).view.emb j) 1) ((((cfg0.win 7).blk t).view.emb j) 0)
  rw [hl, entry7 m c t _ _ hp]
  exact (congrArg₂ (headAt _ _ _) h1 h0).symm

/-- An index of the array is in point `t`'s block iff each coordinate is in the block's range on its axis. -/
theorem mem_blk7 (t : Fin cfg0.N) (i : S18x20000.Idx) :
    i ∈ ((cfg0.win 7).blk t).view.set ↔ ∀ a : Fin 2, win0_7.index t a * win0_7.size a ≤ (i a).val
      ∧ (i a).val < win0_7.index t a * win0_7.size a + win0_7.xsize (grid0.coords t) a := by
  show i ∈ ((View.whole main_v3_0).slice (win0_7.rect t)).set ↔ _
  rw [View.set_slice_whole, Rect.mem_set_unit]
  exact Iff.rfl

/-- The two blocks cover the array: columns below 10112 are in the first point's block, the others in the second's. -/
theorem cover7 (i : S18x20000.Idx) :
    ∃ t : Fin cfg0.N, (cfg0.win 7).flush t = true ∧ i ∈ ((cfg0.win 7).blk t).view.set := by
  have hi0 : (i 0).val < 18 := (i 0).isLt
  have hi1 : (i 1).val < 20000 := (i 1).isLt
  by_cases h : (i 1).val < 10112
  · refine ⟨t0_0, flush0_7 _, ?_⟩
    rw [mem_blk7]
    obtain ⟨e0, e1, e2, e3, e4, e5⟩ := idx_facts7 t0_0
    have e5' := e5 rfl
    have ht : t0_0.val = 0 := rfl
    intro a
    match a with
    | ⟨0, _⟩ =>
      show win0_7.index t0_0 (0 : Fin 2) * 18 ≤ (i 0).val ∧ (i 0).val < win0_7.index t0_0 (0 : Fin 2) * 18 + win0_7.xsize (grid0.coords t0_0) (0 : Fin 2)
      omega
    | ⟨1, _⟩ =>
      show win0_7.index t0_0 (1 : Fin 2) * 10112 ≤ (i 1).val ∧ (i 1).val < win0_7.index t0_0 (1 : Fin 2) * 10112 + win0_7.xsize (grid0.coords t0_0) (1 : Fin 2)
      omega
  · refine ⟨t0_1, flush0_7 _, ?_⟩
    rw [mem_blk7]
    obtain ⟨e0, e1, e2, e3, e4, e5⟩ := idx_facts7 t0_1
    have e4' := e4 rfl
    have ht : t0_1.val = 1 := rfl
    intro a
    match a with
    | ⟨0, _⟩ =>
      show win0_7.index t0_1 (0 : Fin 2) * 18 ≤ (i 0).val ∧ (i 0).val < win0_7.index t0_1 (0 : Fin 2) * 18 + win0_7.xsize (grid0.coords t0_1) (0 : Fin 2)
      omega
    | ⟨1, _⟩ =>
      show win0_7.index t0_1 (1 : Fin 2) * 10112 ≤ (i 1).val ∧ (i 1).val < win0_7.index t0_1 (1 : Fin 2) * 10112 + win0_7.xsize (grid0.coords t0_1) (1 : Fin 2)
      omega

/-- The array ends holding the first head with channels first. -/
theorem final7 (c : Dev nD) : (dats m 0 c).arrAt 7 cfg0.N = (headT (m ((c : Thread nD τ).loc main_arg0)) (m ((c : Thread nD τ).loc main_arg1)) (m ((c : Thread nD τ).loc main_arg2))) :=
  (dats m 0 c).arrAt_eq_of_cover 7 _ (fun t _ => flushed7_eq m c t) (cover7)

/-! ## Output window 8 -/

/-- The printed index map and cut, decided over the grid: one block of rows, the block of columns the point's; the
    second block of columns is cut to the 9888 inside the array. -/
theorem idx_facts8 : ∀ t : Fin cfg0.N, win0_8.index t (0 : Fin 2) = 0 ∧ win0_8.index t (1 : Fin 2) = t.val
    ∧ win0_8.xsize (grid0.coords t) (0 : Fin 2) = 42
    ∧ t.val * 10112 + win0_8.xsize (grid0.coords t) (1 : Fin 2) ≤ 20000
    ∧ (t.val = 1 → win0_8.xsize (grid0.coords t) (1 : Fin 2) = 9888)
    ∧ (t.val = 0 → win0_8.xsize (grid0.coords t) (1 : Fin 2) = 10112) :=
  (by decide +kernel : ∀ t : Fin grid0.N, _)

/-- Row `r`, column `p` of what the body leaves at point `t`, for a column inside the array: the second head at voxel
    `t * 10112 + p` and channel `r` (rows 24..65 of the packed operands). -/
theorem entry8 (c : Dev nD) (t : Fin cfg0.N) (r : Fin 42) (p : Fin 10112) (hp : t.val * 10112 + p.val < 20000) :
    k0_pay5 (F := Ideal) (wS m c) (xblk m c t zfill) (bS m c) (ix2 r p)
      = headAt (m ((c : Thread nD τ).loc main_arg0)) (m ((c : Thread nD τ).loc main_arg3)) (m ((c : Thread nD τ).loc main_arg4))
          (⟨t.val * 10112 + p.val, hp⟩ : Fin 20000) r := by
  refine (pay5_at _ _ _ r p).trans ?_
  unfold headAt wS bS xblk
  refine congrArg₂ (· + ·) (Finset.sum_congr rfl fun k _ => ?_) ?_
  · rw [packW_box, iblk2_at]
    rw [xfill_at m c t zfill p k hp]
    exact mul_comm _ _
  · rw [packB_box, iblk5_at]

/-- What point `t` writes back is its block of the second head with channels first. -/
theorem flushed8_eq (c : Dev nD) (t : Fin cfg0.N) :
    (dats m 0 c).flushed 8 t = ((cfg0.win 8).blk t).view.read (Elt Ideal) (headT (m ((c : Thread nD τ).loc main_arg0)) (m ((c : Thread nD τ).loc main_arg3)) (m ((c : Thread nD τ).loc main_arg4))) := by
  show (cfg0.win 8).cut (grid0.coords t) ((dats m 0 c).after 8 t) = _
  rw [after_8]
  obtain ⟨e0, e1, e2, e3, e4, e5⟩ := idx_facts8 t
  funext j
  have hj0 : (j 0).val < 42 := lt_of_lt_of_eq (j 0).isLt e2
  have hj1 : (j 1).val < win0_8.xsize (grid0.coords t) (1 : Fin 2) := (j 1).isLt
  have hx1 : win0_8.xsize (grid0.coords t) (1 : Fin 2) ≤ 10112 := win0_8.xsize_le _ _
  have hp : t.val * 10112 + (j 1).val < 20000 := by omega
  have hl : win0_8.xinj (grid0.coords t) j = ix2 (⟨(j 0).val, hj0⟩ : Fin 42) (⟨(j 1).val, by omega⟩ : Fin 10112) :=
    funext fun a => Fin.ext (by match a with | ⟨0, _⟩ => rfl | ⟨1, _⟩ => rfl)
  have h0 : (((cfg0.win 8).blk t).view.emb j) 0 = (⟨(j 0).val, hj0⟩ : Fin 42) := Fin.ext (by
    show win0_8.index t (0 : Fin 2) * 42 + 1 * (j 0).val = (j 0).val; omega)
  have h1 : (((cfg0.win 8).blk t).view.emb j) 1 = (⟨t.val * 10112 + (j 1).val, hp⟩ : Fin 20000) := Fin.ext (by
    show win0_8.index t (1 : Fin 2) * 10112 + 1 * (j 1).val = t.val * 10112 + (j 1).val; omega)
  show k0_pay5 (wS m c) (xblk m c t zfill) (bS m c) (win0_8.xinj (grid0.coords t) j)
    = headAt _ _ _ ((((cfg0.win 8).blk t).view.emb j) 1) ((((cfg0.win 8).blk t).view.emb j) 0)
  rw [hl, entry8 m c t _ _ hp]
  exact (congrArg₂ (headAt _ _ _) h1 h0).symm

/-- An index of the array is in point `t`'s block iff each coordinate is in the block's range on its axis. -/
theorem mem_blk8 (t : Fin cfg0.N) (i : S42x20000.Idx) :
    i ∈ ((cfg0.win 8).blk t).view.set ↔ ∀ a : Fin 2, win0_8.index t a * win0_8.size a ≤ (i a).val
      ∧ (i a).val < win0_8.index t a * win0_8.size a + win0_8.xsize (grid0.coords t) a := by
  show i ∈ ((View.whole main_v3_1).slice (win0_8.rect t)).set ↔ _
  rw [View.set_slice_whole, Rect.mem_set_unit]
  exact Iff.rfl

/-- The two blocks cover the array: columns below 10112 are in the first point's block, the others in the second's. -/
theorem cover8 (i : S42x20000.Idx) :
    ∃ t : Fin cfg0.N, (cfg0.win 8).flush t = true ∧ i ∈ ((cfg0.win 8).blk t).view.set := by
  have hi0 : (i 0).val < 42 := (i 0).isLt
  have hi1 : (i 1).val < 20000 := (i 1).isLt
  by_cases h : (i 1).val < 10112
  · refine ⟨t0_0, flush0_8 _, ?_⟩
    rw [mem_blk8]
    obtain ⟨e0, e1, e2, e3, e4, e5⟩ := idx_facts8 t0_0
    have e5' := e5 rfl
    have ht : t0_0.val = 0 := rfl
    intro a
    match a with
    | ⟨0, _⟩ =>
      show win0_8.index t0_0 (0 : Fin 2) * 42 ≤ (i 0).val ∧ (i 0).val < win0_8.index t0_0 (0 : Fin 2) * 42 + win0_8.xsize (grid0.coords t0_0) (0 : Fin 2)
      omega
    | ⟨1, _⟩ =>
      show win0_8.index t0_0 (1 : Fin 2) * 10112 ≤ (i 1).val ∧ (i 1).val < win0_8.index t0_0 (1 : Fin 2) * 10112 + win0_8.xsize (grid0.coords t0_0) (1 : Fin 2)
      omega
  · refine ⟨t0_1, flush0_8 _, ?_⟩
    rw [mem_blk8]
    obtain ⟨e0, e1, e2, e3, e4, e5⟩ := idx_facts8 t0_1
    have e4' := e4 rfl
    have ht : t0_1.val = 1 := rfl
    intro a
    match a with
    | ⟨0, _⟩ =>
      show win0_8.index t0_1 (0 : Fin 2) * 42 ≤ (i 0).val ∧ (i 0).val < win0_8.index t0_1 (0 : Fin 2) * 42 + win0_8.xsize (grid0.coords t0_1) (0 : Fin 2)
      omega
    | ⟨1, _⟩ =>
      show win0_8.index t0_1 (1 : Fin 2) * 10112 ≤ (i 1).val ∧ (i 1).val < win0_8.index t0_1 (1 : Fin 2) * 10112 + win0_8.xsize (grid0.coords t0_1) (1 : Fin 2)
      omega

/-- The array ends holding the second head with channels first. -/
theorem final8 (c : Dev nD) : (dats m 0 c).arrAt 8 cfg0.N = (headT (m ((c : Thread nD τ).loc main_arg0)) (m ((c : Thread nD τ).loc main_arg3)) (m ((c : Thread nD τ).loc main_arg4))) :=
  (dats m 0 c).arrAt_eq_of_cover 8 _ (fun t _ => flushed8_eq m c t) (cover8)

/-! ## Output window 9 -/

/-- The printed index map and cut, decided over the grid: one block of rows, the block of columns the point's; the
    second block of columns is cut to the 9888 inside the array. -/
theorem idx_facts9 : ∀ t : Fin cfg0.N, win0_9.index t (0 : Fin 2) = 0 ∧ win0_9.index t (1 : Fin 2) = t.val
    ∧ win0_9.xsize (grid0.coords t) (0 : Fin 2) = 6
    ∧ t.val * 10112 + win0_9.xsize (grid0.coords t) (1 : Fin 2) ≤ 20000
    ∧ (t.val = 1 → win0_9.xsize (grid0.coords t) (1 : Fin 2) = 9888)
    ∧ (t.val = 0 → win0_9.xsize (grid0.coords t) (1 : Fin 2) = 10112) :=
  (by decide +kernel : ∀ t : Fin grid0.N, _)

/-- Row `r`, column `p` of what the body leaves at point `t`, for a column inside the array: the third head at voxel
    `t * 10112 + p` and channel `r` (rows 72..77 of the packed operands). -/
theorem entry9 (c : Dev nD) (t : Fin cfg0.N) (r : Fin 6) (p : Fin 10112) (hp : t.val * 10112 + p.val < 20000) :
    k0_pay6 (F := Ideal) (wS m c) (xblk m c t zfill) (bS m c) (ix2 r p)
      = headAt (m ((c : Thread nD τ).loc main_arg0)) (m ((c : Thread nD τ).loc main_arg5)) (m ((c : Thread nD τ).loc main_arg6))
          (⟨t.val * 10112 + p.val, hp⟩ : Fin 20000) r := by
  refine (pay6_at _ _ _ r p).trans ?_
  unfold headAt wS bS xblk
  refine congrArg₂ (· + ·) (Finset.sum_congr rfl fun k _ => ?_) ?_
  · rw [packW_obj, iblk3_at]
    rw [xfill_at m c t zfill p k hp]
    exact mul_comm _ _
  · rw [packB_obj, iblk6_at]

/-- What point `t` writes back is its block of the third head with channels first. -/
theorem flushed9_eq (c : Dev nD) (t : Fin cfg0.N) :
    (dats m 0 c).flushed 9 t = ((cfg0.win 9).blk t).view.read (Elt Ideal) (headT (m ((c : Thread nD τ).loc main_arg0)) (m ((c : Thread nD τ).loc main_arg5)) (m ((c : Thread nD τ).loc main_arg6))) := by
  show (cfg0.win 9).cut (grid0.coords t) ((dats m 0 c).after 9 t) = _
  rw [after_9]
  obtain ⟨e0, e1, e2, e3, e4, e5⟩ := idx_facts9 t
  funext j
  have hj0 : (j 0).val < 6 := lt_of_lt_of_eq (j 0).isLt e2
  have hj1 : (j 1).val < win0_9.xsize (grid0.coords t) (1 : Fin 2) := (j 1).isLt
  have hx1 : win0_9.xsize (grid0.coords t) (1 : Fin 2) ≤ 10112 := win0_9.xsize_le _ _
  have hp : t.val * 10112 + (j 1).val < 20000 := by omega
  have hl : win0_9.xinj (grid0.coords t) j = ix2 (⟨(j 0).val, hj0⟩ : Fin 6) (⟨(j 1).val, by omega⟩ : Fin 10112) :=
    funext fun a => Fin.ext (by match a with | ⟨0, _⟩ => rfl | ⟨1, _⟩ => rfl)
  have h0 : (((cfg0.win 9).blk t).view.emb j) 0 = (⟨(j 0).val, hj0⟩ : Fin 6) := Fin.ext (by
    show win0_9.index t (0 : Fin 2) * 6 + 1 * (j 0).val = (j 0).val; omega)
  have h1 : (((cfg0.win 9).blk t).view.emb j) 1 = (⟨t.val * 10112 + (j 1).val, hp⟩ : Fin 20000) := Fin.ext (by
    show win0_9.index t (1 : Fin 2) * 10112 + 1 * (j 1).val = t.val * 10112 + (j 1).val; omega)
  show k0_pay6 (wS m c) (xblk m c t zfill) (bS m c) (win0_9.xinj (grid0.coords t) j)
    = headAt _ _ _ ((((cfg0.win 9).blk t).view.emb j) 1) ((((cfg0.win 9).blk t).view.emb j) 0)
  rw [hl, entry9 m c t _ _ hp]
  exact (congrArg₂ (headAt _ _ _) h1 h0).symm

/-- An index of the array is in point `t`'s block iff each coordinate is in the block's range on its axis. -/
theorem mem_blk9 (t : Fin cfg0.N) (i : S6x20000.Idx) :
    i ∈ ((cfg0.win 9).blk t).view.set ↔ ∀ a : Fin 2, win0_9.index t a * win0_9.size a ≤ (i a).val
      ∧ (i a).val < win0_9.index t a * win0_9.size a + win0_9.xsize (grid0.coords t) a := by
  show i ∈ ((View.whole main_v3_2).slice (win0_9.rect t)).set ↔ _
  rw [View.set_slice_whole, Rect.mem_set_unit]
  exact Iff.rfl

/-- The two blocks cover the array: columns below 10112 are in the first point's block, the others in the second's. -/
theorem cover9 (i : S6x20000.Idx) :
    ∃ t : Fin cfg0.N, (cfg0.win 9).flush t = true ∧ i ∈ ((cfg0.win 9).blk t).view.set := by
  have hi0 : (i 0).val < 6 := (i 0).isLt
  have hi1 : (i 1).val < 20000 := (i 1).isLt
  by_cases h : (i 1).val < 10112
  · refine ⟨t0_0, flush0_9 _, ?_⟩
    rw [mem_blk9]
    obtain ⟨e0, e1, e2, e3, e4, e5⟩ := idx_facts9 t0_0
    have e5' := e5 rfl
    have ht : t0_0.val = 0 := rfl
    intro a
    match a with
    | ⟨0, _⟩ =>
      show win0_9.index t0_0 (0 : Fin 2) * 6 ≤ (i 0).val ∧ (i 0).val < win0_9.index t0_0 (0 : Fin 2) * 6 + win0_9.xsize (grid0.coords t0_0) (0 : Fin 2)
      omega
    | ⟨1, _⟩ =>
      show win0_9.index t0_0 (1 : Fin 2) * 10112 ≤ (i 1).val ∧ (i 1).val < win0_9.index t0_0 (1 : Fin 2) * 10112 + win0_9.xsize (grid0.coords t0_0) (1 : Fin 2)
      omega
  · refine ⟨t0_1, flush0_9 _, ?_⟩
    rw [mem_blk9]
    obtain ⟨e0, e1, e2, e3, e4, e5⟩ := idx_facts9 t0_1
    have e4' := e4 rfl
    have ht : t0_1.val = 1 := rfl
    intro a
    match a with
    | ⟨0, _⟩ =>
      show win0_9.index t0_1 (0 : Fin 2) * 6 ≤ (i 0).val ∧ (i 0).val < win0_9.index t0_1 (0 : Fin 2) * 6 + win0_9.xsize (grid0.coords t0_1) (0 : Fin 2)
      omega
    | ⟨1, _⟩ =>
      show win0_9.index t0_1 (1 : Fin 2) * 10112 ≤ (i 1).val ∧ (i 1).val < win0_9.index t0_1 (1 : Fin 2) * 10112 + win0_9.xsize (grid0.coords t0_1) (1 : Fin 2)
      omega

/-- The array ends holding the third head with channels first. -/
theorem final9 (c : Dev nD) : (dats m 0 c).arrAt 9 cfg0.N = (headT (m ((c : Thread nD τ).loc main_arg0)) (m ((c : Thread nD τ).loc main_arg5)) (m ((c : Thread nD τ).loc main_arg6))) :=
  (dats m 0 c).arrAt_eq_of_cover 9 _ (fun t _ => flushed9_eq m c t) (cover9)

end Cert.KernelIdeal.Final

end
-- ==== Proof.ITail.lean ====
/-
  After the region the host transposes each of the three channels-first output arrays into the result's layout.
  First, for any float instance: each result buffer ends at the transpose of what the pipeline's output array holds
  after the last grid point.  Second, on the extended reals: the transpose of the channels-first head is the head,
  both being the same prediction read at swapped coordinates.
-/
import proofs.«179534_g59124519797212_fold_wed_c4_776_33_alg».proof.Proof.IData
import proofs.«179534_g59124519797212_fold_wed_c4_776_33_alg».proof.Proof.HeadSpec
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Tail

open Cert.KernelIdeal Cert.KernelIdeal.Gen Cert.KernelIdeal.Hand Cert.Heads
open Idealize.ShloMosaic Idealize.ShloMosaic.TcCoe Idealize.ShloMosaic.ValueIdx Idealize.SL.Sem
open Idealize.ShloMosaic.Pipeline (Dat)

section Generic

variable {F : FTy → Type} [FloatOps F] (m : (ℓ : Loc nD τ sig) → Buf (Elt F) ℓ)

/-- The result buffer main_v4 ends at the transpose of output window 7's array after the last grid point. -/
theorem tail_v4 (c : Dev nD) : Pipeline.afterTail₀ cfgs (dats m) 0 (V0 m) [hostOps1] c main_v4
    = transpose S20000x18 [1, 0] ((dats m 0 c).arrAt 7 cfg0.N) Facts₀.transposes_S18x20000_S20000x18_1_0 := by
  unfold Pipeline.afterTail₀
  show StableHlo.after hostOps1 _ (Proc.devRef .tc main_v4) = _
  after_results
  exact congrArg (fun a => transpose S20000x18 [1, 0] a Facts₀.transposes_S18x20000_S20000x18_1_0)
    (Pipeline.withArrays_arr spec0 launch0.win.arr_inj c _ _ 7)

/-- The result buffer main_v5 ends at the transpose of output window 8's array after the last grid point. -/
theorem tail_v5 (c : Dev nD) : Pipeline.afterTail₀ cfgs (dats m) 0 (V0 m) [hostOps1] c main_v5
    = transpose S20000x42 [1, 0] ((dats m 0 c).arrAt 8 cfg0.N) Facts₀.transposes_S42x20000_S20000x42_1_0 := by
  unfold Pipeline.afterTail₀
  show StableHlo.after hostOps1 _ (Proc.devRef .tc main_v5) = _
  after_results
  exact congrArg (fun a => transpose S20000x42 [1, 0] a Facts₀.transposes_S42x20000_S20000x42_1_0)
    (Pipeline.withArrays_arr spec0 launch0.win.arr_inj c _ _ 8)

/-- The result buffer main_v6 ends at the transpose of output window 9's array after the last grid point. -/
theorem tail_v6 (c : Dev nD) : Pipeline.afterTail₀ cfgs (dats m) 0 (V0 m) [hostOps1] c main_v6
    = transpose S20000x6 [1, 0] ((dats m 0 c).arrAt 9 cfg0.N) Facts₀.transposes_S6x20000_S20000x6_1_0 := by
  unfold Pipeline.afterTail₀
  show StableHlo.after hostOps1 _ (Proc.devRef .tc main_v6) = _
  after_results
  exact congrArg (fun a => transpose S20000x6 [1, 0] a Facts₀.transposes_S6x20000_S20000x6_1_0)
    (Pipeline.withArrays_arr spec0 launch0.win.arr_inj c _ _ 9)

end Generic

/-- The channels-first head transposed is the head: both are the prediction at voxel p, channel q. -/
theorem transpose_headT_cls (x : (⟨2, ![20000, 256]⟩ : Shape).Idx → EReal) (W : (⟨2, ![256, 18]⟩ : Shape).Idx → EReal)
    (b : (⟨1, ![18]⟩ : Shape).Idx → EReal) :
    (transpose S20000x18 [1, 0] (headT x W b) Facts₀.transposes_S18x20000_S20000x18_1_0 : S20000x18.Idx → EReal) = head x W b := by
  funext i
  obtain ⟨p, q, rfl⟩ : ∃ (p : Fin 20000) (q : Fin 18), i = ix2 p q := ⟨i 0, i 1, eq_ix2 i⟩
  refine (transpose_ix2_apply (headT x W b) _ p q).trans ?_
  rw [headT_apply, head_apply]

/-- The channels-first head transposed is the head: both are the prediction at voxel p, channel q. -/
theorem transpose_headT_box (x : (⟨2, ![20000, 256]⟩ : Shape).Idx → EReal) (W : (⟨2, ![256, 42]⟩ : Shape).Idx → EReal)
    (b : (⟨1, ![42]⟩ : Shape).Idx → EReal) :
    (transpose S20000x42 [1, 0] (headT x W b) Facts₀.transposes_S42x20000_S20000x42_1_0 : S20000x42.Idx → EReal) = head x W b := by
  funext i
  obtain ⟨p, q, rfl⟩ : ∃ (p : Fin 20000) (q : Fin 42), i = ix2 p q := ⟨i 0, i 1, eq_ix2 i⟩
  refine (transpose_ix2_apply (headT x W b) _ p q).trans ?_
  rw [headT_apply, head_apply]

/-- The channels-first head transposed is the head: both are the prediction at voxel p, channel q. -/
theorem transpose_headT_obj (x : (⟨2, ![20000, 256]⟩ : Shape).Idx → EReal) (W : (⟨2, ![256, 6]⟩ : Shape).Idx → EReal)
    (b : (⟨1, ![6]⟩ : Shape).Idx → EReal) :
    (transpose S20000x6 [1, 0] (headT x W b) Facts₀.transposes_S6x20000_S20000x6_1_0 : S20000x6.Idx → EReal) = head x W b := by
  funext i
  obtain ⟨p, q, rfl⟩ : ∃ (p : Fin 20000) (q : Fin 6), i = ix2 p q := ⟨i 0, i 1, eq_ix2 i⟩
  refine (transpose_ix2_apply (headT x W b) _ p q).trans ?_
  rw [headT_apply, head_apply]

end Cert.KernelIdeal.Tail

end
-- ==== Proof.RefHeads.lean ====
/-
  The reference program's three results are the linear heads: each is a matrix product of the feature matrix with a
  weight matrix, plus a bias broadcast along the voxels.  Read at a voxel p and a channel q, the product is the sum over
  the features k of x(p,k) * W(k,q) and the broadcast bias is b(q), which is the head of HeadSpec at (p, q).
-/
import proofs.«179534_g59124519797212_fold_wed_c4_776_33_alg».proof.Proof.Gen.ReferenceIdeal.Read
import proofs.«179534_g59124519797212_fold_wed_c4_776_33_alg».proof.Proof.HeadSpec

noncomputable section

namespace Cert.RefHeads

open Cert.ReferenceIdeal Cert.ReferenceIdeal.Read Idealize.ShloMosaic Idealize.ShloMosaic.ValueIdx Idealize.SL.Sem

/-- The 18-channel head: the product's element plus the broadcast bias's element is the head's value. -/
theorem ref_cls (x : (⟨Cert.ReferenceIdeal.S20000x256, .f32⟩ : BufTy).Contents (Elt Ideal))
    (W : (⟨Cert.ReferenceIdeal.S256x18, .f32⟩ : BufTy).Contents (Elt Ideal))
    (b : (⟨Cert.ReferenceIdeal.S18, .f32⟩ : BufTy).Contents (Elt Ideal)) :
    Cert.ReferenceIdeal.Read.val_main_v3 (F := Ideal) x W b = Cert.Heads.head x W b := by
  funext i
  obtain ⟨p, q, rfl⟩ : ∃ (p : Fin 20000) (q : Fin 18), i = ix2 p q := ⟨i 0, i 1, eq_ix2 i⟩
  rw [val_main_v3_apply, val_main_v0_apply, val_main_v2_apply, val_main_v1_apply]
  -- the product reads x at (p, k) and W at (k, q); the two broadcasts read b at q
  have el : ∀ k : Fin 256, lidx_main_v0 (ix2 p q) k = ix2 p k := fun k =>
    funext fun a => Fin.ext (by match a with | ⟨0, _⟩ => rfl | ⟨1, _⟩ => rfl)
  have er : ∀ k : Fin 256, ridx_main_v0 (ix2 p q) k = ix2 k q := fun k =>
    funext fun a => Fin.ext (by match a with | ⟨0, _⟩ => rfl | ⟨1, _⟩ => rfl)
  have eb : idx_main_v1 (idx_main_v2 (ix2 p q)) = ix1 q :=
    funext fun a => Fin.ext (by match a with | ⟨0, _⟩ => rfl)
  rw [Cert.Heads.head_apply, Ideal.addf_def, eb]
  unfold Cert.Heads.headAt
  refine congrArg (· + b (ix1 q)) (Finset.sum_congr rfl fun k _ => ?_)
  rw [el k, er k]

/-- The 42-channel head, by the same reading. -/
theorem ref_box (x : (⟨Cert.ReferenceIdeal.S20000x256, .f32⟩ : BufTy).Contents (Elt Ideal))
    (W : (⟨Cert.ReferenceIdeal.S256x42, .f32⟩ : BufTy).Contents (Elt Ideal))
    (b : (⟨Cert.ReferenceIdeal.S42, .f32⟩ : BufTy).Contents (Elt Ideal)) :
    Cert.ReferenceIdeal.Read.val_main_v11 (F := Ideal) x W b = Cert.Heads.head x W b := by
  funext i
  obtain ⟨p, q, rfl⟩ : ∃ (p : Fin 20000) (q : Fin 42), i = ix2 p q := ⟨i 0, i 1, eq_ix2 i⟩
  rw [val_main_v11_apply, val_main_v8_apply, val_main_v10_apply, val_main_v9_apply]
  -- the product reads x at (p, k) and W at (k, q); the two broadcasts read b at q
  have el : ∀ k : Fin 256, lidx_main_v8 (ix2 p q) k = ix2 p k := fun k =>
    funext fun a => Fin.ext (by match a with | ⟨0, _⟩ => rfl | ⟨1, _⟩ => rfl)
  have er : ∀ k : Fin 256, ridx_main_v8 (ix2 p q) k = ix2 k q := fun k =>
    funext fun a => Fin.ext (by match a with | ⟨0, _⟩ => rfl | ⟨1, _⟩ => rfl)
  have eb : idx_main_v9 (idx_main_v10 (ix2 p q)) = ix1 q :=
    funext fun a => Fin.ext (by match a with | ⟨0, _⟩ => rfl)
  rw [Cert.Heads.head_apply, Ideal.addf_def, eb]
  unfold Cert.Heads.headAt
  refine congrArg (· + b (ix1 q)) (Finset.sum_congr rfl fun k _ => ?_)
  rw [el k, er k]

/-- The 6-channel head, by the same reading. -/
theorem ref_obj (x : (⟨Cert.ReferenceIdeal.S20000x256, .f32⟩ : BufTy).Contents (Elt Ideal))
    (W : (⟨Cert.ReferenceIdeal.S256x6, .f32⟩ : BufTy).Contents (Elt Ideal))
    (b : (⟨Cert.ReferenceIdeal.S6, .f32⟩ : BufTy).Contents (Elt Ideal)) :
    Cert.ReferenceIdeal.Read.val_main_v7 (F := Ideal) x W b = Cert.Heads.head x W b := by
  funext i
  obtain ⟨p, q, rfl⟩ : ∃ (p : Fin 20000) (q : Fin 6), i = ix2 p q := ⟨i 0, i 1, eq_ix2 i⟩
  rw [val_main_v7_apply, val_main_v4_apply, val_main_v6_apply, val_main_v5_apply]
  -- the product reads x at (p, k) and W at (k, q); the two broadcasts read b at q
  have el : ∀ k : Fin 256, lidx_main_v4 (ix2 p q) k = ix2 p k := fun k =>
    funext fun a => Fin.ext (by match a with | ⟨0, _⟩ => rfl | ⟨1, _⟩ => rfl)
  have er : ∀ k : Fin 256, ridx_main_v4 (ix2 p q) k = ix2 k q := fun k =>
    funext fun a => Fin.ext (by match a with | ⟨0, _⟩ => rfl | ⟨1, _⟩ => rfl)
  have eb : idx_main_v5 (idx_main_v6 (ix2 p q)) = ix1 q :=
    funext fun a => Fin.ext (by match a with | ⟨0, _⟩ => rfl)
  rw [Cert.Heads.head_apply, Ideal.addf_def, eb]
  unfold Cert.Heads.headAt
  refine congrArg (· + b (ix1 q)) (Finset.sum_congr rfl fun k _ => ?_)
  rw [el k, er k]

end Cert.RefHeads

end
-- ==== Proof.lean ====
/-
  The kernel computes three linear heads of a detection layer over 20000 voxels with 256 features each,
      cls = x W_cls + b_cls,   box = x W_box + b_box,   obj = x W_obj + b_obj,
  in one pass over x: it packs the three TRANSPOSED weight matrices into one 80-row scratch buffer (rows 0, 24, 72) and
  the biases into one 80-entry row at the grid's first point, multiplies the packed weights against each block of
  10112 rows of x with both operands contracted along the features, adds the bias column, and stores the three row
  slices as blocks of the channels-first outputs; the host transposes them back.  The reference computes the three
  products and adds the broadcast biases.

  At the ideal instance both end at the same function of the arguments: the prediction at voxel p and channel q is
  the sum over the features k of x(p,k) W(k,q), plus b(q) (`Cert.Heads.head`).  On the kernel's side the sum's terms are
  W(k,q) x(p,k); multiplication of extended reals is commutative, and nothing else is needed: no distributivity, no
  cancellation, so the precondition (finite inputs) is not used.  The second block of x overhangs the array; the rows
  past the array's end reach only the columns of the product that are never written back.

  The three frames: the word-level kernel's by a run that forgets what the body leaves in the outputs (the bit-exact
  matrix product is not known to be local in its right operand); the idealized kernel's from the run that names them;
  the reference's from its generated run.  The ideal pass rewrote nothing, so `preserves` is `True`.
-/
import proofs.«179534_g59124519797212_fold_wed_c4_776_33_alg».proof.Defs
import proofs.«179534_g59124519797212_fold_wed_c4_776_33_alg».proof.Proof.Gen.Kernel
import proofs.«179534_g59124519797212_fold_wed_c4_776_33_alg».proof.Proof.Gen.KernelIdeal
import proofs.«179534_g59124519797212_fold_wed_c4_776_33_alg».proof.Proof.Gen.ReferenceIdeal
import proofs.«179534_g59124519797212_fold_wed_c4_776_33_alg».proof.Proof.Gen.Pre_finite_inputs
import proofs.«179534_g59124519797212_fold_wed_c4_776_33_alg».proof.Proof.Gen.ReferenceIdeal.Run
import proofs.«179534_g59124519797212_fold_wed_c4_776_33_alg».proof.Proof.Gen.ReferenceIdeal.Read
import proofs.«179534_g59124519797212_fold_wed_c4_776_33_alg».proof.Proof.BFrame
import proofs.«179534_g59124519797212_fold_wed_c4_776_33_alg».proof.Proof.IRun
import proofs.«179534_g59124519797212_fold_wed_c4_776_33_alg».proof.Proof.ILocal
import proofs.«179534_g59124519797212_fold_wed_c4_776_33_alg».proof.Proof.IFinal
import proofs.«179534_g59124519797212_fold_wed_c4_776_33_alg».proof.Proof.ITail
import proofs.«179534_g59124519797212_fold_wed_c4_776_33_alg».proof.Proof.RefHeads
import Idealize.ShloMosaic.Adequacy
import Idealize.ShloMosaic.Init

set_option maxRecDepth 16384

noncomputable section

namespace Cert.Proof

open Idealize.ShloMosaic Idealize.ShloMosaic.TcCoe Idealize.SL.Sem

/-- The product's column j sees only row j of x's block: the rows past the array's end do not reach what is written
    back (at the ideal instance, where the matrix product is the sum of products). -/
theorem locality : Cert.KernelIdeal.Hand.Locality Ideal :=
  ⟨Cert.KernelIdeal.Local.cut7_congr, Cert.KernelIdeal.Local.cut8_congr, Cert.KernelIdeal.Local.cut9_congr⟩

theorem frame_k : Cert.frame_Kernel := fun m ρ _ => Cert.Kernel.Hand.frame (F := Bits) m ρ

theorem frame_ki : Cert.frame_KernelIdeal := fun m ρ _ => Cert.KernelIdeal.Hand.frame (F := Ideal) m ρ locality

theorem frame_ri : Cert.frame_ReferenceIdeal := fun m ρ _ =>
  (θ_run Cert.ReferenceIdeal.defs _ _).mono (fun _ h c => (h c).2.2.2) (Cert.ReferenceIdeal.Value.run (F := Ideal) m ρ)

/-- The ideal pass rewrote nothing. -/
theorem preserves : Cert.preserves_Kernel_KernelIdeal := trivial

/-- Both idealized programs end with the three heads of the arguments. -/
theorem algebraic : Cert.algebraic_KernelIdeal_ReferenceIdeal := by
  intro m ρ m' ρ' _ hagree
  refine ⟨fun c => Cert.Heads.head (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    fun c => Cert.Heads.head (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    fun c => Cert.Heads.head (m ((c.tc : Thread Cert.KernelIdeal.nD Cert.KernelIdeal.τ).loc Cert.KernelIdeal.main_arg0)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · refine (θ_run Cert.KernelIdeal.defs _ _).mono (fun r h c => ?_) (Cert.KernelIdeal.Hand.run_main (F := Ideal) m ρ locality)
    refine ⟨?_, ?_, ?_,
      ((h c).1 0).trans (((Cert.KernelIdeal.Hand.dats m 0 c).arrAt_in 0 rfl _).trans ((Cert.KernelIdeal.Hand.A_eq m c 0).trans (Cert.KernelIdeal.Gen.V_main_arg0 m c))),
      (((h c).2 Cert.KernelIdeal.main_arg1 (Pipeline.mem_restRefs_of Cert.KernelIdeal.main_arg1 (by decide) (by decide))).trans (Cert.KernelIdeal.Gen.W_main_arg1 m (Cert.KernelIdeal.Hand.dats m) c)),
      ((h c).1 4).trans (((Cert.KernelIdeal.Hand.dats m 0 c).arrAt_in 4 rfl _).trans ((Cert.KernelIdeal.Hand.A_eq m c 4).trans (Cert.KernelIdeal.Gen.V_main_arg2 m c))),
      (((h c).2 Cert.KernelIdeal.main_arg3 (Pipeline.mem_restRefs_of Cert.KernelIdeal.main_arg3 (by decide) (by decide))).trans (Cert.KernelIdeal.Gen.W_main_arg3 m (Cert.KernelIdeal.Hand.dats m) c)),
      ((h c).1 5).trans (((Cert.KernelIdeal.Hand.dats m 0 c).arrAt_in 5 rfl _).trans ((Cert.KernelIdeal.Hand.A_eq m c 5).trans (Cert.KernelIdeal.Gen.V_main_arg4 m c))),
      (((h c).2 Cert.KernelIdeal.main_arg5 (Pipeline.mem_restRefs_of Cert.KernelIdeal.main_arg5 (by decide) (by decide))).trans (Cert.KernelIdeal.Gen.W_main_arg5 m (Cert.KernelIdeal.Hand.dats m) c)),
      ((h c).1 6).trans (((Cert.KernelIdeal.Hand.dats m 0 c).arrAt_in 6 rfl _).trans ((Cert.KernelIdeal.Hand.A_eq m c 6).trans (Cert.KernelIdeal.Gen.V_main_arg6 m c)))⟩
    · refine ((h c).2 Cert.KernelIdeal.main_v4 (Pipeline.mem_restRefs_of Cert.KernelIdeal.main_v4 (by decide) (by decide))).trans ((Cert.KernelIdeal.Tail.tail_v4 m c).trans ?_)
      rw [Cert.KernelIdeal.Final.final7 m c]
      exact Cert.KernelIdeal.Tail.transpose_headT_cls _ _ _
    · refine ((h c).2 Cert.KernelIdeal.main_v5 (Pipeline.mem_restRefs_of Cert.KernelIdeal.main_v5 (by decide) (by decide))).trans ((Cert.KernelIdeal.Tail.tail_v5 m c).trans ?_)
      rw [Cert.KernelIdeal.Final.final8 m c]
      exact Cert.KernelIdeal.Tail.transpose_headT_box _ _ _
    · refine ((h c).2 Cert.KernelIdeal.main_v6 (Pipeline.mem_restRefs_of Cert.KernelIdeal.main_v6 (by decide) (by decide))).trans ((Cert.KernelIdeal.Tail.tail_v6 m c).trans ?_)
      rw [Cert.KernelIdeal.Final.final9 m c]
      exact Cert.KernelIdeal.Tail.transpose_headT_obj _ _ _
  · refine (θ_run Cert.ReferenceIdeal.defs _ _).mono (fun r h c => ⟨?_, ?_, ?_, (h c).2.2.2⟩) (Cert.ReferenceIdeal.Value.run (F := Ideal) m' ρ')
    · refine ((h c).1.trans (Cert.ReferenceIdeal.Read.val_main_v3_eq _ _ _)).trans ((Cert.RefHeads.ref_cls _ _ _).trans ?_)
      rw [(hagree c).1, (hagree c).2.1, (hagree c).2.2.1]
    · refine ((h c).2.1.trans (Cert.ReferenceIdeal.Read.val_main_v11_eq _ _ _)).trans ((Cert.RefHeads.ref_box _ _ _).trans ?_)
      rw [(hagree c).1, (hagree c).2.2.2.1, (hagree c).2.2.2.2.1]
    · refine ((h c).2.2.1.trans (Cert.ReferenceIdeal.Read.val_main_v7_eq _ _ _)).trans ((Cert.RefHeads.ref_obj _ _ _).trans ?_)
      rw [(hagree c).1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
